-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x1 : Shape := ⟨2, ![1600000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S64 .f32) (main_arg11 : FVec F S64x32 .f32) (main_arg12 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg12 main_v48 main_v49 main_v50

def fn_part1 {F : FTy → Type} [FloatOps F] (main_arg5 : FVec F S16x1 .f32) (main_arg6 : FVec F S1 .f32) (main_arg7 : FVec F S64x64 .f32) (main_arg8 : FVec F S64 .f32) (main_arg9 : FVec F S64x64 .f32) (main_arg10 : FVec F S64 .f32) (main_arg11 : FVec F S64x32 .f32) (main_arg12 : FVec F S32 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x1 .f32 := Host.absf main_arg5
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : IVec S2x1600000 32) (main_arg2 : FVec F S1600000x1 .f32) (main_arg3 : FVec F S1x16 .f32) (main_arg4 : FVec F S16 .f32) (main_arg5 : FVec F S16x1 .f32) (main_arg6 : FVec F S1 .f32) (main_arg7 : FVec F S64x64 .f32) (main_arg8 : FVec F S64 .f32) (main_arg9 : FVec F S64x64 .f32) (main_arg10 : FVec F S64 .f32) (main_arg11 : FVec F S64x32 .f32) (main_arg12 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S1600000x1 : Shape := ⟨2, ![1600000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S12500x128 : Shape := ⟨2, ![12500, 128]⟩
abbrev S1x1 : Shape := ⟨2, ![1, 1]⟩
abbrev S1000x128 : Shape := ⟨2, ![1000, 128]⟩
abbrev S_ : Shape := ⟨0, ![]⟩
abbrev S1x64 : Shape := ⟨2, ![1, 64]⟩
abbrev S2000x64 : Shape := ⟨2, ![2000, 64]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1x32 : Shape := ⟨2, ![1, 32]⟩
abbrev S100000x32 : Shape := ⟨2, ![100000, 32]⟩
abbrev S2000x32 : Shape := ⟨2, ![2000, 32]⟩

abbrev nBuf : Space → Nat
  | .hbm => 153
  | .vmem => 26
  | .smem => 0
  | _ => 0

abbrev hbmTy0_0 (i : Nat) : BufTy := match i % 128 with
  | 0 => ⟨S100000x64, .f32⟩
  | 1 => ⟨S2x1600000, .i32⟩
  | 2 => ⟨S1600000x1, .f32⟩
  | 3 => ⟨S1x16, .f32⟩
  | 4 => ⟨S16, .f32⟩
  | 5 => ⟨S16x1, .f32⟩
  | 6 => ⟨S1, .f32⟩
  | 7 => ⟨S64x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S1x1600000, .i32⟩
  | 14 => ⟨S1600000, .i32⟩
  | 15 => ⟨S1x1600000, .i32⟩
  | 16 => ⟨S1600000, .i32⟩
  | 17 => ⟨S12500x128, .f32⟩
  | 18 => ⟨S1x16, .f32⟩
  | 19 => ⟨S1x1, .f32⟩
  | 20 => ⟨S12500x128, .f32⟩
  | 21 => ⟨S1600000, .f32⟩
  | 22 => ⟨S_, .f32⟩
  | 23 => ⟨S64, .f32⟩
  | 24 => ⟨S1x64, .f32⟩
  | 25 => ⟨S100000x64, .f32⟩
  | 26 => ⟨S100000, .i32⟩
  | 27 => ⟨S1700000, .i32⟩
  | 28 => ⟨S1700000, .i32⟩
  | 29 => ⟨S_, .f32⟩
  | 30 => ⟨S100000, .f32⟩
  | 31 => ⟨S1700000, .f32⟩
  | 32 => ⟨S_, .f32⟩
  | 33 => ⟨S100000, .f32⟩
  | 34 => ⟨S1700000x1, .i32⟩
  | 35 => ⟨S100000, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S1700000x1, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x64, .f32⟩
  | 77 => ⟨S1700000x64, .f32⟩
  | 78 => ⟨S1700000x64, .f32⟩
  | 79 => ⟨S_, .f32⟩
  | 80 => ⟨S100000x64, .f32⟩
  | 81 => ⟨S1700000x1, .i32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S1x64, .f32⟩
  | 90 => ⟨S100000x64, .f32⟩
  | 91 => ⟨S100000, .i32⟩
  | 92 => ⟨S1700000, .i32⟩
  | 93 => ⟨S1700000, .i32⟩
  | 94 => ⟨S_, .f32⟩
  | 95 => ⟨S100000, .f32⟩
  | 96 => ⟨S1700000, .f32⟩
  | 97 => ⟨S_, .f32⟩
  | 98 => ⟨S100000, .f32⟩
  | 99 => ⟨S1700000x1, .i32⟩
  | 100 => ⟨S100000, .f32⟩
  | 101 => ⟨S_, .f32⟩
  | 102 => ⟨S100000, .f32⟩
  | 103 => ⟨S100000, .i1⟩
  | 104 => ⟨S_, .f32⟩
  | 105 => ⟨S100000, .f32⟩
  | 106 => ⟨S100000, .f32⟩
  | 107 => ⟨S100000, .f32⟩
  | 108 => ⟨S_, .f32⟩
  | 109 => ⟨S_, .f32⟩
  | 110 => ⟨S100000, .f32⟩
  | 111 => ⟨S100000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000, .f32⟩
  | 121 => ⟨S1700000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x64, .f32⟩

abbrev hbmTy0_1 (i : Nat) : BufTy := match i % 128 with
  | 0 => ⟨S1700000, .i32⟩
  | 1 => ⟨S1700000x1, .i32⟩
  | 2 => ⟨S1700000, .f32⟩
  | 3 => ⟨S1700000, .f32⟩
  | 4 => ⟨S1700000x1, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000x64, .f32⟩
  | 14 => ⟨S1700000x64, .f32⟩
  | 15 => ⟨S1700000x64, .f32⟩
  | 16 => ⟨S_, .f32⟩
  | 17 => ⟨S100000x64, .f32⟩
  | 18 => ⟨S1700000x1, .i32⟩
  | 19 => ⟨S100000x64, .f32⟩
  | 20 => ⟨S1x64, .f32⟩
  | 21 => ⟨S100000x64, .f32⟩
  | 22 => ⟨S100000x64, .f32⟩
  | 23 => ⟨S1x32, .f32⟩
  | 24 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1x16, .f32⟩
  | .local _ .vmem, ⟨3, _⟩ => ⟨S1x16, .f32⟩
  | .local _ .vmem, ⟨4, _⟩ => ⟨S16x1, .f32⟩
  | .local _ .vmem, ⟨5, _⟩ => ⟨S1x1, .f32⟩
  | .local _ .vmem, ⟨6, _⟩ => ⟨S1000x128, .f32⟩
  | .local _ .vmem, ⟨7, _⟩ => ⟨S1000x128, .f32⟩
  | .local _ .vmem, ⟨8, _⟩ => ⟨S2000x64, .f32⟩
  | .local _ .vmem, ⟨9, _⟩ => ⟨S2000x64, .f32⟩
  | .local _ .vmem, ⟨10, _⟩ => ⟨S64x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x32, .f32⟩
  | .local _ .vmem, ⟨23, _⟩ => ⟨S1x32, .f32⟩
  | .local _ .vmem, ⟨24, _⟩ => ⟨S2000x32, .f32⟩
  | .local _ .vmem, ⟨25, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call1_cst : Ref sig .tc := ⟨.hbm, 86, rfl⟩
abbrev main_call1_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_15 : Ref sig .tc := ⟨.hbm, 108, rfl⟩
abbrev main_call2_v0 : Ref sig .tc := ⟨.hbm, 109, rfl⟩
abbrev main_call2_v1 : Ref sig .tc := ⟨.hbm, 110, rfl⟩
abbrev main_v74 : Ref sig .tc := ⟨.hbm, 111, rfl⟩
abbrev main_c_16 : Ref sig .tc := ⟨.hbm, 112, rfl⟩
abbrev main_v75 : Ref sig .tc := ⟨.hbm, 113, rfl⟩
abbrev main_v76 : Ref sig .tc := ⟨.hbm, 114, rfl⟩
abbrev main_c_17 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_18 : Ref sig .tc := ⟨.hbm, 122, rfl⟩
abbrev main_v83 : Ref sig .tc := ⟨.hbm, 123, rfl⟩
abbrev main_v84 : Ref sig .tc := ⟨.hbm, 124, rfl⟩
abbrev main_c_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_20 : Ref sig .tc := ⟨.hbm, 133, rfl⟩
abbrev main_v92 : Ref sig .tc := ⟨.hbm, 134, rfl⟩
abbrev main_v93 : Ref sig .tc := ⟨.hbm, 135, rfl⟩
abbrev main_c_21 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_22 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000x1_S12500x128 : S1600000x1.ShapeCasts S12500x128
  shapeCasts_S16_S1x16 : S16.ShapeCasts S1x16
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  slices_S1x16_o0_0_S1x1 : S1x16.Slices ![0, 0] S1x1
  slices_S16x1_o0_0_S1x1 : S16x1.Slices ![0, 0] S1x1
  slices_S1x16_o0_1_S1x1 : S1x16.Slices ![0, 1] S1x1
  slices_S16x1_o1_0_S1x1 : S16x1.Slices ![1, 0] S1x1
  slices_S1x16_o0_2_S1x1 : S1x16.Slices ![0, 2] S1x1
  slices_S16x1_o2_0_S1x1 : S16x1.Slices ![2, 0] S1x1
  slices_S1x16_o0_3_S1x1 : S1x16.Slices ![0, 3] S1x1
  slices_S16x1_o3_0_S1x1 : S16x1.Slices ![3, 0] S1x1
  slices_S1x16_o0_4_S1x1 : S1x16.Slices ![0, 4] S1x1
  slices_S16x1_o4_0_S1x1 : S16x1.Slices ![4, 0] S1x1
  slices_S1x16_o0_5_S1x1 : S1x16.Slices ![0, 5] S1x1
  slices_S16x1_o5_0_S1x1 : S16x1.Slices ![5, 0] S1x1
  slices_S1x16_o0_6_S1x1 : S1x16.Slices ![0, 6] S1x1
  slices_S16x1_o6_0_S1x1 : S16x1.Slices ![6, 0] S1x1
  slices_S1x16_o0_7_S1x1 : S1x16.Slices ![0, 7] S1x1
  slices_S16x1_o7_0_S1x1 : S16x1.Slices ![7, 0] S1x1
  slices_S1x16_o0_8_S1x1 : S1x16.Slices ![0, 8] S1x1
  slices_S16x1_o8_0_S1x1 : S16x1.Slices ![8, 0] S1x1
  slices_S1x16_o0_9_S1x1 : S1x16.Slices ![0, 9] S1x1
  slices_S16x1_o9_0_S1x1 : S16x1.Slices ![9, 0] S1x1
  slices_S1x16_o0_10_S1x1 : S1x16.Slices ![0, 10] S1x1
  slices_S16x1_o10_0_S1x1 : S16x1.Slices ![10, 0] S1x1
  slices_S1x16_o0_11_S1x1 : S1x16.Slices ![0, 11] S1x1
  slices_S16x1_o11_0_S1x1 : S16x1.Slices ![11, 0] S1x1
  slices_S1x16_o0_12_S1x1 : S1x16.Slices ![0, 12] S1x1
  slices_S16x1_o12_0_S1x1 : S16x1.Slices ![12, 0] S1x1
  slices_S1x16_o0_13_S1x1 : S1x16.Slices ![0, 13] S1x1
  slices_S16x1_o13_0_S1x1 : S16x1.Slices ![13, 0] S1x1
  slices_S1x16_o0_14_S1x1 : S1x16.Slices ![0, 14] S1x1
  slices_S16x1_o14_0_S1x1 : S16x1.Slices ![14, 0] S1x1
  slices_S1x16_o0_15_S1x1 : S1x16.Slices ![0, 15] S1x1
  slices_S16x1_o15_0_S1x1 : S16x1.Slices ![15, 0] S1x1
  shapeCasts_S12500x128_S1600000 : S12500x128.ShapeCasts S1600000
  bcast_S_S64 : S_.BroadcastsInDim S64 (![] : Fin 0 → Fin S64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  dot_S2000x64_S64x64_S2000x64_1_0_0_1_n_n_wf : DotDims.WF S2000x64 S64x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1000x128.size a < S12500x128.size a
  hwx0_0 : ∀ i : grid0.Coords, EltTy.bits .f32 = 32 ∨ (Rect.unit (s := S12500x128) (fun a => cc0_transform_0 i a * S1000x128.size a) (fun a => (Pipeline.Clip.of (cc0_transform_0 i a) (S1000x128.size a) (S12500x128.size a)).extent (S1000x128.size a)) fun a => Pipeline.Clip.inb (Pipeline.Clip.ok_of (hstart0_0 i a))).WholeWords (EltTy.packing .f32)
  hwxs0_0 : ∀ i : grid0.Coords, EltTy.bits .f32 = 32 ∨ (Rect.unit (s := S1000x128) (fun _ => 0) (fun a => (Pipeline.Clip.of (cc0_transform_0 i a) (S1000x128.size a) (S12500x128.size a)).extent (S1000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1000x128.size a < S12500x128.size a
  hwx0_5 : ∀ i : grid0.Coords, EltTy.bits .f32 = 32 ∨ (Rect.unit (s := S12500x128) (fun a => cc0_transform_5 i a * S1000x128.size a) (fun a => (Pipeline.Clip.of (cc0_transform_5 i a) (S1000x128.size a) (S12500x128.size a)).extent (S1000x128.size a)) fun a => Pipeline.Clip.inb (Pipeline.Clip.ok_of (hstart0_5 i a))).WholeWords (EltTy.packing .f32)
  hwxs0_5 : ∀ i : grid0.Coords, EltTy.bits .f32 = 32 ∨ (Rect.unit (s := S1000x128) (fun _ => 0) (fun a => (Pipeline.Clip.of (cc0_transform_5 i a) (S1000x128.size a) (S12500x128.size a)).extent (S1000x128.size a)) fun a => (Nat.zero_add _).trans_le (Pipeline.Clip.extent_le (Pipeline.Clip.ok_of (hstart0_5 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S100000x32.size a
  hwx3_3 : ∀ i : grid3.Coords, EltTy.bits .f32 = 32 ∨ (Rect.block (s := S100000x32) S2000x32.size (cc3_transform_3 i) (hinb3_3 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpecClip (Memref.whole main_v4) S1000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg3) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v7) S1000x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v106) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v107) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v108) S2000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x1 : Shape := ⟨2, ![1600000, 1]⟩
abbrev S1x16 : Shape := ⟨2, ![1, 16]⟩
abbrev S16 : Shape := ⟨1, ![16]⟩
abbrev S16x1 : Shape := ⟨2, ![16, 1]⟩
abbrev S1 : Shape := ⟨1, ![1]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1600000x16 : Shape := ⟨2, ![1600000, 16]⟩
abbrev S_ : Shape := ⟨0, ![]⟩
abbrev S1x1 : Shape := ⟨2, ![1, 1]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 166
  | .vmem => 0
  | .smem => 0
  | _ => 0

abbrev hbmTy0_0 (i : Nat) : BufTy := match i % 128 with
  | 0 => ⟨S100000x64, .f32⟩
  | 1 => ⟨S2x1600000, .i32⟩
  | 2 => ⟨S1600000x1, .f32⟩
  | 3 => ⟨S1x16, .f32⟩
  | 4 => ⟨S16, .f32⟩
  | 5 => ⟨S16x1, .f32⟩
  | 6 => ⟨S1, .f32⟩
  | 7 => ⟨S64x64, .f32⟩
  | 8 => ⟨S64, .f32⟩
  | 9 => ⟨S64x64, .f32⟩
  | 10 => ⟨S64, .f32⟩
  | 11 => ⟨S64x32, .f32⟩
  | 12 => ⟨S32, .f32⟩
  | 13 => ⟨S1x1600000, .i32⟩
  | 14 => ⟨S1600000, .i32⟩
  | 15 => ⟨S1x1600000, .i32⟩
  | 16 => ⟨S1600000, .i32⟩
  | 17 => ⟨S1600000x16, .f32⟩
  | 18 => ⟨S1x16, .f32⟩
  | 19 => ⟨S1600000x16, .f32⟩
  | 20 => ⟨S1600000x16, .f32⟩
  | 21 => ⟨S_, .f32⟩
  | 22 => ⟨S1600000x16, .f32⟩
  | 23 => ⟨S1600000x16, .f32⟩
  | 24 => ⟨S1600000x1, .f32⟩
  | 25 => ⟨S1x1, .f32⟩
  | 26 => ⟨S1600000x1, .f32⟩
  | 27 => ⟨S1600000x1, .f32⟩
  | 28 => ⟨S1600000x1, .f32⟩
  | 29 => ⟨S1600000x1, .f32⟩
  | 30 => ⟨S_, .f32⟩
  | 31 => ⟨S1600000x1, .f32⟩
  | 32 => ⟨S1600000x1, .f32⟩
  | 33 => ⟨S_, .f32⟩
  | 34 => ⟨S1600000x1, .f32⟩
  | 35 => ⟨S1600000x1, .f32⟩
  | 36 => ⟨S1600000, .f32⟩
  | 37 => ⟨S100000x64, .f32⟩
  | 38 => ⟨S100000, .i32⟩
  | 39 => ⟨S1700000, .i32⟩
  | 40 => ⟨S1700000, .i32⟩
  | 41 => ⟨S_, .f32⟩
  | 42 => ⟨S100000, .f32⟩
  | 43 => ⟨S1700000, .f32⟩
  | 44 => ⟨S_, .f32⟩
  | 45 => ⟨S100000, .f32⟩
  | 46 => ⟨S1700000x1, .i32⟩
  | 47 => ⟨S100000, .f32⟩
  | 48 => ⟨S_, .f32⟩
  | 49 => ⟨S100000, .f32⟩
  | 50 => ⟨S100000, .i1⟩
  | 51 => ⟨S_, .f32⟩
  | 52 => ⟨S100000, .f32⟩
  | 53 => ⟨S100000, .f32⟩
  | 54 => ⟨S100000, .f32⟩
  | 55 => ⟨S_, .f32⟩
  | 56 => ⟨S_, .f32⟩
  | 57 => ⟨S100000, .f32⟩
  | 58 => ⟨S100000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000, .f32⟩
  | 68 => ⟨S1700000, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000, .f32⟩
  | 78 => ⟨S1700000, .f32⟩
  | 79 => ⟨S1700000x1, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x64, .f32⟩
  | 89 => ⟨S1700000x64, .f32⟩
  | 90 => ⟨S1700000x64, .f32⟩
  | 91 => ⟨S_, .f32⟩
  | 92 => ⟨S100000x64, .f32⟩
  | 93 => ⟨S1700000x1, .i32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S100000, .i32⟩
  | 103 => ⟨S1700000, .i32⟩
  | 104 => ⟨S1700000, .i32⟩
  | 105 => ⟨S_, .f32⟩
  | 106 => ⟨S100000, .f32⟩
  | 107 => ⟨S1700000, .f32⟩
  | 108 => ⟨S_, .f32⟩
  | 109 => ⟨S100000, .f32⟩
  | 110 => ⟨S1700000x1, .i32⟩
  | 111 => ⟨S100000, .f32⟩
  | 112 => ⟨S_, .f32⟩
  | 113 => ⟨S100000, .f32⟩
  | 114 => ⟨S100000, .i1⟩
  | 115 => ⟨S_, .f32⟩
  | 116 => ⟨S100000, .f32⟩
  | 117 => ⟨S100000, .f32⟩
  | 118 => ⟨S100000, .f32⟩
  | 119 => ⟨S_, .f32⟩
  | 120 => ⟨S_, .f32⟩
  | 121 => ⟨S100000, .f32⟩
  | 122 => ⟨S100000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x64, .f32⟩

abbrev hbmTy0_1 (i : Nat) : BufTy := match i % 128 with
  | 0 => ⟨S1700000, .i32⟩
  | 1 => ⟨S1700000, .i32⟩
  | 2 => ⟨S1700000x1, .i32⟩
  | 3 => ⟨S1700000, .f32⟩
  | 4 => ⟨S1700000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000, .f32⟩
  | 14 => ⟨S1700000, .f32⟩
  | 15 => ⟨S1700000x1, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x64, .f32⟩
  | 25 => ⟨S1700000x64, .f32⟩
  | 26 => ⟨S1700000x64, .f32⟩
  | 27 => ⟨S_, .f32⟩
  | 28 => ⟨S100000x64, .f32⟩
  | 29 => ⟨S1700000x1, .i32⟩
  | 30 => ⟨S100000x64, .f32⟩
  | 31 => ⟨S1x64, .f32⟩
  | 32 => ⟨S100000x64, .f32⟩
  | 33 => ⟨S100000x64, .f32⟩
  | 34 => ⟨S100000x32, .f32⟩
  | 35 => ⟨S1x32, .f32⟩
  | 36 => ⟨S100000x32, .f32⟩
  | 37 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_call1_v0 : Ref sig .tc := ⟨.hbm, 56, rfl⟩
abbrev main_call1_v1 : Ref sig .tc := ⟨.hbm, 57, rfl⟩
abbrev main_v34 : Ref sig .tc := ⟨.hbm, 58, rfl⟩
abbrev main_c : Ref sig .tc := ⟨.hbm, 59, rfl⟩
abbrev main_v35 : Ref sig .tc := ⟨.hbm, 60, rfl⟩
abbrev main_v36 : Ref sig .tc := ⟨.hbm, 61, rfl⟩
abbrev main_c_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_call3_v0 : Ref sig .tc := ⟨.hbm, 120, rfl⟩
abbrev main_call3_v1 : Ref sig .tc := ⟨.hbm, 121, rfl⟩
abbrev main_v82 : Ref sig .tc := ⟨.hbm, 122, rfl⟩
abbrev main_c_17 : Ref sig .tc := ⟨.hbm, 123, rfl⟩
abbrev main_v83 : Ref sig .tc := ⟨.hbm, 124, rfl⟩
abbrev main_v84 : Ref sig .tc := ⟨.hbm, 125, rfl⟩
abbrev main_c_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_19 : Ref sig .tc := ⟨.hbm, 133, rfl⟩
abbrev main_v91 : Ref sig .tc := ⟨.hbm, 134, rfl⟩
abbrev main_v92 : Ref sig .tc := ⟨.hbm, 135, rfl⟩
abbrev main_c_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_21 : Ref sig .tc := ⟨.hbm, 144, rfl⟩
abbrev main_v100 : Ref sig .tc := ⟨.hbm, 145, rfl⟩
abbrev main_v101 : Ref sig .tc := ⟨.hbm, 146, rfl⟩
abbrev main_c_22 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_23 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S1600000x1_S1x16_S1600000x16_1_0_0_1_n_n_wf : DotDims.WF S1600000x1 S1x16 S1600000x16 [1] [0] [0] [1] [] []
  dot_S1600000x16_S16x1_S1600000x1_1_0_0_1_n_n_wf : DotDims.WF S1600000x16 S16x1 S1600000x1 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []

variable [Facts₀]

def dot_S1600000x1_S1x16_S1600000x16_1_0_0_1_n_n : DotDims S1600000x1 S1x16 S1600000x16 where
  lhsContracting := [1]
  rhsContracting := [0]
  lhsNonContracting := [0]
  rhsNonContracting := [1]
  lhsBatch := []
  rhsBatch := []
  wf := dot_S1600000x1_S1x16_S1600000x16_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KMlpPay.lean ====
/-
  The edge-weight kernel's stored value as ONE function of what its five loads read.

  The body loads the block of edge attributes (1000 x 128), the first layer's weights and biases (1 x 16 each), the second
  layer's weights (16 x 1) and bias (1 x 1), and stores a single value computed from them; the printed program computes
  that value in four parts that hand partial sums on. Composing the parts' payloads in the order the body runs them gives
  the stored block as a pure term of the five loaded values.
-/
import proofs.«130928_j46574625358117_1_alg».proof.Proof.Gen.Kernel.Skeleton

noncomputable section

namespace Cert.Kernel.Hand

open Idealize.ShloMosaic Cert.Kernel Cert.Kernel.Gen

variable {F : FTy → Type} [FloatOps F]

/-- The block the body stores, from the edge-attribute block `v0`, the first layer's weights `v2` and biases `v3`, the
    second layer's weights `v5` and bias `v6`: the four parts' partial sums threaded in program order. -/
def mlpPay (v0 : Vec F S1000x128 .f32) (v2 : Vec F S1x16 .f32) (v3 : Vec F S1x16 .f32) (v5 : Vec F S16x1 .f32)
    (v6 : Vec F S1x1 .f32) : FVec F S1000x128 .f32 :=
  k0_pay1 (k0_pay2 v0) v2 (k0_pay3 v3) v5
    (k0_pay11 (k0_pay2 v0) v2 (k0_pay3 v3) v5
      (k0_pay9 (k0_pay2 v0) v2 (k0_pay3 v3) v5
        (k0_pay7 (k0_pay2 v0) v2 (k0_pay3 v3) v5 (k0_pay4 v0 v2 v3 v5 v6) (k0_pay5 v0 v2) (k0_pay6 v3))
        (k0_pay8 v2))
      (k0_pay10 (k0_pay2 v0) v2 (k0_pay3 v3) v5))
    (k0_pay12 (k0_pay2 v0) v2 (k0_pay3 v3))

end Cert.Kernel.Hand

end
-- ==== Proof.KMlpLocal.lean ====
/-
  The edge-weight block's stored value at a position depends on the edge-attribute block at that position only.

  Every operation between the five loads and the store is pointwise on the block, a shape cast of the block to its own
  shape, or the broadcast of one scalar read from a small operand. So each part's payload, read at a position `j`, is a
  function of its block-sized arguments' values at `j` alone (`k0_payN_congr`), and chaining the parts in program order
  gives the same for the stored block as a function of the loaded edge-attribute block (`mlpPay_congr`). Nothing here
  depends on the float instance.
-/
import proofs.«130928_j46574625358117_1_alg».proof.Proof.KMlpPay
import Idealize.ShloMosaic.Lib.Pipeline.Value
import Idealize.ShloMosaic.Lib.ValueIdx

noncomputable section

namespace Cert.Kernel.Hand

open Idealize.ShloMosaic Cert.Kernel Cert.Kernel.Gen

variable {F : FTy → Type} [FloatOps F]

/-- The block's shape cast to its own shape is the block. -/
theorem k0_pay2_eq (v0 : Vec F S1000x128 .f32) : k0_pay2 v0 = v0 := shapeCast_self _ _

/-- The first two terms of the sum (on top of the broadcast second-layer bias) at a position read the edge-attribute
    block at that position only. -/
theorem k0_pay4_congr (v0 v0' : Vec F S1000x128 .f32) (v2 : Vec F S1x16 .f32) (v3 : Vec F S1x16 .f32)
    (v5 : Vec F S16x1 .f32) (v6 : Vec F S1x1 .f32) (j : S1000x128.Idx) (h : v0 j = v0' j) :
    k0_pay4 v0 v2 v3 v5 v6 j = k0_pay4 v0' v2 v3 v5 v6 j := by
  unfold k0_pay4
  rw [k0_pay2_eq v0, k0_pay2_eq v0']
  simp only [mulf, addf, maximumf, h]

/-- The third term's product at a position reads the edge-attribute block at that position only. -/
theorem k0_pay5_congr (v0 v0' : Vec F S1000x128 .f32) (v2 : Vec F S1x16 .f32) (j : S1000x128.Idx)
    (h : v0 j = v0' j) : k0_pay5 v0 v2 j = k0_pay5 v0' v2 j := by
  unfold k0_pay5
  rw [k0_pay2_eq v0, k0_pay2_eq v0']
  simp only [mulf, h]

/-- The last part (two more terms of the sum, then the logistic function) at a position reads its three block-sized arguments at that position only. -/
theorem k0_pay1_congr (v1 v1' : FVec F S1000x128 .f32) (v2 : Vec F S1x16 .f32) (v4 : FVec F S1x16 .f32) (v5 : Vec F S16x1 .f32) (v204 v204' : FVec F S1000x128 .f32) (v214 v214' : FVec F S1000x128 .f32)
    (j : S1000x128.Idx) (hv1 : v1 j = v1' j) (hv204 : v204 j = v204' j) (hv214 : v214 j = v214' j) :
    k0_pay1 v1 v2 v4 v5 v204 v214 j = k0_pay1 v1' v2 v4 v5 v204' v214' j :=
  calc k0_pay1 v1 v2 v4 v5 v204 v214 j
      = k0_pay1 (fun _ => v1 j) v2 v4 v5 (fun _ => v204 j) (fun _ => v214 j) j := rfl
    _ = k0_pay1 (fun _ => v1' j) v2 v4 v5 (fun _ => v204' j) (fun _ => v214' j) j := by rw [hv1, hv204, hv214]
    _ = k0_pay1 v1' v2 v4 v5 v204' v214' j := rfl

/-- Four terms of the sum at a position read the block-sized arguments at that position only. -/
theorem k0_pay7_congr (v1 v1' : FVec F S1000x128 .f32) (v2 : Vec F S1x16 .f32) (v4 : FVec F S1x16 .f32) (v5 : Vec F S16x1 .f32) (v39 v39' : FVec F S1000x128 .f32) (v43 v43' : FVec F S1000x128 .f32) (v46 v46' : FVec F S1000x128 .f32)
    (j : S1000x128.Idx) (hv1 : v1 j = v1' j) (hv39 : v39 j = v39' j) (hv43 : v43 j = v43' j) (hv46 : v46 j = v46' j) :
    k0_pay7 v1 v2 v4 v5 v39 v43 v46 j = k0_pay7 v1' v2 v4 v5 v39' v43' v46' j :=
  calc k0_pay7 v1 v2 v4 v5 v39 v43 v46 j
      = k0_pay7 (fun _ => v1 j) v2 v4 v5 (fun _ => v39 j) (fun _ => v43 j) (fun _ => v46 j) j := rfl
    _ = k0_pay7 (fun _ => v1' j) v2 v4 v5 (fun _ => v39' j) (fun _ => v43' j) (fun _ => v46' j) j := by rw [hv1, hv39, hv43, hv46]
    _ = k0_pay7 v1' v2 v4 v5 v39' v43' v46' j := rfl

/-- Three more terms of the sum, likewise. -/
theorem k0_pay9_congr (v1 v1' : FVec F S1000x128 .f32) (v2 : Vec F S1x16 .f32) (v4 : FVec F S1x16 .f32) (v5 : Vec F S16x1 .f32) (v99 v99' : FVec F S1000x128 .f32) (v102 v102' : FVec F S1000x128 .f32)
    (j : S1000x128.Idx) (hv1 : v1 j = v1' j) (hv99 : v99 j = v99' j) (hv102 : v102 j = v102' j) :
    k0_pay9 v1 v2 v4 v5 v99 v102 j = k0_pay9 v1' v2 v4 v5 v99' v102' j :=
  calc k0_pay9 v1 v2 v4 v5 v99 v102 j
      = k0_pay9 (fun _ => v1 j) v2 v4 v5 (fun _ => v99 j) (fun _ => v102 j) j := rfl
    _ = k0_pay9 (fun _ => v1' j) v2 v4 v5 (fun _ => v99' j) (fun _ => v102' j) j := by rw [hv1, hv99, hv102]
    _ = k0_pay9 v1' v2 v4 v5 v99' v102' j := rfl

/-- One term's product, likewise. -/
theorem k0_pay10_congr (v1 v1' : FVec F S1000x128 .f32) (v2 : Vec F S1x16 .f32) (v4 : FVec F S1x16 .f32) (v5 : Vec F S16x1 .f32)
    (j : S1000x128.Idx) (hv1 : v1 j = v1' j) :
    k0_pay10 v1 v2 v4 v5 j = k0_pay10 v1' v2 v4 v5 j :=
  calc k0_pay10 v1 v2 v4 v5 j
      = k0_pay10 (fun _ => v1 j) v2 v4 v5 j := rfl
    _ = k0_pay10 (fun _ => v1' j) v2 v4 v5 j := by rw [hv1]
    _ = k0_pay10 v1' v2 v4 v5 j := rfl

/-- Four more terms of the sum, likewise. -/
theorem k0_pay11_congr (v1 v1' : FVec F S1000x128 .f32) (v2 : Vec F S1x16 .f32) (v4 : FVec F S1x16 .f32) (v5 : Vec F S16x1 .f32) (v144 v144' : FVec F S1000x128 .f32) (v158 v158' : FVec F S1000x128 .f32)
    (j : S1000x128.Idx) (hv1 : v1 j = v1' j) (hv144 : v144 j = v144' j) (hv158 : v158 j = v158' j) :
    k0_pay11 v1 v2 v4 v5 v144 v158 j = k0_pay11 v1' v2 v4 v5 v144' v158' j :=
  calc k0_pay11 v1 v2 v4 v5 v144 v158 j
      = k0_pay11 (fun _ => v1 j) v2 v4 v5 (fun _ => v144 j) (fun _ => v158 j) j := rfl
    _ = k0_pay11 (fun _ => v1' j) v2 v4 v5 (fun _ => v144' j) (fun _ => v158' j) j := by rw [hv1, hv144, hv158]
    _ = k0_pay11 v1' v2 v4 v5 v144' v158' j := rfl

/-- One term's rectified affine image, likewise. -/
theorem k0_pay12_congr (v1 v1' : FVec F S1000x128 .f32) (v2 : Vec F S1x16 .f32) (v4 : FVec F S1x16 .f32)
    (j : S1000x128.Idx) (hv1 : v1 j = v1' j) :
    k0_pay12 v1 v2 v4 j = k0_pay12 v1' v2 v4 j :=
  calc k0_pay12 v1 v2 v4 j
      = k0_pay12 (fun _ => v1 j) v2 v4 j := rfl
    _ = k0_pay12 (fun _ => v1' j) v2 v4 j := by rw [hv1]
    _ = k0_pay12 v1' v2 v4 j := rfl

/-- THE STORED BLOCK AT A POSITION DEPENDS ON THE EDGE-ATTRIBUTE BLOCK AT THAT POSITION ONLY. -/
theorem mlpPay_congr (v0 v0' : Vec F S1000x128 .f32) (v2 : Vec F S1x16 .f32) (v3 : Vec F S1x16 .f32)
    (v5 : Vec F S16x1 .f32) (v6 : Vec F S1x1 .f32) (j : S1000x128.Idx) (h : v0 j = v0' j) :
    mlpPay v0 v2 v3 v5 v6 j = mlpPay v0' v2 v3 v5 v6 j := by
  have h1 : k0_pay2 v0 j = k0_pay2 v0' j := by rw [k0_pay2_eq, k0_pay2_eq]; exact h
  have h4 := k0_pay4_congr v0 v0' v2 v3 v5 v6 j h
  have h5 := k0_pay5_congr v0 v0' v2 j h
  have h7 := k0_pay7_congr _ _ v2 (k0_pay3 v3) v5 _ _ _ _ (k0_pay6 v3) (k0_pay6 v3) j h1 h4 h5 rfl
  have h9 := k0_pay9_congr _ _ v2 (k0_pay3 v3) v5 _ _ (k0_pay8 v2) (k0_pay8 v2) j h1 h7 rfl
  have h10 := k0_pay10_congr _ _ v2 (k0_pay3 v3) v5 j h1
  have h11 := k0_pay11_congr _ _ v2 (k0_pay3 v3) v5 _ _ _ _ j h1 h9 h10
  have h12 := k0_pay12_congr _ _ v2 (k0_pay3 v3) j h1
  exact k0_pay1_congr _ _ v2 (k0_pay3 v3) v5 _ _ _ _ j h1 h11 h12

end Cert.Kernel.Hand

end
-- ==== Proof.KMlp0.lean ====
/-
  Region 0, the edge-weight kernel, as the pipeline runs it: thirteen points over a [12500, 128] array in blocks of
  [1000, 128], the last block reaching 500 rows past the array's end.

  What is written here, at a PARAMETER `V` (the buffer contents when the region is entered): the block each window
  reads at a point, the body's triple (five whole loads, one whole store of the pointwise value `mlpPay`), the proof data
  and the body obligation. The first window (the edge attributes) and the result window are cut at the last point: a
  fetch fills only the rows inside the array and leaves the rest of the staging buffer at contents nothing names, so
  the obligation speaks of the rows inside the array only. The stored value at a position depends on the attribute
  block at that position alone (`mlpPay_congr`), so the rows inside the array of what the body stores do not depend on
  what the rows outside held.
-/
import proofs.«130928_j46574625358117_1_alg».proof.Proof.Gen.Kernel.Launch
import proofs.«130928_j46574625358117_1_alg».proof.Proof.Gen.Kernel.Skeleton
import proofs.«130928_j46574625358117_1_alg».proof.Proof.Gen.Kernel.Points
import proofs.«130928_j46574625358117_1_alg».proof.Proof.KMlpPay
import proofs.«130928_j46574625358117_1_alg».proof.Proof.KMlpLocal
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: for the two cut windows the rows
    inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The zero word: what fills the rows past the array's end in the proof data (nothing reads them). -/
abbrev zfill : S1000x128.Idx → Elt F .f32 := fun _ => Scalar.ofBits .f32 0#32

/-! ## The body's accesses -/

abbrev rB : Rect S1000x128 := Rect.unit (s := S1000x128) ![0, 0] S1000x128.size inb_S1000x128_S1000x128_0_0
abbrev rW : Rect S1x16 := Rect.unit (s := S1x16) ![0, 0] S1x16.size inb_S1x16_S1x16_0_0
abbrev rC : Rect S16x1 := Rect.unit (s := S16x1) ![0, 0] S16x1.size inb_S16x1_S16x1_0_0
abbrev rS : Rect S1x1 := Rect.unit (s := S1x1) ![0, 0] S1x1.size inb_S1x1_S1x1_0_0

/-- What the body leaves in the result's staging buffer, from what the five input buffers hold: its one store. -/
def out0_5 (x0 : Vec F S1000x128 .f32) (x1 x2 : Vec F S1x16 .f32) (x3 : Vec F S16x1 .f32) (x4 : Vec F S1x1 .f32) : Vec F S1000x128 .f32 :=
  View.canon [⟨rB, mlpPay (View.ld x0 rB) (View.ld x1 rW) (View.ld x2 rW) (View.ld x3 rC) (View.ld x4 rS)⟩]

theorem cover0_5 (p0 : Vec F S1000x128 .f32) (y : S1000x128.Idx) :
    ∃ pc ∈ ([⟨rB, p0⟩] : List (View.Piece (Elt F) S1000x128 .f32)), y ∈ pc.1.set :=
  View.cover_of_tiled [⟨rB, p0⟩] S1000x128.size (by rfl) y

theorem hz2 : (![0, 0] : Fin 2 → Nat) = fun _ => 0 := funext fun a => by fin_cases a <;> rfl

/-- The store is of the whole buffer and the loads read whole buffers: the buffer ends at the pointwise value of what
    the inputs hold. -/
theorem out0_5_eq (x0 : Vec F S1000x128 .f32) (x1 x2 : Vec F S1x16 .f32) (x3 : Vec F S16x1 .f32) (x4 : Vec F S1x1 .f32) :
    out0_5 x0 x1 x2 x3 x4 = mlpPay x0 x1 x2 x3 x4 := by
  unfold out0_5
  rw [View.canon_unit_zero hz2]
  simp only [View.ld_unit_zero (S := S1000x128) hz2, View.ld_unit_zero (S := S1x16) hz2, View.ld_unit_zero (S := S16x1) hz2,
    View.ld_unit_zero (S := S1x1) hz2]

/-! ## The body's triple -/

set_option maxHeartbeats 4000000 in
/-- The kernel body on whole staging memrefs, the inputs' at read contents and the result's at anything, runs to the
    continuation holding the inputs' as they were and the result's at `out0_5` of them. -/
theorem sound_kernel0 (c : Dev nD) (E : Set ℕ) (i : grid0.Coords)
    (arg1 : Memref sig .tc .vmem S1000x128 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S16x1 .f32) (harg4 : arg4.IsWhole)
    (arg5 : Memref sig .tc .vmem S1x1 .f32) (harg5 : arg5.IsWhole) (arg6 : Memref sig .tc .vmem S1000x128 .f32) (harg6 : arg6.IsWhole)
    (x0 : Vec F S1000x128 .f32) (x1 x2 : Vec F S1x16 .f32) (x3 : Vec F S16x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__edge_mlp_kernel i arg1 harg1 arg2 harg2 arg3 harg3 arg4 harg4 arg5 harg5 arg6 harg6) K := by
  simp only [cc0__edge_mlp_kernel_eq_skeleton]; unfold cc0__edge_mlp_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    small input's buffer at its block, the attribute buffer at its block filled out past the array's end with the zero
    word, and the result's at the pointwise value of those. -/
def dat0 (c : Dev nD) : Dat τ (Elt F) Unit ℕ (UR sig nD τ) ℕ cfg0 c where
  A w := V c (Pipeline.arrRef spec0 w)
  after w t := match w with
    | ⟨0, _⟩ => win0_0.fill (grid0.coords t) zfill (iblk0 V c 0 t)
    | ⟨1, _⟩ => iblk0 V c 1 t
    | ⟨2, _⟩ => iblk0 V c 2 t
    | ⟨3, _⟩ => iblk0 V c 3 t
    | ⟨4, _⟩ => iblk0 V c 4 t
    | ⟨5, _⟩ => mlpPay (win0_0.fill (grid0.coords t) zfill (iblk0 V c 0 t)) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = win0_0.fill (grid0.coords t) zfill (iblk0 V c 0 t) := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = mlpPay (win0_0.fill (grid0.coords t) zfill (iblk0 V c 0 t)) (iblk0 V c 1 t) (iblk0 V c 2 t) (iblk0 V c 3 t) (iblk0 V c 4 t) := by dsimp only [dat0]

/-- The attribute window is fetched at every point: its buffer holds the block on the rows inside the array and `d`,
    anything, past them. -/
theorem before0_0 (c : Dev nD) (t : Fin cfg0.N) (d) :
    (dat0 V c).before 0 t d = win0_0.fill (grid0.coords t) d (iblk0 V c 0 t) := by
  unfold Dat.before; rw [if_pos (fetch0_0 t)]; rfl

/-- Each small input's buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The rows inside the array do not depend on the rows outside -/

/-- Two fillings of one block agree wherever the fetch moves a word. -/
theorem fill_agree {α : Type} (i : grid0.Coords) (d d' : S1000x128.Idx → α) (g : (win0_0.xblock i).Idx → α) (j : S1000x128.Idx)
    (h : win0_0.moved i j = true) : win0_0.fill i d g j = win0_0.fill i d' g j := by
  unfold Window.fill; rw [dif_pos h, dif_pos h]

/-- A position the result's write-back moves is one the attribute fetch moves: the two windows have one index map and
    one block shape over arrays of one extent. -/
theorem moved_xinj (i : grid0.Coords) (j : (win0_5.xblock i).Idx) : win0_0.moved i (win0_5.xinj i j) = true :=
  (win0_0.moved_iff i _).mpr fun a => (j a).isLt

/-- What the body stores, cut to the rows the write-back moves, is the same whatever filled the attribute buffer past
    the array's end. -/
theorem cut_out_indep (i : grid0.Coords) (d : S1000x128.Idx → Elt F .f32) (g : (win0_0.xblock i).Idx → Elt F .f32)
    (x1 x2 : Vec F S1x16 .f32) (x3 : Vec F S16x1 .f32) (x4 : Vec F S1x1 .f32) :
    win0_5.cut i (mlpPay (win0_0.fill i d g) x1 x2 x3 x4) = win0_5.cut i (mlpPay (win0_0.fill i zfill g) x1 x2 x3 x4) := by
  funext j
  exact mlpPay_congr _ _ x1 x2 x3 x4 _ (fill_agree i d zfill g _ (moved_xinj i j))

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the two cut windows' buffers stated on the rows their transfers move. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (∃ d, owns (c : Thread nD τ) (st0_5 t) fullShare (win0_5.fill (grid0.coords t) d (win0_5.cut (grid0.coords t) ((dat0 V c).after 5 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (win0_0.fill (grid0.coords t) d0 (iblk0 V c 0 t)) (iblk0 V c 1 t) (iblk0 V c 2 t)
    (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0; rw [win0_0.cut_fill]; iexact H0
  isplitl [H1]; · iexact H1
  isplitl [H2]; · iexact H2
  isplitl [H3]; · iexact H3
  isplitl [H4]; · iexact H4
  iexists _
  rw [out0_5_eq, ← cut_out_indep (F := F) (grid0.coords t) d0 (iblk0 V c 0 t), win0_5.fill_cut]
  iexact H5

/-- The library's body obligation, at every point. -/
theorem body_obligation0 (c : Dev nD) : BodyObligationLoose (dat0 (F := F) V c) (defs₀ (F := F)) Variants.none () Set.univ := fun t => by
  rw [bigSep_W0, bigSep_W0]
  exact sound_body0 V c t

end Cert.Kernel.Hand

end
-- ==== Proof.KLin1.lean ====
import proofs.«130928_j46574625358117_1_alg».proof.Proof.Gen.Kernel.Launch
import proofs.«130928_j46574625358117_1_alg».proof.Proof.Gen.Kernel.Skeleton
import proofs.«130928_j46574625358117_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear layer `y = x W + b` of pipeline 1: the body's frame at a generic grid point

Per row block of 2000 rows, the body reads the block of `x`, the whole of `W` and of `b`, and stores one
payload over the whole output block. Everything is stated at a parameter `V`: the buffer contents when the
region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an
    unfetched window's block index has not moved), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S2000x64 := Rect.unit (s := S2000x64) ![0, 0] S2000x64.size inb_S2000x64_S2000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S2000x64 := Rect.unit (s := S2000x64) ![0, 0] S2000x64.size inb_S2000x64_S2000x64_0_0

/-! ## What the body leaves in the output window's buffer -/

/-- The output staging buffer after the body, from the input windows' blocks: its one store, over the whole
    buffer, of the payload of the three whole-buffer loads. -/
def out1_3 (x0 : Vec F S2000x64 .f32) (x1 : Vec F S64x64 .f32) (x2 : Vec F S1x64 .f32) : Vec F S2000x64 .f32 :=
  View.canon [⟨r1_o, k1_pay1 (View.ld x0 r1_x) (View.ld x1 r1_w) (View.ld x2 r1_b)⟩]

/-- The one store tiles the buffer, so it covers it. -/
theorem cover1_3 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-! ## The body's triple -/

set_option maxHeartbeats 1000000 in
/-- The kernel body on whole staging memrefs, the inputs' at read contents and the output's at anything, runs
    to the continuation holding the inputs' as they were and the output's at `out1_3` of the inputs'. -/
theorem sound_kernel1 (c : Dev nD) (E : Set ℕ) (i : grid1.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point
    `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KLin2.lean ====
import proofs.«130928_j46574625358117_1_alg».proof.Proof.Gen.Kernel.Launch
import proofs.«130928_j46574625358117_1_alg».proof.Proof.Gen.Kernel.Skeleton
import proofs.«130928_j46574625358117_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear layer `y = x W + b` of pipeline 2: the body's frame at a generic grid point

Per row block of 2000 rows, the body reads the block of `x`, the whole of `W` and of `b`, and stores one
payload over the whole output block. Everything is stated at a parameter `V`: the buffer contents when the
region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an
    unfetched window's block index has not moved), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S2000x64 := Rect.unit (s := S2000x64) ![0, 0] S2000x64.size inb_S2000x64_S2000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S2000x64 := Rect.unit (s := S2000x64) ![0, 0] S2000x64.size inb_S2000x64_S2000x64_0_0

/-! ## What the body leaves in the output window's buffer -/

/-- The output staging buffer after the body, from the input windows' blocks: its one store, over the whole
    buffer, of the payload of the three whole-buffer loads. -/
def out2_3 (x0 : Vec F S2000x64 .f32) (x1 : Vec F S64x64 .f32) (x2 : Vec F S1x64 .f32) : Vec F S2000x64 .f32 :=
  View.canon [⟨r2_o, k2_pay1 (View.ld x0 r2_x) (View.ld x1 r2_w) (View.ld x2 r2_b)⟩]

/-- The one store tiles the buffer, so it covers it. -/
theorem cover2_3 (p0 : Vec F S2000x64 .f32) (y : S2000x64.Idx) :
    ∃ pc ∈ ([⟨r2_o, p0⟩] : List (View.Piece (Elt F) S2000x64 .f32)), y ∈ pc.1.set :=
  View.cover_of_tiled [⟨r2_o, p0⟩] S2000x64.size (by rfl) y

/-! ## The body's triple -/

set_option maxHeartbeats 1000000 in
/-- The kernel body on whole staging memrefs, the inputs' at read contents and the output's at anything, runs
    to the continuation holding the inputs' as they were and the output's at `out2_3` of the inputs'. -/
theorem sound_kernel2 (c : Dev nD) (E : Set ℕ) (i : grid2.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point
    `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KLin3.lean ====
import proofs.«130928_j46574625358117_1_alg».proof.Proof.Gen.Kernel.Launch
import proofs.«130928_j46574625358117_1_alg».proof.Proof.Gen.Kernel.Skeleton
import proofs.«130928_j46574625358117_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear layer `y = x W + b` of pipeline 3: the body's frame at a generic grid point

Per row block of 2000 rows, the body reads the block of `x`, the whole of `W` and of `b`, and stores one
payload over the whole output block. Everything is stated at a parameter `V`: the buffer contents when the
region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an
    unfetched window's block index has not moved), for any proof data whose array is `V`'s and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_x : Rect S2000x64 := Rect.unit (s := S2000x64) ![0, 0] S2000x64.size inb_S2000x64_S2000x64_0_0
abbrev r3_w : Rect S64x32 := Rect.unit (s := S64x32) ![0, 0] S64x32.size inb_S64x32_S64x32_0_0
abbrev r3_b : Rect S1x32 := Rect.unit (s := S1x32) ![0, 0] S1x32.size inb_S1x32_S1x32_0_0
abbrev r3_o : Rect S2000x32 := Rect.unit (s := S2000x32) ![0, 0] S2000x32.size inb_S2000x32_S2000x32_0_0

/-! ## What the body leaves in the output window's buffer -/

/-- The output staging buffer after the body, from the input windows' blocks: its one store, over the whole
    buffer, of the payload of the three whole-buffer loads. -/
def out3_3 (x0 : Vec F S2000x64 .f32) (x1 : Vec F S64x32 .f32) (x2 : Vec F S1x32 .f32) : Vec F S2000x32 .f32 :=
  View.canon [⟨r3_o, k3_pay1 (View.ld x0 r3_x) (View.ld x1 r3_w) (View.ld x2 r3_b)⟩]

/-- The one store tiles the buffer, so it covers it. -/
theorem cover3_3 (p0 : Vec F S2000x32 .f32) (y : S2000x32.Idx) :
    ∃ pc ∈ ([⟨r3_o, p0⟩] : List (View.Piece (Elt F) S2000x32 .f32)), y ∈ pc.1.set :=
  View.cover_of_tiled [⟨r3_o, p0⟩] S2000x32.size (by rfl) y

/-! ## The body's triple -/

set_option maxHeartbeats 1000000 in
/-- The kernel body on whole staging memrefs, the inputs' at read contents and the output's at anything, runs
    to the continuation holding the inputs' as they were and the output's at `out3_3` of the inputs'. -/
theorem sound_kernel3 (c : Dev nD) (E : Set ℕ) (i : grid3.Coords)
    (arg1 : Memref sig .tc .vmem S2000x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S2000x32 .f32) (harg4 : arg4.IsWhole)
    (x0 : Vec F S2000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point
    `t` each input's buffer at its block and the output's at `out3_3` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/-
  The run of @main: fourteen segments, four kernel regions among ten stretches of host operations.

  The buffer contents at each boundary are a fold from the launch memory: a host stretch applies its operations, a region
  leaves its windows' arrays at what its write-backs leave and every other buffer as it found it. Every region is entered
  from "each unscoped buffer at the boundary's contents, the generator register at some state, nothing owed" and left at
  the same over the next boundary's contents; the several-regions launch theorem then gives: every weakly fair execution
  terminates, and the final memory holds every unscoped buffer at the last boundary's contents.
-/
import proofs.«130928_j46574625358117_1_alg».proof.Proof.Gen.Kernel.Launch
import proofs.«130928_j46574625358117_1_alg».proof.Proof.Gen.Kernel.Regions
import proofs.«130928_j46574625358117_1_alg».proof.Proof.KMlp0
import proofs.«130928_j46574625358117_1_alg».proof.Proof.KLin1
import proofs.«130928_j46574625358117_1_alg».proof.Proof.KLin2
import proofs.«130928_j46574625358117_1_alg».proof.Proof.KLin3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
/-- The contents region 0 is entered from, read at the TensorCore's references. -/
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The contents region 1 is entered from, read at the TensorCore's references. -/
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- After the host stretch `hostOps2_1`. -/
abbrev W6 : Dev nD → Valuation τ sig (Elt F) := fun c => StableHlo.after hostOps2_1 (W5 m c)
/-- After the host stretch `hostOps2_2`. -/
abbrev W7 : Dev nD → Valuation τ sig (Elt F) := fun c => StableHlo.after hostOps2_2 (W6 m c)
/-- After the host stretch `hostOps2_3`. -/
abbrev W8 : Dev nD → Valuation τ sig (Elt F) := fun c => StableHlo.after hostOps2_3 (W7 m c)
/-- After the host stretch `hostOps2_4`. -/
abbrev W9 : Dev nD → Valuation τ sig (Elt F) := fun c => StableHlo.after hostOps2_4 (W8 m c)
/-- The contents region 2 is entered from, read at the TensorCore's references. -/
abbrev V9 : (c : Dev nD) → (b : Ref sig .tc) → Buf (Elt F) ((c : Thread nD τ).loc b) := fun c b => W9 m c b
/-- After region 2: its arrays at what the pipeline leaves, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
/-- After the host stretch `hostOps3`. -/
abbrev W11 : Dev nD → Valuation τ sig (Elt F) := fun c => StableHlo.after hostOps3 (W10 m c)
/-- After the host stretch `hostOps3_1`. -/
abbrev W12 : Dev nD → Valuation τ sig (Elt F) := fun c => StableHlo.after hostOps3_1 (W11 m c)
/-- After the host stretch `hostOps3_2`. -/
abbrev W13 : Dev nD → Valuation τ sig (Elt F) := fun c => StableHlo.after hostOps3_2 (W12 m c)
/-- The contents region 3 is entered from, read at the TensorCore's references. -/
abbrev V13 : (c : Dev nD) → (b : Ref sig .tc) → Buf (Elt F) ((c : Thread nD τ).loc b) := fun c b => W13 m c b
/-- After region 3: its arrays at what the pipeline leaves, every other buffer as entered. -/
def W14 (c : Dev nD) : Valuation τ sig (Elt F) :=
  Pipeline.withArrays spec3 c (W13 m c) fun w => (dat3 (V13 m) c).arrAt w cfg3.N
theorem W14_arr (c : Dev nD) (w : Fin cfg3.W) :
    W14 m c (Proc.devRef .tc (Pipeline.arrRef spec3 w)) = (dat3 (V13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
abbrev V14 : (c : Dev nD) → (b : Ref sig .tc) → Buf (Elt F) ((c : Thread nD τ).loc b) := fun c b => W14 m c b
theorem hF3 (c : Dev nD) (w : Fin cfg3.W) : (dat3 (V13 m) c).arrAt w cfg3.N = V14 m c (Pipeline.arrRef spec3 w) :=
  (W14_arr m c w).symm
theorem hrest3 (c : Dev nD) : ∀ b, b ∉ Finset.univ.image (Pipeline.arrRef spec3) → V14 m c b = V13 m c b :=
  fun b hb => W14_of_ne m c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V9 m) c
  | ⟨3, _⟩ => fun c => dat3 (V13 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the pipeline's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the pipeline's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W9`, left at `W10`. Its arrays are split out of the unscoped
    buffers and put back at the exit contents; the generator register goes into the pipeline's invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W13`, left at `W14`. Its arrays are split out of the unscoped
    buffers and put back at the exit contents; the generator register goes into the pipeline's invariant and comes back;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m) c).loose
  hwaits := Pipeline.hwaits_of_owed_zero _ _ _ _ L lv 3 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V13 m c) (V14 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .region (reg3 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped TensorCore buffer at the last boundary's contents `W14`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.Kernel.Hand

end
-- ==== Proof.KKeep.lean ====
/-
  Buffers carried along: a buffer a host stretch does not write keeps its contents across the stretch, and a buffer a
  region does not stage as a window's array keeps them across the region. In particular every argument array reaches the
  end of @main holding what it held at launch, and the run's post states the frame.
-/
import proofs.«130928_j46574625358117_1_alg».proof.Proof.KRun

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (c : Dev nD)

theorem keep1 (r : Ref sig .tc) (h : r ∉ hostOps0_W) : W1 m c (Proc.devRef .tc r) = W0 m c (Proc.devRef .tc r) :=
  StableHlo.after_of_writes_sub hostOps0 _ hostOps0_writes h
theorem keep3 (r : Ref sig .tc) (h : r ∉ hostOps1_W) : W3 m c (Proc.devRef .tc r) = W2 m c (Proc.devRef .tc r) :=
  StableHlo.after_of_writes_sub hostOps1 _ hostOps1_writes h
theorem keep5 (r : Ref sig .tc) (h : r ∉ hostOps2_W) : W5 m c (Proc.devRef .tc r) = W4 m c (Proc.devRef .tc r) :=
  StableHlo.after_of_writes_sub hostOps2 _ hostOps2_writes h
theorem keep6 (r : Ref sig .tc) (h : r ∉ hostOps2_1_W) : W6 m c (Proc.devRef .tc r) = W5 m c (Proc.devRef .tc r) :=
  StableHlo.after_of_writes_sub hostOps2_1 _ hostOps2_1_writes h
theorem keep7 (r : Ref sig .tc) (h : r ∉ hostOps2_2_W) : W7 m c (Proc.devRef .tc r) = W6 m c (Proc.devRef .tc r) :=
  StableHlo.after_of_writes_sub hostOps2_2 _ hostOps2_2_writes h
theorem keep8 (r : Ref sig .tc) (h : r ∉ hostOps2_3_W) : W8 m c (Proc.devRef .tc r) = W7 m c (Proc.devRef .tc r) :=
  StableHlo.after_of_writes_sub hostOps2_3 _ hostOps2_3_writes h
theorem keep9 (r : Ref sig .tc) (h : r ∉ hostOps2_4_W) : W9 m c (Proc.devRef .tc r) = W8 m c (Proc.devRef .tc r) :=
  StableHlo.after_of_writes_sub hostOps2_4 _ hostOps2_4_writes h
theorem keep11 (r : Ref sig .tc) (h : r ∉ hostOps3_W) : W11 m c (Proc.devRef .tc r) = W10 m c (Proc.devRef .tc r) :=
  StableHlo.after_of_writes_sub hostOps3 _ hostOps3_writes h
theorem keep12 (r : Ref sig .tc) (h : r ∉ hostOps3_1_W) : W12 m c (Proc.devRef .tc r) = W11 m c (Proc.devRef .tc r) :=
  StableHlo.after_of_writes_sub hostOps3_1 _ hostOps3_1_writes h
theorem keep13 (r : Ref sig .tc) (h : r ∉ hostOps3_2_W) : W13 m c (Proc.devRef .tc r) = W12 m c (Proc.devRef .tc r) :=
  StableHlo.after_of_writes_sub hostOps3_2 _ hostOps3_2_writes h

/-- A region leaves an input window's array as it found it. -/
theorem W2_in (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem W10_in (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (V9 m) c).arrAt_in w hw _).trans (A_eq2 (V9 m) c w))
theorem W14_in (w : Fin cfg3.W) (hw : (cfg3.win w).isOut = false) :
    W14 m c (Proc.devRef .tc (Pipeline.arrRef spec3 w)) = W13 m c (Proc.devRef .tc (Pipeline.arrRef spec3 w)) :=
  (W14_arr m c w).trans (((dat3 (V13 m) c).arrAt_in w hw _).trans (A_eq3 (V13 m) c w))

/-! ## No segment writes an argument -/
theorem W14_arg0 : W14 m c (Proc.devRef .tc main_arg0) = m ((c.tc : Thread nD τ).loc main_arg0) :=
  ((W14_of_ne m c main_arg0 (by decide)).trans ((keep13 m c main_arg0 (by decide)).trans ((keep12 m c main_arg0 (by decide)).trans ((keep11 m c main_arg0 (by decide)).trans ((W10_of_ne m c main_arg0 (by decide)).trans ((keep9 m c main_arg0 (by decide)).trans ((keep8 m c main_arg0 (by decide)).trans ((keep7 m c main_arg0 (by decide)).trans ((keep6 m c main_arg0 (by decide)).trans ((keep5 m c main_arg0 (by decide)).trans ((W4_in m c 0 rfl).trans ((keep3 m c main_arg0 (by decide)).trans ((W2_of_ne m c main_arg0 (by decide)).trans (keep1 m c main_arg0 (by decide))))))))))))))).trans rfl
theorem W14_arg1 : W14 m c (Proc.devRef .tc main_arg1) = m ((c.tc : Thread nD τ).loc main_arg1) :=
  ((W14_of_ne m c main_arg1 (by decide)).trans ((keep13 m c main_arg1 (by decide)).trans ((keep12 m c main_arg1 (by decide)).trans ((keep11 m c main_arg1 (by decide)).trans ((W10_of_ne m c main_arg1 (by decide)).trans ((keep9 m c main_arg1 (by decide)).trans ((keep8 m c main_arg1 (by decide)).trans ((keep7 m c main_arg1 (by decide)).trans ((keep6 m c main_arg1 (by decide)).trans ((keep5 m c main_arg1 (by decide)).trans ((W4_of_ne m c main_arg1 (by decide)).trans ((keep3 m c main_arg1 (by decide)).trans ((W2_of_ne m c main_arg1 (by decide)).trans (keep1 m c main_arg1 (by decide))))))))))))))).trans rfl
theorem W14_arg2 : W14 m c (Proc.devRef .tc main_arg2) = m ((c.tc : Thread nD τ).loc main_arg2) :=
  ((W14_of_ne m c main_arg2 (by decide)).trans ((keep13 m c main_arg2 (by decide)).trans ((keep12 m c main_arg2 (by decide)).trans ((keep11 m c main_arg2 (by decide)).trans ((W10_of_ne m c main_arg2 (by decide)).trans ((keep9 m c main_arg2 (by decide)).trans ((keep8 m c main_arg2 (by decide)).trans ((keep7 m c main_arg2 (by decide)).trans ((keep6 m c main_arg2 (by decide)).trans ((keep5 m c main_arg2 (by decide)).trans ((W4_of_ne m c main_arg2 (by decide)).trans ((keep3 m c main_arg2 (by decide)).trans ((W2_of_ne m c main_arg2 (by decide)).trans (keep1 m c main_arg2 (by decide))))))))))))))).trans rfl
theorem W14_arg3 : W14 m c (Proc.devRef .tc main_arg3) = m ((c.tc : Thread nD τ).loc main_arg3) :=
  ((W14_of_ne m c main_arg3 (by decide)).trans ((keep13 m c main_arg3 (by decide)).trans ((keep12 m c main_arg3 (by decide)).trans ((keep11 m c main_arg3 (by decide)).trans ((W10_of_ne m c main_arg3 (by decide)).trans ((keep9 m c main_arg3 (by decide)).trans ((keep8 m c main_arg3 (by decide)).trans ((keep7 m c main_arg3 (by decide)).trans ((keep6 m c main_arg3 (by decide)).trans ((keep5 m c main_arg3 (by decide)).trans ((W4_of_ne m c main_arg3 (by decide)).trans ((keep3 m c main_arg3 (by decide)).trans ((W2_in m c 1 rfl).trans (keep1 m c main_arg3 (by decide))))))))))))))).trans rfl
theorem W14_arg4 : W14 m c (Proc.devRef .tc main_arg4) = m ((c.tc : Thread nD τ).loc main_arg4) :=
  ((W14_of_ne m c main_arg4 (by decide)).trans ((keep13 m c main_arg4 (by decide)).trans ((keep12 m c main_arg4 (by decide)).trans ((keep11 m c main_arg4 (by decide)).trans ((W10_of_ne m c main_arg4 (by decide)).trans ((keep9 m c main_arg4 (by decide)).trans ((keep8 m c main_arg4 (by decide)).trans ((keep7 m c main_arg4 (by decide)).trans ((keep6 m c main_arg4 (by decide)).trans ((keep5 m c main_arg4 (by decide)).trans ((W4_of_ne m c main_arg4 (by decide)).trans ((keep3 m c main_arg4 (by decide)).trans ((W2_of_ne m c main_arg4 (by decide)).trans (keep1 m c main_arg4 (by decide))))))))))))))).trans rfl
theorem W14_arg5 : W14 m c (Proc.devRef .tc main_arg5) = m ((c.tc : Thread nD τ).loc main_arg5) :=
  ((W14_of_ne m c main_arg5 (by decide)).trans ((keep13 m c main_arg5 (by decide)).trans ((keep12 m c main_arg5 (by decide)).trans ((keep11 m c main_arg5 (by decide)).trans ((W10_of_ne m c main_arg5 (by decide)).trans ((keep9 m c main_arg5 (by decide)).trans ((keep8 m c main_arg5 (by decide)).trans ((keep7 m c main_arg5 (by decide)).trans ((keep6 m c main_arg5 (by decide)).trans ((keep5 m c main_arg5 (by decide)).trans ((W4_of_ne m c main_arg5 (by decide)).trans ((keep3 m c main_arg5 (by decide)).trans ((W2_in m c 3 rfl).trans (keep1 m c main_arg5 (by decide))))))))))))))).trans rfl
theorem W14_arg6 : W14 m c (Proc.devRef .tc main_arg6) = m ((c.tc : Thread nD τ).loc main_arg6) :=
  ((W14_of_ne m c main_arg6 (by decide)).trans ((keep13 m c main_arg6 (by decide)).trans ((keep12 m c main_arg6 (by decide)).trans ((keep11 m c main_arg6 (by decide)).trans ((W10_of_ne m c main_arg6 (by decide)).trans ((keep9 m c main_arg6 (by decide)).trans ((keep8 m c main_arg6 (by decide)).trans ((keep7 m c main_arg6 (by decide)).trans ((keep6 m c main_arg6 (by decide)).trans ((keep5 m c main_arg6 (by decide)).trans ((W4_of_ne m c main_arg6 (by decide)).trans ((keep3 m c main_arg6 (by decide)).trans ((W2_of_ne m c main_arg6 (by decide)).trans (keep1 m c main_arg6 (by decide))))))))))))))).trans rfl
theorem W14_arg7 : W14 m c (Proc.devRef .tc main_arg7) = m ((c.tc : Thread nD τ).loc main_arg7) :=
  ((W14_of_ne m c main_arg7 (by decide)).trans ((keep13 m c main_arg7 (by decide)).trans ((keep12 m c main_arg7 (by decide)).trans ((keep11 m c main_arg7 (by decide)).trans ((W10_of_ne m c main_arg7 (by decide)).trans ((keep9 m c main_arg7 (by decide)).trans ((keep8 m c main_arg7 (by decide)).trans ((keep7 m c main_arg7 (by decide)).trans ((keep6 m c main_arg7 (by decide)).trans ((keep5 m c main_arg7 (by decide)).trans ((W4_in m c 1 rfl).trans ((keep3 m c main_arg7 (by decide)).trans ((W2_of_ne m c main_arg7 (by decide)).trans (keep1 m c main_arg7 (by decide))))))))))))))).trans rfl
theorem W14_arg8 : W14 m c (Proc.devRef .tc main_arg8) = m ((c.tc : Thread nD τ).loc main_arg8) :=
  ((W14_of_ne m c main_arg8 (by decide)).trans ((keep13 m c main_arg8 (by decide)).trans ((keep12 m c main_arg8 (by decide)).trans ((keep11 m c main_arg8 (by decide)).trans ((W10_of_ne m c main_arg8 (by decide)).trans ((keep9 m c main_arg8 (by decide)).trans ((keep8 m c main_arg8 (by decide)).trans ((keep7 m c main_arg8 (by decide)).trans ((keep6 m c main_arg8 (by decide)).trans ((keep5 m c main_arg8 (by decide)).trans ((W4_of_ne m c main_arg8 (by decide)).trans ((keep3 m c main_arg8 (by decide)).trans ((W2_of_ne m c main_arg8 (by decide)).trans (keep1 m c main_arg8 (by decide))))))))))))))).trans rfl
theorem W14_arg9 : W14 m c (Proc.devRef .tc main_arg9) = m ((c.tc : Thread nD τ).loc main_arg9) :=
  ((W14_of_ne m c main_arg9 (by decide)).trans ((keep13 m c main_arg9 (by decide)).trans ((keep12 m c main_arg9 (by decide)).trans ((keep11 m c main_arg9 (by decide)).trans ((W10_in m c 1 rfl).trans ((keep9 m c main_arg9 (by decide)).trans ((keep8 m c main_arg9 (by decide)).trans ((keep7 m c main_arg9 (by decide)).trans ((keep6 m c main_arg9 (by decide)).trans ((keep5 m c main_arg9 (by decide)).trans ((W4_of_ne m c main_arg9 (by decide)).trans ((keep3 m c main_arg9 (by decide)).trans ((W2_of_ne m c main_arg9 (by decide)).trans (keep1 m c main_arg9 (by decide))))))))))))))).trans rfl
theorem W14_arg10 : W14 m c (Proc.devRef .tc main_arg10) = m ((c.tc : Thread nD τ).loc main_arg10) :=
  ((W14_of_ne m c main_arg10 (by decide)).trans ((keep13 m c main_arg10 (by decide)).trans ((keep12 m c main_arg10 (by decide)).trans ((keep11 m c main_arg10 (by decide)).trans ((W10_of_ne m c main_arg10 (by decide)).trans ((keep9 m c main_arg10 (by decide)).trans ((keep8 m c main_arg10 (by decide)).trans ((keep7 m c main_arg10 (by decide)).trans ((keep6 m c main_arg10 (by decide)).trans ((keep5 m c main_arg10 (by decide)).trans ((W4_of_ne m c main_arg10 (by decide)).trans ((keep3 m c main_arg10 (by decide)).trans ((W2_of_ne m c main_arg10 (by decide)).trans (keep1 m c main_arg10 (by decide))))))))))))))).trans rfl
theorem W14_arg11 : W14 m c (Proc.devRef .tc main_arg11) = m ((c.tc : Thread nD τ).loc main_arg11) :=
  ((W14_in m c 1 rfl).trans ((keep13 m c main_arg11 (by decide)).trans ((keep12 m c main_arg11 (by decide)).trans ((keep11 m c main_arg11 (by decide)).trans ((W10_of_ne m c main_arg11 (by decide)).trans ((keep9 m c main_arg11 (by decide)).trans ((keep8 m c main_arg11 (by decide)).trans ((keep7 m c main_arg11 (by decide)).trans ((keep6 m c main_arg11 (by decide)).trans ((keep5 m c main_arg11 (by decide)).trans ((W4_of_ne m c main_arg11 (by decide)).trans ((keep3 m c main_arg11 (by decide)).trans ((W2_of_ne m c main_arg11 (by decide)).trans (keep1 m c main_arg11 (by decide))))))))))))))).trans rfl
theorem W14_arg12 : W14 m c (Proc.devRef .tc main_arg12) = m ((c.tc : Thread nD τ).loc main_arg12) :=
  ((W14_of_ne m c main_arg12 (by decide)).trans ((keep13 m c main_arg12 (by decide)).trans ((keep12 m c main_arg12 (by decide)).trans ((keep11 m c main_arg12 (by decide)).trans ((W10_of_ne m c main_arg12 (by decide)).trans ((keep9 m c main_arg12 (by decide)).trans ((keep8 m c main_arg12 (by decide)).trans ((keep7 m c main_arg12 (by decide)).trans ((keep6 m c main_arg12 (by decide)).trans ((keep5 m c main_arg12 (by decide)).trans ((W4_of_ne m c main_arg12 (by decide)).trans ((keep3 m c main_arg12 (by decide)).trans ((W2_of_ne m c main_arg12 (by decide)).trans (keep1 m c main_arg12 (by decide))))))))))))))).trans rfl

/-- THE FRAME: every weakly fair execution of @main terminates, nothing faulting, and every argument array ends holding
    what it held at launch. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W14_arg0 m c),
      (h c _ (mem_uc main_arg1 (by decide))).trans (W14_arg1 m c),
      (h c _ (mem_uc main_arg2 (by decide))).trans (W14_arg2 m c),
      (h c _ (mem_uc main_arg3 (by decide))).trans (W14_arg3 m c),
      (h c _ (mem_uc main_arg4 (by decide))).trans (W14_arg4 m c),
      (h c _ (mem_uc main_arg5 (by decide))).trans (W14_arg5 m c),
      (h c _ (mem_uc main_arg6 (by decide))).trans (W14_arg6 m c),
      (h c _ (mem_uc main_arg7 (by decide))).trans (W14_arg7 m c),
      (h c _ (mem_uc main_arg8 (by decide))).trans (W14_arg8 m c),
      (h c _ (mem_uc main_arg9 (by decide))).trans (W14_arg9 m c),
      (h c _ (mem_uc main_arg10 (by decide))).trans (W14_arg10 m c),
      (h c _ (mem_uc main_arg11 (by decide))).trans (W14_arg11 m c),
      (h c _ (mem_uc main_arg12 (by decide))).trans (W14_arg12 m c)⟩)
    (run_all m ρ)

/-- The same run, with the result array named: it ends at the last boundary's contents. -/
theorem run_out (ρ : Dev nD → PrngReg) : θ_run defs (onTc (τ := τ) (main (F := F))) ⟨m, fun _ => 0, ρ⟩ (fun r => ∀ c : Dev nD,
      r.2.mem ((c.tc : Thread nD τ).loc main_v108) = W14 m c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v108 (by decide)),
      (h c _ (mem_uc main_arg0 (by decide))).trans (W14_arg0 m c),
      (h c _ (mem_uc main_arg1 (by decide))).trans (W14_arg1 m c),
      (h c _ (mem_uc main_arg2 (by decide))).trans (W14_arg2 m c),
      (h c _ (mem_uc main_arg3 (by decide))).trans (W14_arg3 m c),
      (h c _ (mem_uc main_arg4 (by decide))).trans (W14_arg4 m c),
      (h c _ (mem_uc main_arg5 (by decide))).trans (W14_arg5 m c),
      (h c _ (mem_uc main_arg6 (by decide))).trans (W14_arg6 m c),
      (h c _ (mem_uc main_arg7 (by decide))).trans (W14_arg7 m c),
      (h c _ (mem_uc main_arg8 (by decide))).trans (W14_arg8 m c),
      (h c _ (mem_uc main_arg9 (by decide))).trans (W14_arg9 m c),
      (h c _ (mem_uc main_arg10 (by decide))).trans (W14_arg10 m c),
      (h c _ (mem_uc main_arg11 (by decide))).trans (W14_arg11 m c),
      (h c _ (mem_uc main_arg12 (by decide))).trans (W14_arg12 m c)⟩)
    (run_all m ρ)

end Cert.Kernel.Hand

end
-- ==== Proof.KIMlpPay.lean ====
/-
  The edge-weight kernel's stored value as ONE function of what its five loads read.

  The body loads the block of edge attributes (1000 x 128), the first layer's weights and biases (1 x 16 each), the second
  layer's weights (16 x 1) and bias (1 x 1), and stores a single value computed from them; the printed program computes
  that value in four parts that hand partial sums on. Composing the parts' payloads in the order the body runs them gives
  the stored block as a pure term of the five loaded values.
-/
import proofs.«130928_j46574625358117_1_alg».proof.Proof.Gen.KernelIdeal.Skeleton

noncomputable section

namespace Cert.KernelIdeal.Hand

open Idealize.ShloMosaic Cert.KernelIdeal Cert.KernelIdeal.Gen

variable {F : FTy → Type} [FloatOps F]

/-- The block the body stores, from the edge-attribute block `v0`, the first layer's weights `v2` and biases `v3`, the
    second layer's weights `v5` and bias `v6`: the four parts' partial sums threaded in program order. -/
def mlpPay (v0 : Vec F S1000x128 .f32) (v2 : Vec F S1x16 .f32) (v3 : Vec F S1x16 .f32) (v5 : Vec F S16x1 .f32)
    (v6 : Vec F S1x1 .f32) : FVec F S1000x128 .f32 :=
  k0_pay1 (k0_pay2 v0) v2 (k0_pay3 v3) v5
    (k0_pay11 (k0_pay2 v0) v2 (k0_pay3 v3) v5
      (k0_pay9 (k0_pay2 v0) v2 (k0_pay3 v3) v5
        (k0_pay7 (k0_pay2 v0) v2 (k0_pay3 v3) v5 (k0_pay4 v0 v2 v3 v5 v6) (k0_pay5 v0 v2) (k0_pay6 v3))
        (k0_pay8 v2))
      (k0_pay10 (k0_pay2 v0) v2 (k0_pay3 v3) v5))
    (k0_pay12 (k0_pay2 v0) v2 (k0_pay3 v3))

end Cert.KernelIdeal.Hand

end
-- ==== Proof.KIMlpLocal.lean ====
/-
  The edge-weight block's stored value at a position depends on the edge-attribute block at that position only.

  Every operation between the five loads and the store is pointwise on the block, a shape cast of the block to its own
  shape, or the broadcast of one scalar read from a small operand. So each part's payload, read at a position `j`, is a
  function of its block-sized arguments' values at `j` alone (`k0_payN_congr`), and chaining the parts in program order
  gives the same for the stored block as a function of the loaded edge-attribute block (`mlpPay_congr`). Nothing here
  depends on the float instance.
-/
import proofs.«130928_j46574625358117_1_alg».proof.Proof.KIMlpPay
import Idealize.ShloMosaic.Lib.Pipeline.Value
import Idealize.ShloMosaic.Lib.ValueIdx

noncomputable section

namespace Cert.KernelIdeal.Hand

open Idealize.ShloMosaic Cert.KernelIdeal Cert.KernelIdeal.Gen

variable {F : FTy → Type} [FloatOps F]

/-- The block's shape cast to its own shape is the block. -/
theorem k0_pay2_eq (v0 : Vec F S1000x128 .f32) : k0_pay2 v0 = v0 := shapeCast_self _ _

/-- The first two terms of the sum (on top of the broadcast second-layer bias) at a position read the edge-attribute
    block at that position only. -/
theorem k0_pay4_congr (v0 v0' : Vec F S1000x128 .f32) (v2 : Vec F S1x16 .f32) (v3 : Vec F S1x16 .f32)
    (v5 : Vec F S16x1 .f32) (v6 : Vec F S1x1 .f32) (j : S1000x128.Idx) (h : v0 j = v0' j) :
    k0_pay4 v0 v2 v3 v5 v6 j = k0_pay4 v0' v2 v3 v5 v6 j := by
  unfold k0_pay4
  rw [k0_pay2_eq v0, k0_pay2_eq v0']
  simp only [mulf, addf, maximumf, h]

/-- The third term's product at a position reads the edge-attribute block at that position only. -/
theorem k0_pay5_congr (v0 v0' : Vec F S1000x128 .f32) (v2 : Vec F S1x16 .f32) (j : S1000x128.Idx)
    (h : v0 j = v0' j) : k0_pay5 v0 v2 j = k0_pay5 v0' v2 j := by
  unfold k0_pay5
  rw [k0_pay2_eq v0, k0_pay2_eq v0']
  simp only [mulf, h]

/-- The last part (two more terms of the sum, then the logistic function) at a position reads its three block-sized arguments at that position only. -/
theorem k0_pay1_congr (v1 v1' : FVec F S1000x128 .f32) (v2 : Vec F S1x16 .f32) (v4 : FVec F S1x16 .f32) (v5 : Vec F S16x1 .f32) (v204 v204' : FVec F S1000x128 .f32) (v214 v214' : FVec F S1000x128 .f32)
    (j : S1000x128.Idx) (hv1 : v1 j = v1' j) (hv204 : v204 j = v204' j) (hv214 : v214 j = v214' j) :
    k0_pay1 v1 v2 v4 v5 v204 v214 j = k0_pay1 v1' v2 v4 v5 v204' v214' j :=
  calc k0_pay1 v1 v2 v4 v5 v204 v214 j
      = k0_pay1 (fun _ => v1 j) v2 v4 v5 (fun _ => v204 j) (fun _ => v214 j) j := rfl
    _ = k0_pay1 (fun _ => v1' j) v2 v4 v5 (fun _ => v204' j) (fun _ => v214' j) j := by rw [hv1, hv204, hv214]
    _ = k0_pay1 v1' v2 v4 v5 v204' v214' j := rfl

/-- Four terms of the sum at a position read the block-sized arguments at that position only. -/
theorem k0_pay7_congr (v1 v1' : FVec F S1000x128 .f32) (v2 : Vec F S1x16 .f32) (v4 : FVec F S1x16 .f32) (v5 : Vec F S16x1 .f32) (v39 v39' : FVec F S1000x128 .f32) (v43 v43' : FVec F S1000x128 .f32) (v46 v46' : FVec F S1000x128 .f32)
    (j : S1000x128.Idx) (hv1 : v1 j = v1' j) (hv39 : v39 j = v39' j) (hv43 : v43 j = v43' j) (hv46 : v46 j = v46' j) :
    k0_pay7 v1 v2 v4 v5 v39 v43 v46 j = k0_pay7 v1' v2 v4 v5 v39' v43' v46' j :=
  calc k0_pay7 v1 v2 v4 v5 v39 v43 v46 j
      = k0_pay7 (fun _ => v1 j) v2 v4 v5 (fun _ => v39 j) (fun _ => v43 j) (fun _ => v46 j) j := rfl
    _ = k0_pay7 (fun _ => v1' j) v2 v4 v5 (fun _ => v39' j) (fun _ => v43' j) (fun _ => v46' j) j := by rw [hv1, hv39, hv43, hv46]
    _ = k0_pay7 v1' v2 v4 v5 v39' v43' v46' j := rfl

/-- Three more terms of the sum, likewise. -/
theorem k0_pay9_congr (v1 v1' : FVec F S1000x128 .f32) (v2 : Vec F S1x16 .f32) (v4 : FVec F S1x16 .f32) (v5 : Vec F S16x1 .f32) (v99 v99' : FVec F S1000x128 .f32) (v102 v102' : FVec F S1000x128 .f32)
    (j : S1000x128.Idx) (hv1 : v1 j = v1' j) (hv99 : v99 j = v99' j) (hv102 : v102 j = v102' j) :
    k0_pay9 v1 v2 v4 v5 v99 v102 j = k0_pay9 v1' v2 v4 v5 v99' v102' j :=
  calc k0_pay9 v1 v2 v4 v5 v99 v102 j
      = k0_pay9 (fun _ => v1 j) v2 v4 v5 (fun _ => v99 j) (fun _ => v102 j) j := rfl
    _ = k0_pay9 (fun _ => v1' j) v2 v4 v5 (fun _ => v99' j) (fun _ => v102' j) j := by rw [hv1, hv99, hv102]
    _ = k0_pay9 v1' v2 v4 v5 v99' v102' j := rfl

/-- One term's product, likewise. -/
theorem k0_pay10_congr (v1 v1' : FVec F S1000x128 .f32) (v2 : Vec F S1x16 .f32) (v4 : FVec F S1x16 .f32) (v5 : Vec F S16x1 .f32)
    (j : S1000x128.Idx) (hv1 : v1 j = v1' j) :
    k0_pay10 v1 v2 v4 v5 j = k0_pay10 v1' v2 v4 v5 j :=
  calc k0_pay10 v1 v2 v4 v5 j
      = k0_pay10 (fun _ => v1 j) v2 v4 v5 j := rfl
    _ = k0_pay10 (fun _ => v1' j) v2 v4 v5 j := by rw [hv1]
    _ = k0_pay10 v1' v2 v4 v5 j := rfl

/-- Four more terms of the sum, likewise. -/
theorem k0_pay11_congr (v1 v1' : FVec F S1000x128 .f32) (v2 : Vec F S1x16 .f32) (v4 : FVec F S1x16 .f32) (v5 : Vec F S16x1 .f32) (v144 v144' : FVec F S1000x128 .f32) (v158 v158' : FVec F S1000x128 .f32)
    (j : S1000x128.Idx) (hv1 : v1 j = v1' j) (hv144 : v144 j = v144' j) (hv158 : v158 j = v158' j) :
    k0_pay11 v1 v2 v4 v5 v144 v158 j = k0_pay11 v1' v2 v4 v5 v144' v158' j :=
  calc k0_pay11 v1 v2 v4 v5 v144 v158 j
      = k0_pay11 (fun _ => v1 j) v2 v4 v5 (fun _ => v144 j) (fun _ => v158 j) j := rfl
    _ = k0_pay11 (fun _ => v1' j) v2 v4 v5 (fun _ => v144' j) (fun _ => v158' j) j := by rw [hv1, hv144, hv158]
    _ = k0_pay11 v1' v2 v4 v5 v144' v158' j := rfl

/-- One term's rectified affine image, likewise. -/
theorem k0_pay12_congr (v1 v1' : FVec F S1000x128 .f32) (v2 : Vec F S1x16 .f32) (v4 : FVec F S1x16 .f32)
    (j : S1000x128.Idx) (hv1 : v1 j = v1' j) :
    k0_pay12 v1 v2 v4 j = k0_pay12 v1' v2 v4 j :=
  calc k0_pay12 v1 v2 v4 j
      = k0_pay12 (fun _ => v1 j) v2 v4 j := rfl
    _ = k0_pay12 (fun _ => v1' j) v2 v4 j := by rw [hv1]
    _ = k0_pay12 v1' v2 v4 j := rfl

/-- THE STORED BLOCK AT A POSITION DEPENDS ON THE EDGE-ATTRIBUTE BLOCK AT THAT POSITION ONLY. -/
theorem mlpPay_congr (v0 v0' : Vec F S1000x128 .f32) (v2 : Vec F S1x16 .f32) (v3 : Vec F S1x16 .f32)
    (v5 : Vec F S16x1 .f32) (v6 : Vec F S1x1 .f32) (j : S1000x128.Idx) (h : v0 j = v0' j) :
    mlpPay v0 v2 v3 v5 v6 j = mlpPay v0' v2 v3 v5 v6 j := by
  have h1 : k0_pay2 v0 j = k0_pay2 v0' j := by rw [k0_pay2_eq, k0_pay2_eq]; exact h
  have h4 := k0_pay4_congr v0 v0' v2 v3 v5 v6 j h
  have h5 := k0_pay5_congr v0 v0' v2 j h
  have h7 := k0_pay7_congr _ _ v2 (k0_pay3 v3) v5 _ _ _ _ (k0_pay6 v3) (k0_pay6 v3) j h1 h4 h5 rfl
  have h9 := k0_pay9_congr _ _ v2 (k0_pay3 v3) v5 _ _ (k0_pay8 v2) (k0_pay8 v2) j h1 h7 rfl
  have h10 := k0_pay10_congr _ _ v2 (k0_pay3 v3) v5 j h1
  have h11 := k0_pay11_congr _ _ v2 (k0_pay3 v3) v5 _ _ _ _ j h1 h9 h10
  have h12 := k0_pay12_congr _ _ v2 (k0_pay3 v3) j h1
  exact k0_pay1_congr _ _ v2 (k0_pay3 v3) v5 _ _ _ _ j h1 h11 h12

end Cert.KernelIdeal.Hand

end
-- ==== Proof.KIMlp0.lean ====
/-
  Region 0, the edge-weight kernel, as the pipeline runs it: thirteen points over a [12500, 128] array in blocks of
  [1000, 128], the last block reaching 500 rows past the array's end.

  What is written here, at a PARAMETER `V` (the buffer contents when the region is entered): the block each window
  reads at a point, the body's triple (five whole loads, one whole store of the pointwise value `mlpPay`), the proof data
  and the body obligation. The first window (the edge attributes) and the result window are cut at the last point: a
  fetch fills only the rows inside the array and leaves the rest of the staging buffer at contents nothing names, so
  the obligation speaks of the rows inside the array only. The stored value at a position depends on the attribute
  block at that position alone (`mlpPay_congr`), so the rows inside the array of what the body stores do not depend on
  what the rows outside held.
-/
import proofs.«130928_j46574625358117_1_alg».proof.Proof.Gen.KernelIdeal.Launch
import proofs.«130928_j46574625358117_1_alg».proof.Proof.Gen.KernelIdeal.Skeleton
import proofs.«130928_j46574625358117_1_alg».proof.Proof.Gen.KernelIdeal.Points
import proofs.«130928_j46574625358117_1_alg».proof.Proof.KIMlpPay
import proofs.«130928_j46574625358117_1_alg».proof.Proof.KIMlpLocal
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: for the two cut windows the rows
    inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The zero word: what fills the rows past the array's end in the proof data (nothing reads them). -/
abbrev zfill : S1000x128.Idx → Elt F .f32 := fun _ => Scalar.ofBits .f32 0#32

/-! ## The body's accesses -/

abbrev rB : Rect S1000x128 := Rect.unit (s := S1000x128) ![0, 0] S1000x128.size inb_S1000x128_S1000x128_0_0
abbrev rW : Rect S1x16 := Rect.unit (s := S1x16) ![0, 0] S1x16.size inb_S1x16_S1x16_0_0
abbrev rC : Rect S16x1 := Rect.unit (s := S16x1) ![0, 0] S16x1.size inb_S16x1_S16x1_0_0
abbrev rS : Rect S1x1 := Rect.unit (s := S1x1) ![0, 0] S1x1.size inb_S1x1_S1x1_0_0

/-- What the body leaves in the result's staging buffer, from what the five input buffers hold: its one store. -/
def out0_5 (x0 : Vec F S1000x128 .f32) (x1 x2 : Vec F S1x16 .f32) (x3 : Vec F S16x1 .f32) (x4 : Vec F S1x1 .f32) : Vec F S1000x128 .f32 :=
  View.canon [⟨rB, mlpPay (View.ld x0 rB) (View.ld x1 rW) (View.ld x2 rW) (View.ld x3 rC) (View.ld x4 rS)⟩]

theorem cover0_5 (p0 : Vec F S1000x128 .f32) (y : S1000x128.Idx) :
    ∃ pc ∈ ([⟨rB, p0⟩] : List (View.Piece (Elt F) S1000x128 .f32)), y ∈ pc.1.set :=
  View.cover_of_tiled [⟨rB, p0⟩] S1000x128.size (by rfl) y

theorem hz2 : (![0, 0] : Fin 2 → Nat) = fun _ => 0 := funext fun a => by fin_cases a <;> rfl

/-- The store is of the whole buffer and the loads read whole buffers: the buffer ends at the pointwise value of what
    the inputs hold. -/
theorem out0_5_eq (x0 : Vec F S1000x128 .f32) (x1 x2 : Vec F S1x16 .f32) (x3 : Vec F S16x1 .f32) (x4 : Vec F S1x1 .f32) :
    out0_5 x0 x1 x2 x3 x4 = mlpPay x0 x1 x2 x3 x4 := by
  unfold out0_5
  rw [View.canon_unit_zero hz2]
  simp only [View.ld_unit_zero (S := S1000x128) hz2, View.ld_unit_zero (S := S1x16) hz2, View.ld_unit_zero (S := S16x1) hz2,
    View.ld_unit_zero (S := S1x1) hz2]

/-! ## The body's triple -/

set_option maxHeartbeats 4000000 in
/-- The kernel body on whole staging memrefs, the inputs' at read contents and the result's at anything, runs to the
    continuation holding the inputs' as they were and the result's at `out0_5` of them. -/
theorem sound_kernel0 (c : Dev nD) (E : Set ℕ) (i : grid0.Coords)
    (arg1 : Memref sig .tc .vmem S1000x128 .f32) (harg1 : arg1.IsWhole) (arg2 : Memref sig .tc .vmem S1x16 .f32) (harg2 : arg2.IsWhole)
    (arg3 : Memref sig .tc .vmem S1x16 .f32) (harg3 : arg3.IsWhole) (arg4 : Memref sig .tc .vmem S16x1 .f32) (harg4 : arg4.IsWhole)
    (arg5 : Memref sig .tc .vmem S1x1 .f32) (harg5 : arg5.IsWhole) (arg6 : Memref sig .tc .vmem S1000x128 .f32) (harg6 : arg6.IsWhole)
    (x0 : Vec F S1000x128 .f32) (x1 x2 : Vec F S1x16 .f32) (x3 : Vec F S16x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__edge_mlp_kernel i arg1 harg1 arg2 harg2 arg3 harg3 arg4 harg4 arg5 harg5 arg6 harg6) K := by
  simp only [cc0__edge_mlp_kernel_eq_skeleton]; unfold cc0__edge_mlp_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    small input's buffer at its block, the attribute buffer at its block filled out past the array's end with the zero
    word, and the result's at the pointwise value of those. -/
def dat0 (c : Dev nD) : Dat τ (Elt F) Unit ℕ (UR sig nD τ) ℕ cfg0 c where
  A w := V c (Pipeline.arrRef spec0 w)
  after w t := match w with
    | ⟨0, _⟩ => win0_0.fill (grid0.coords t) zfill (iblk0 V c 0 t)
    | ⟨1, _⟩ => iblk0 V c 1 t
    | ⟨2, _⟩ => iblk0 V c 2 t
    | ⟨3, _⟩ => iblk0 V c 3 t
    | ⟨4, _⟩ => iblk0 V c 4 t
    | ⟨5, _⟩ => mlpPay (win0_0.fill (grid0.coords t) zfill (iblk0 V c 0 t)) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = win0_0.fill (grid0.coords t) zfill (iblk0 V c 0 t) := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = mlpPay (win0_0.fill (grid0.coords t) zfill (iblk0 V c 0 t)) (iblk0 V c 1 t) (iblk0 V c 2 t) (iblk0 V c 3 t) (iblk0 V c 4 t) := by dsimp only [dat0]

/-- The attribute window is fetched at every point: its buffer holds the block on the rows inside the array and `d`,
    anything, past them. -/
theorem before0_0 (c : Dev nD) (t : Fin cfg0.N) (d) :
    (dat0 V c).before 0 t d = win0_0.fill (grid0.coords t) d (iblk0 V c 0 t) := by
  unfold Dat.before; rw [if_pos (fetch0_0 t)]; rfl

/-- Each small input's buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The rows inside the array do not depend on the rows outside -/

/-- Two fillings of one block agree wherever the fetch moves a word. -/
theorem fill_agree {α : Type} (i : grid0.Coords) (d d' : S1000x128.Idx → α) (g : (win0_0.xblock i).Idx → α) (j : S1000x128.Idx)
    (h : win0_0.moved i j = true) : win0_0.fill i d g j = win0_0.fill i d' g j := by
  unfold Window.fill; rw [dif_pos h, dif_pos h]

/-- A position the result's write-back moves is one the attribute fetch moves: the two windows have one index map and
    one block shape over arrays of one extent. -/
theorem moved_xinj (i : grid0.Coords) (j : (win0_5.xblock i).Idx) : win0_0.moved i (win0_5.xinj i j) = true :=
  (win0_0.moved_iff i _).mpr fun a => (j a).isLt

/-- What the body stores, cut to the rows the write-back moves, is the same whatever filled the attribute buffer past
    the array's end. -/
theorem cut_out_indep (i : grid0.Coords) (d : S1000x128.Idx → Elt F .f32) (g : (win0_0.xblock i).Idx → Elt F .f32)
    (x1 x2 : Vec F S1x16 .f32) (x3 : Vec F S16x1 .f32) (x4 : Vec F S1x1 .f32) :
    win0_5.cut i (mlpPay (win0_0.fill i d g) x1 x2 x3 x4) = win0_5.cut i (mlpPay (win0_0.fill i zfill g) x1 x2 x3 x4) := by
  funext j
  exact mlpPay_congr _ _ x1 x2 x3 x4 _ (fill_agree i d zfill g _ (moved_xinj i j))

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the two cut windows' buffers stated on the rows their transfers move. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ (∃ d, owns (c : Thread nD τ) (st0_5 t) fullShare (win0_5.fill (grid0.coords t) d (win0_5.cut (grid0.coords t) ((dat0 V c).after 5 t)))))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (win0_0.fill (grid0.coords t) d0 (iblk0 V c 0 t)) (iblk0 V c 1 t) (iblk0 V c 2 t)
    (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0; rw [win0_0.cut_fill]; iexact H0
  isplitl [H1]; · iexact H1
  isplitl [H2]; · iexact H2
  isplitl [H3]; · iexact H3
  isplitl [H4]; · iexact H4
  iexists _
  rw [out0_5_eq, ← cut_out_indep (F := F) (grid0.coords t) d0 (iblk0 V c 0 t), win0_5.fill_cut]
  iexact H5

/-- The library's body obligation, at every point. -/
theorem body_obligation0 (c : Dev nD) : BodyObligationLoose (dat0 (F := F) V c) (defs₀ (F := F)) Variants.none () Set.univ := fun t => by
  rw [bigSep_W0, bigSep_W0]
  exact sound_body0 V c t

end Cert.KernelIdeal.Hand

end
-- ==== Proof.KILin1.lean ====
import proofs.«130928_j46574625358117_1_alg».proof.Proof.Gen.KernelIdeal.Launch
import proofs.«130928_j46574625358117_1_alg».proof.Proof.Gen.KernelIdeal.Skeleton
import proofs.«130928_j46574625358117_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear layer `y = x W + b` of pipeline 1: the body's frame at a generic grid point

Per row block of 2000 rows, the body reads the block of `x`, the whole of `W` and of `b`, and stores one
payload over the whole output block. Everything is stated at a parameter `V`: the buffer contents when the
region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an
    unfetched window's block index has not moved), for any proof data whose array is `V`'s and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S2000x64 := Rect.unit (s := S2000x64) ![0, 0] S2000x64.size inb_S2000x64_S2000x64_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S2000x64 := Rect.unit (s := S2000x64) ![0, 0] S2000x64.size inb_S2000x64_S2000x64_0_0

/-! ## What the body leaves in the output window's buffer -/

/-- The output staging buffer after the body, from the input windows' blocks: its one store, over the whole
    buffer, of the payload of the three whole-buffer loads. -/
def out1_3 (x0 : Vec F S2000x64 .f32) (x1 : Vec F S64x64 .f32) (x2 : Vec F S1x64 .f32) : Vec F S2000x64 .f32 :=
  View.canon [⟨r1_o, k1_pay1 (View.ld x0 r1_x) (View.ld x1 r1_w) (View.ld x2 r1_b)⟩]

/-- The one store tiles the buffer, so it covers it. -/
theorem cover1_3 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-! ## The body's triple -/

set_option maxHeartbeats 1000000 in
/-- The kernel body on whole staging memrefs, the inputs' at read contents and the output's at anything, runs
    to the continuation holding the inputs' as they were and the output's at `out1_3` of the inputs'. -/
theorem sound_kernel1 (c : Dev nD) (E : Set ℕ) (i : grid1.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point
    `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KILin2.lean ====
import proofs.«130928_j46574625358117_1_alg».proof.Proof.Gen.KernelIdeal.Launch
import proofs.«130928_j46574625358117_1_alg».proof.Proof.Gen.KernelIdeal.Skeleton
import proofs.«130928_j46574625358117_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear layer `y = x W + b` of pipeline 2: the body's frame at a generic grid point

Per row block of 2000 rows, the body reads the block of `x`, the whole of `W` and of `b`, and stores one
payload over the whole output block. Everything is stated at a parameter `V`: the buffer contents when the
region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an
    unfetched window's block index has not moved), for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_x : Rect S2000x64 := Rect.unit (s := S2000x64) ![0, 0] S2000x64.size inb_S2000x64_S2000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S2000x64 := Rect.unit (s := S2000x64) ![0, 0] S2000x64.size inb_S2000x64_S2000x64_0_0

/-! ## What the body leaves in the output window's buffer -/

/-- The output staging buffer after the body, from the input windows' blocks: its one store, over the whole
    buffer, of the payload of the three whole-buffer loads. -/
def out2_3 (x0 : Vec F S2000x64 .f32) (x1 : Vec F S64x64 .f32) (x2 : Vec F S1x64 .f32) : Vec F S2000x64 .f32 :=
  View.canon [⟨r2_o, k2_pay1 (View.ld x0 r2_x) (View.ld x1 r2_w) (View.ld x2 r2_b)⟩]

/-- The one store tiles the buffer, so it covers it. -/
theorem cover2_3 (p0 : Vec F S2000x64 .f32) (y : S2000x64.Idx) :
    ∃ pc ∈ ([⟨r2_o, p0⟩] : List (View.Piece (Elt F) S2000x64 .f32)), y ∈ pc.1.set :=
  View.cover_of_tiled [⟨r2_o, p0⟩] S2000x64.size (by rfl) y

/-! ## The body's triple -/

set_option maxHeartbeats 1000000 in
/-- The kernel body on whole staging memrefs, the inputs' at read contents and the output's at anything, runs
    to the continuation holding the inputs' as they were and the output's at `out2_3` of the inputs'. -/
theorem sound_kernel2 (c : Dev nD) (E : Set ℕ) (i : grid2.Coords)
    (arg1 : Memref sig .tc .vmem S2000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point
    `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KILin3.lean ====
import proofs.«130928_j46574625358117_1_alg».proof.Proof.Gen.KernelIdeal.Launch
import proofs.«130928_j46574625358117_1_alg».proof.Proof.Gen.KernelIdeal.Skeleton
import proofs.«130928_j46574625358117_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear layer `y = x W + b` of pipeline 3: the body's frame at a generic grid point

Per row block of 2000 rows, the body reads the block of `x`, the whole of `W` and of `b`, and stores one
payload over the whole output block. Everything is stated at a parameter `V`: the buffer contents when the
region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (an
    unfetched window's block index has not moved), for any proof data whose array is `V`'s and whose body
    leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_x : Rect S2000x64 := Rect.unit (s := S2000x64) ![0, 0] S2000x64.size inb_S2000x64_S2000x64_0_0
abbrev r3_w : Rect S64x32 := Rect.unit (s := S64x32) ![0, 0] S64x32.size inb_S64x32_S64x32_0_0
abbrev r3_b : Rect S1x32 := Rect.unit (s := S1x32) ![0, 0] S1x32.size inb_S1x32_S1x32_0_0
abbrev r3_o : Rect S2000x32 := Rect.unit (s := S2000x32) ![0, 0] S2000x32.size inb_S2000x32_S2000x32_0_0

/-! ## What the body leaves in the output window's buffer -/

/-- The output staging buffer after the body, from the input windows' blocks: its one store, over the whole
    buffer, of the payload of the three whole-buffer loads. -/
def out3_3 (x0 : Vec F S2000x64 .f32) (x1 : Vec F S64x32 .f32) (x2 : Vec F S1x32 .f32) : Vec F S2000x32 .f32 :=
  View.canon [⟨r3_o, k3_pay1 (View.ld x0 r3_x) (View.ld x1 r3_w) (View.ld x2 r3_b)⟩]

/-- The one store tiles the buffer, so it covers it. -/
theorem cover3_3 (p0 : Vec F S2000x32 .f32) (y : S2000x32.Idx) :
    ∃ pc ∈ ([⟨r3_o, p0⟩] : List (View.Piece (Elt F) S2000x32 .f32)), y ∈ pc.1.set :=
  View.cover_of_tiled [⟨r3_o, p0⟩] S2000x32.size (by rfl) y

/-! ## The body's triple -/

set_option maxHeartbeats 1000000 in
/-- The kernel body on whole staging memrefs, the inputs' at read contents and the output's at anything, runs
    to the continuation holding the inputs' as they were and the output's at `out3_3` of the inputs'. -/
theorem sound_kernel3 (c : Dev nD) (E : Set ℕ) (i : grid3.Coords)
    (arg1 : Memref sig .tc .vmem S2000x64 .f32) (harg1 : arg1.IsWhole) (arg2 : Memref sig .tc .vmem S64x32 .f32) (harg2 : arg2.IsWhole)
    (arg3 : Memref sig .tc .vmem S1x32 .f32) (harg3 : arg3.IsWhole) (arg4 : Memref sig .tc .vmem S2000x32 .f32) (harg4 : arg4.IsWhole)
    (x0 : Vec F S2000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point
    `t` each input's buffer at its block and the output's at `out3_3` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant
    and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/-
  The run of @main: fourteen segments, four kernel regions among ten stretches of host operations.

  The buffer contents at each boundary are a fold from the launch memory: a host stretch applies its operations, a region
  leaves its windows' arrays at what its write-backs leave and every other buffer as it found it. Every region is entered
  from "each unscoped buffer at the boundary's contents, the generator register at some state, nothing owed" and left at
  the same over the next boundary's contents; the several-regions launch theorem then gives: every weakly fair execution
  terminates, and the final memory holds every unscoped buffer at the last boundary's contents.
-/
import proofs.«130928_j46574625358117_1_alg».proof.Proof.Gen.KernelIdeal.Launch
import proofs.«130928_j46574625358117_1_alg».proof.Proof.Gen.KernelIdeal.Regions
import proofs.«130928_j46574625358117_1_alg».proof.Proof.KIMlp0
import proofs.«130928_j46574625358117_1_alg».proof.Proof.KILin1
import proofs.«130928_j46574625358117_1_alg».proof.Proof.KILin2
import proofs.«130928_j46574625358117_1_alg».proof.Proof.KILin3
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the host stretch `hostOps0`. -/
abbrev W1 : Dev nD → Valuation τ sig (Elt F) := fun c => StableHlo.after hostOps0 (W0 m c)
/-- The contents region 0 is entered from, read at the TensorCore's references. -/
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The contents region 1 is entered from, read at the TensorCore's references. -/
abbrev V3 : (c : Dev nD) → (b : Ref sig .tc) → Buf (Elt F) ((c : Thread nD τ).loc b) := fun c b => W3 m c b
/-- After region 1: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- After the host stretch `hostOps2_1`. -/
abbrev W6 : Dev nD → Valuation τ sig (Elt F) := fun c => StableHlo.after hostOps2_1 (W5 m c)
/-- After the host stretch `hostOps2_2`. -/
abbrev W7 : Dev nD → Valuation τ sig (Elt F) := fun c => StableHlo.after hostOps2_2 (W6 m c)
/-- After the host stretch `hostOps2_3`. -/
abbrev W8 : Dev nD → Valuation τ sig (Elt F) := fun c => StableHlo.after hostOps2_3 (W7 m c)
/-- After the host stretch `hostOps2_4`. -/
abbrev W9 : Dev nD → Valuation τ sig (Elt F) := fun c => StableHlo.after hostOps2_4 (W8 m c)
/-- The contents region 2 is entered from, read at the TensorCore's references. -/
abbrev V9 : (c : Dev nD) → (b : Ref sig .tc) → Buf (Elt F) ((c : Thread nD τ).loc b) := fun c b => W9 m c b
/-- After region 2: its arrays at what the pipeline leaves, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)
/-- After the host stretch `hostOps3`. -/
abbrev W11 : Dev nD → Valuation τ sig (Elt F) := fun c => StableHlo.after hostOps3 (W10 m c)
/-- After the host stretch `hostOps3_1`. -/
abbrev W12 : Dev nD → Valuation τ sig (Elt F) := fun c => StableHlo.after hostOps3_1 (W11 m c)
/-- After the host stretch `hostOps3_2`. -/
abbrev W13 : Dev nD → Valuation τ sig (Elt F) := fun c => StableHlo.after hostOps3_2 (W12 m c)
/-- The contents region 3 is entered from, read at the TensorCore's references. -/
abbrev V13 : (c : Dev nD) → (b : Ref sig .tc) → Buf (Elt F) ((c : Thread nD τ).loc b) := fun c b => W13 m c b
/-- After region 3: its arrays at what the pipeline leaves, every other buffer as entered. -/
def W14 (c : Dev nD) : Valuation τ sig (Elt F) :=
  Pipeline.withArrays spec3 c (W13 m c) fun w => (dat3 (V13 m) c).arrAt w cfg3.N
theorem W14_arr (c : Dev nD) (w : Fin cfg3.W) :
    W14 m c (Proc.devRef .tc (Pipeline.arrRef spec3 w)) = (dat3 (V13 m) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
abbrev V14 : (c : Dev nD) → (b : Ref sig .tc) → Buf (Elt F) ((c : Thread nD τ).loc b) := fun c b => W14 m c b
theorem hF3 (c : Dev nD) (w : Fin cfg3.W) : (dat3 (V13 m) c).arrAt w cfg3.N = V14 m c (Pipeline.arrRef spec3 w) :=
  (W14_arr m c w).symm
theorem hrest3 (c : Dev nD) : ∀ b, b ∉ Finset.univ.image (Pipeline.arrRef spec3) → V14 m c b = V13 m c b :=
  fun b hb => W14_of_ne m c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V9 m) c
  | ⟨3, _⟩ => fun c => dat3 (V13 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0: entered from every unscoped buffer at `W1`, left at `W2`. Its arrays are split out of the unscoped
    buffers and put back at the exit contents; the generator register goes into the pipeline's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. Its arrays are split out of the unscoped
    buffers and put back at the exit contents; the generator register goes into the pipeline's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W9`, left at `W10`. Its arrays are split out of the unscoped
    buffers and put back at the exit contents; the generator register goes into the pipeline's invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W13`, left at `W14`. Its arrays are split out of the unscoped
    buffers and put back at the exit contents; the generator register goes into the pipeline's invariant and comes back;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m) c).loose
  hwaits := Pipeline.hwaits_of_owed_zero _ _ _ _ L lv 3 fun _ _ => rfl
  pre c := iprop(StableHlo.held (c : Thread nD τ) (Pipeline.ucRefs τ sig) (W13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V13 m c) (V14 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .region (reg3 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped TensorCore buffer at the last boundary's contents `W14`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.KernelIdeal.Hand

end
-- ==== Proof.KIKeep.lean ====
/-
  Buffers carried along: a buffer a host stretch does not write keeps its contents across the stretch, and a buffer a
  region does not stage as a window's array keeps them across the region. In particular every argument array reaches the
  end of @main holding what it held at launch, and the run's post states the frame.
-/
import proofs.«130928_j46574625358117_1_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (c : Dev nD)

theorem keep1 (r : Ref sig .tc) (h : r ∉ hostOps0_W) : W1 m c (Proc.devRef .tc r) = W0 m c (Proc.devRef .tc r) :=
  StableHlo.after_of_writes_sub hostOps0 _ hostOps0_writes h
theorem keep3 (r : Ref sig .tc) (h : r ∉ hostOps1_W) : W3 m c (Proc.devRef .tc r) = W2 m c (Proc.devRef .tc r) :=
  StableHlo.after_of_writes_sub hostOps1 _ hostOps1_writes h
theorem keep5 (r : Ref sig .tc) (h : r ∉ hostOps2_W) : W5 m c (Proc.devRef .tc r) = W4 m c (Proc.devRef .tc r) :=
  StableHlo.after_of_writes_sub hostOps2 _ hostOps2_writes h
theorem keep6 (r : Ref sig .tc) (h : r ∉ hostOps2_1_W) : W6 m c (Proc.devRef .tc r) = W5 m c (Proc.devRef .tc r) :=
  StableHlo.after_of_writes_sub hostOps2_1 _ hostOps2_1_writes h
theorem keep7 (r : Ref sig .tc) (h : r ∉ hostOps2_2_W) : W7 m c (Proc.devRef .tc r) = W6 m c (Proc.devRef .tc r) :=
  StableHlo.after_of_writes_sub hostOps2_2 _ hostOps2_2_writes h
theorem keep8 (r : Ref sig .tc) (h : r ∉ hostOps2_3_W) : W8 m c (Proc.devRef .tc r) = W7 m c (Proc.devRef .tc r) :=
  StableHlo.after_of_writes_sub hostOps2_3 _ hostOps2_3_writes h
theorem keep9 (r : Ref sig .tc) (h : r ∉ hostOps2_4_W) : W9 m c (Proc.devRef .tc r) = W8 m c (Proc.devRef .tc r) :=
  StableHlo.after_of_writes_sub hostOps2_4 _ hostOps2_4_writes h
theorem keep11 (r : Ref sig .tc) (h : r ∉ hostOps3_W) : W11 m c (Proc.devRef .tc r) = W10 m c (Proc.devRef .tc r) :=
  StableHlo.after_of_writes_sub hostOps3 _ hostOps3_writes h
theorem keep12 (r : Ref sig .tc) (h : r ∉ hostOps3_1_W) : W12 m c (Proc.devRef .tc r) = W11 m c (Proc.devRef .tc r) :=
  StableHlo.after_of_writes_sub hostOps3_1 _ hostOps3_1_writes h
theorem keep13 (r : Ref sig .tc) (h : r ∉ hostOps3_2_W) : W13 m c (Proc.devRef .tc r) = W12 m c (Proc.devRef .tc r) :=
  StableHlo.after_of_writes_sub hostOps3_2 _ hostOps3_2_writes h

/-- A region leaves an input window's array as it found it. -/
theorem W2_in (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem W10_in (w : Fin cfg2.W) (hw : (cfg2.win w).isOut = false) :
    W10 m c (Proc.devRef .tc (Pipeline.arrRef spec2 w)) = W9 m c (Proc.devRef .tc (Pipeline.arrRef spec2 w)) :=
  (W10_arr m c w).trans (((dat2 (V9 m) c).arrAt_in w hw _).trans (A_eq2 (V9 m) c w))
theorem W14_in (w : Fin cfg3.W) (hw : (cfg3.win w).isOut = false) :
    W14 m c (Proc.devRef .tc (Pipeline.arrRef spec3 w)) = W13 m c (Proc.devRef .tc (Pipeline.arrRef spec3 w)) :=
  (W14_arr m c w).trans (((dat3 (V13 m) c).arrAt_in w hw _).trans (A_eq3 (V13 m) c w))

/-! ## No segment writes an argument -/
theorem W14_arg0 : W14 m c (Proc.devRef .tc main_arg0) = m ((c.tc : Thread nD τ).loc main_arg0) :=
  ((W14_of_ne m c main_arg0 (by decide)).trans ((keep13 m c main_arg0 (by decide)).trans ((keep12 m c main_arg0 (by decide)).trans ((keep11 m c main_arg0 (by decide)).trans ((W10_of_ne m c main_arg0 (by decide)).trans ((keep9 m c main_arg0 (by decide)).trans ((keep8 m c main_arg0 (by decide)).trans ((keep7 m c main_arg0 (by decide)).trans ((keep6 m c main_arg0 (by decide)).trans ((keep5 m c main_arg0 (by decide)).trans ((W4_in m c 0 rfl).trans ((keep3 m c main_arg0 (by decide)).trans ((W2_of_ne m c main_arg0 (by decide)).trans (keep1 m c main_arg0 (by decide))))))))))))))).trans rfl
theorem W14_arg1 : W14 m c (Proc.devRef .tc main_arg1) = m ((c.tc : Thread nD τ).loc main_arg1) :=
  ((W14_of_ne m c main_arg1 (by decide)).trans ((keep13 m c main_arg1 (by decide)).trans ((keep12 m c main_arg1 (by decide)).trans ((keep11 m c main_arg1 (by decide)).trans ((W10_of_ne m c main_arg1 (by decide)).trans ((keep9 m c main_arg1 (by decide)).trans ((keep8 m c main_arg1 (by decide)).trans ((keep7 m c main_arg1 (by decide)).trans ((keep6 m c main_arg1 (by decide)).trans ((keep5 m c main_arg1 (by decide)).trans ((W4_of_ne m c main_arg1 (by decide)).trans ((keep3 m c main_arg1 (by decide)).trans ((W2_of_ne m c main_arg1 (by decide)).trans (keep1 m c main_arg1 (by decide))))))))))))))).trans rfl
theorem W14_arg2 : W14 m c (Proc.devRef .tc main_arg2) = m ((c.tc : Thread nD τ).loc main_arg2) :=
  ((W14_of_ne m c main_arg2 (by decide)).trans ((keep13 m c main_arg2 (by decide)).trans ((keep12 m c main_arg2 (by decide)).trans ((keep11 m c main_arg2 (by decide)).trans ((W10_of_ne m c main_arg2 (by decide)).trans ((keep9 m c main_arg2 (by decide)).trans ((keep8 m c main_arg2 (by decide)).trans ((keep7 m c main_arg2 (by decide)).trans ((keep6 m c main_arg2 (by decide)).trans ((keep5 m c main_arg2 (by decide)).trans ((W4_of_ne m c main_arg2 (by decide)).trans ((keep3 m c main_arg2 (by decide)).trans ((W2_of_ne m c main_arg2 (by decide)).trans (keep1 m c main_arg2 (by decide))))))))))))))).trans rfl
theorem W14_arg3 : W14 m c (Proc.devRef .tc main_arg3) = m ((c.tc : Thread nD τ).loc main_arg3) :=
  ((W14_of_ne m c main_arg3 (by decide)).trans ((keep13 m c main_arg3 (by decide)).trans ((keep12 m c main_arg3 (by decide)).trans ((keep11 m c main_arg3 (by decide)).trans ((W10_of_ne m c main_arg3 (by decide)).trans ((keep9 m c main_arg3 (by decide)).trans ((keep8 m c main_arg3 (by decide)).trans ((keep7 m c main_arg3 (by decide)).trans ((keep6 m c main_arg3 (by decide)).trans ((keep5 m c main_arg3 (by decide)).trans ((W4_of_ne m c main_arg3 (by decide)).trans ((keep3 m c main_arg3 (by decide)).trans ((W2_in m c 1 rfl).trans (keep1 m c main_arg3 (by decide))))))))))))))).trans rfl
theorem W14_arg4 : W14 m c (Proc.devRef .tc main_arg4) = m ((c.tc : Thread nD τ).loc main_arg4) :=
  ((W14_of_ne m c main_arg4 (by decide)).trans ((keep13 m c main_arg4 (by decide)).trans ((keep12 m c main_arg4 (by decide)).trans ((keep11 m c main_arg4 (by decide)).trans ((W10_of_ne m c main_arg4 (by decide)).trans ((keep9 m c main_arg4 (by decide)).trans ((keep8 m c main_arg4 (by decide)).trans ((keep7 m c main_arg4 (by decide)).trans ((keep6 m c main_arg4 (by decide)).trans ((keep5 m c main_arg4 (by decide)).trans ((W4_of_ne m c main_arg4 (by decide)).trans ((keep3 m c main_arg4 (by decide)).trans ((W2_of_ne m c main_arg4 (by decide)).trans (keep1 m c main_arg4 (by decide))))))))))))))).trans rfl
theorem W14_arg5 : W14 m c (Proc.devRef .tc main_arg5) = m ((c.tc : Thread nD τ).loc main_arg5) :=
  ((W14_of_ne m c main_arg5 (by decide)).trans ((keep13 m c main_arg5 (by decide)).trans ((keep12 m c main_arg5 (by decide)).trans ((keep11 m c main_arg5 (by decide)).trans ((W10_of_ne m c main_arg5 (by decide)).trans ((keep9 m c main_arg5 (by decide)).trans ((keep8 m c main_arg5 (by decide)).trans ((keep7 m c main_arg5 (by decide)).trans ((keep6 m c main_arg5 (by decide)).trans ((keep5 m c main_arg5 (by decide)).trans ((W4_of_ne m c main_arg5 (by decide)).trans ((keep3 m c main_arg5 (by decide)).trans ((W2_in m c 3 rfl).trans (keep1 m c main_arg5 (by decide))))))))))))))).trans rfl
theorem W14_arg6 : W14 m c (Proc.devRef .tc main_arg6) = m ((c.tc : Thread nD τ).loc main_arg6) :=
  ((W14_of_ne m c main_arg6 (by decide)).trans ((keep13 m c main_arg6 (by decide)).trans ((keep12 m c main_arg6 (by decide)).trans ((keep11 m c main_arg6 (by decide)).trans ((W10_of_ne m c main_arg6 (by decide)).trans ((keep9 m c main_arg6 (by decide)).trans ((keep8 m c main_arg6 (by decide)).trans ((keep7 m c main_arg6 (by decide)).trans ((keep6 m c main_arg6 (by decide)).trans ((keep5 m c main_arg6 (by decide)).trans ((W4_of_ne m c main_arg6 (by decide)).trans ((keep3 m c main_arg6 (by decide)).trans ((W2_of_ne m c main_arg6 (by decide)).trans (keep1 m c main_arg6 (by decide))))))))))))))).trans rfl
theorem W14_arg7 : W14 m c (Proc.devRef .tc main_arg7) = m ((c.tc : Thread nD τ).loc main_arg7) :=
  ((W14_of_ne m c main_arg7 (by decide)).trans ((keep13 m c main_arg7 (by decide)).trans ((keep12 m c main_arg7 (by decide)).trans ((keep11 m c main_arg7 (by decide)).trans ((W10_of_ne m c main_arg7 (by decide)).trans ((keep9 m c main_arg7 (by decide)).trans ((keep8 m c main_arg7 (by decide)).trans ((keep7 m c main_arg7 (by decide)).trans ((keep6 m c main_arg7 (by decide)).trans ((keep5 m c main_arg7 (by decide)).trans ((W4_in m c 1 rfl).trans ((keep3 m c main_arg7 (by decide)).trans ((W2_of_ne m c main_arg7 (by decide)).trans (keep1 m c main_arg7 (by decide))))))))))))))).trans rfl
theorem W14_arg8 : W14 m c (Proc.devRef .tc main_arg8) = m ((c.tc : Thread nD τ).loc main_arg8) :=
  ((W14_of_ne m c main_arg8 (by decide)).trans ((keep13 m c main_arg8 (by decide)).trans ((keep12 m c main_arg8 (by decide)).trans ((keep11 m c main_arg8 (by decide)).trans ((W10_of_ne m c main_arg8 (by decide)).trans ((keep9 m c main_arg8 (by decide)).trans ((keep8 m c main_arg8 (by decide)).trans ((keep7 m c main_arg8 (by decide)).trans ((keep6 m c main_arg8 (by decide)).trans ((keep5 m c main_arg8 (by decide)).trans ((W4_of_ne m c main_arg8 (by decide)).trans ((keep3 m c main_arg8 (by decide)).trans ((W2_of_ne m c main_arg8 (by decide)).trans (keep1 m c main_arg8 (by decide))))))))))))))).trans rfl
theorem W14_arg9 : W14 m c (Proc.devRef .tc main_arg9) = m ((c.tc : Thread nD τ).loc main_arg9) :=
  ((W14_of_ne m c main_arg9 (by decide)).trans ((keep13 m c main_arg9 (by decide)).trans ((keep12 m c main_arg9 (by decide)).trans ((keep11 m c main_arg9 (by decide)).trans ((W10_in m c 1 rfl).trans ((keep9 m c main_arg9 (by decide)).trans ((keep8 m c main_arg9 (by decide)).trans ((keep7 m c main_arg9 (by decide)).trans ((keep6 m c main_arg9 (by decide)).trans ((keep5 m c main_arg9 (by decide)).trans ((W4_of_ne m c main_arg9 (by decide)).trans ((keep3 m c main_arg9 (by decide)).trans ((W2_of_ne m c main_arg9 (by decide)).trans (keep1 m c main_arg9 (by decide))))))))))))))).trans rfl
theorem W14_arg10 : W14 m c (Proc.devRef .tc main_arg10) = m ((c.tc : Thread nD τ).loc main_arg10) :=
  ((W14_of_ne m c main_arg10 (by decide)).trans ((keep13 m c main_arg10 (by decide)).trans ((keep12 m c main_arg10 (by decide)).trans ((keep11 m c main_arg10 (by decide)).trans ((W10_of_ne m c main_arg10 (by decide)).trans ((keep9 m c main_arg10 (by decide)).trans ((keep8 m c main_arg10 (by decide)).trans ((keep7 m c main_arg10 (by decide)).trans ((keep6 m c main_arg10 (by decide)).trans ((keep5 m c main_arg10 (by decide)).trans ((W4_of_ne m c main_arg10 (by decide)).trans ((keep3 m c main_arg10 (by decide)).trans ((W2_of_ne m c main_arg10 (by decide)).trans (keep1 m c main_arg10 (by decide))))))))))))))).trans rfl
theorem W14_arg11 : W14 m c (Proc.devRef .tc main_arg11) = m ((c.tc : Thread nD τ).loc main_arg11) :=
  ((W14_in m c 1 rfl).trans ((keep13 m c main_arg11 (by decide)).trans ((keep12 m c main_arg11 (by decide)).trans ((keep11 m c main_arg11 (by decide)).trans ((W10_of_ne m c main_arg11 (by decide)).trans ((keep9 m c main_arg11 (by decide)).trans ((keep8 m c main_arg11 (by decide)).trans ((keep7 m c main_arg11 (by decide)).trans ((keep6 m c main_arg11 (by decide)).trans ((keep5 m c main_arg11 (by decide)).trans ((W4_of_ne m c main_arg11 (by decide)).trans ((keep3 m c main_arg11 (by decide)).trans ((W2_of_ne m c main_arg11 (by decide)).trans (keep1 m c main_arg11 (by decide))))))))))))))).trans rfl
theorem W14_arg12 : W14 m c (Proc.devRef .tc main_arg12) = m ((c.tc : Thread nD τ).loc main_arg12) :=
  ((W14_of_ne m c main_arg12 (by decide)).trans ((keep13 m c main_arg12 (by decide)).trans ((keep12 m c main_arg12 (by decide)).trans ((keep11 m c main_arg12 (by decide)).trans ((W10_of_ne m c main_arg12 (by decide)).trans ((keep9 m c main_arg12 (by decide)).trans ((keep8 m c main_arg12 (by decide)).trans ((keep7 m c main_arg12 (by decide)).trans ((keep6 m c main_arg12 (by decide)).trans ((keep5 m c main_arg12 (by decide)).trans ((W4_of_ne m c main_arg12 (by decide)).trans ((keep3 m c main_arg12 (by decide)).trans ((W2_of_ne m c main_arg12 (by decide)).trans (keep1 m c main_arg12 (by decide))))))))))))))).trans rfl

/-- THE FRAME: every weakly fair execution of @main terminates, nothing faulting, and every argument array ends holding
    what it held at launch. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W14_arg0 m c),
      (h c _ (mem_uc main_arg1 (by decide))).trans (W14_arg1 m c),
      (h c _ (mem_uc main_arg2 (by decide))).trans (W14_arg2 m c),
      (h c _ (mem_uc main_arg3 (by decide))).trans (W14_arg3 m c),
      (h c _ (mem_uc main_arg4 (by decide))).trans (W14_arg4 m c),
      (h c _ (mem_uc main_arg5 (by decide))).trans (W14_arg5 m c),
      (h c _ (mem_uc main_arg6 (by decide))).trans (W14_arg6 m c),
      (h c _ (mem_uc main_arg7 (by decide))).trans (W14_arg7 m c),
      (h c _ (mem_uc main_arg8 (by decide))).trans (W14_arg8 m c),
      (h c _ (mem_uc main_arg9 (by decide))).trans (W14_arg9 m c),
      (h c _ (mem_uc main_arg10 (by decide))).trans (W14_arg10 m c),
      (h c _ (mem_uc main_arg11 (by decide))).trans (W14_arg11 m c),
      (h c _ (mem_uc main_arg12 (by decide))).trans (W14_arg12 m c)⟩)
    (run_all m ρ)

/-- The same run, with the result array named: it ends at the last boundary's contents. -/
theorem run_out (ρ : Dev nD → PrngReg) : θ_run defs (onTc (τ := τ) (main (F := F))) ⟨m, fun _ => 0, ρ⟩ (fun r => ∀ c : Dev nD,
      r.2.mem ((c.tc : Thread nD τ).loc main_v108) = W14 m c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨h c _ (mem_uc main_v108 (by decide)),
      (h c _ (mem_uc main_arg0 (by decide))).trans (W14_arg0 m c),
      (h c _ (mem_uc main_arg1 (by decide))).trans (W14_arg1 m c),
      (h c _ (mem_uc main_arg2 (by decide))).trans (W14_arg2 m c),
      (h c _ (mem_uc main_arg3 (by decide))).trans (W14_arg3 m c),
      (h c _ (mem_uc main_arg4 (by decide))).trans (W14_arg4 m c),
      (h c _ (mem_uc main_arg5 (by decide))).trans (W14_arg5 m c),
      (h c _ (mem_uc main_arg6 (by decide))).trans (W14_arg6 m c),
      (h c _ (mem_uc main_arg7 (by decide))).trans (W14_arg7 m c),
      (h c _ (mem_uc main_arg8 (by decide))).trans (W14_arg8 m c),
      (h c _ (mem_uc main_arg9 (by decide))).trans (W14_arg9 m c),
      (h c _ (mem_uc main_arg10 (by decide))).trans (W14_arg10 m c),
      (h c _ (mem_uc main_arg11 (by decide))).trans (W14_arg11 m c),
      (h c _ (mem_uc main_arg12 (by decide))).trans (W14_arg12 m c)⟩)
    (run_all m ρ)

end Cert.KernelIdeal.Hand

end
-- ==== Proof.KIHost.lean ====
/-
  What the host stretches of @main compute, read off the fold of buffer contents.

  Between the kernel regions the program runs plain tensor operations: it slices the edge list, reshapes the edge
  attributes to the edge kernel's [12500, 128] layout and its result back to one weight per edge, and, after each of the
  first two projections, aggregates over the graph. Each stretch's result buffers are read here as pure terms of the
  buffers the stretch starts from; a buffer no stretch writes is carried along unchanged.
-/
import proofs.«130928_j46574625358117_1_alg».proof.Proof.KIKeep

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The source node of every edge: row 0 of the edge list. -/
def srcOf (ei : (⟨S2x1600000, .i32⟩ : BufTy).Contents (Elt F)) : (⟨S1600000, .i32⟩ : BufTy).Contents (Elt F) :=
  (shapeCast _ (extractStridedSlice S1x1600000 ![0, 0] ei slices_S2x1600000_S1x1600000_0_0) shapeCasts_S1x1600000_S1600000)
/-- The target node of every edge: row 1 of the edge list. -/
def dstOf (ei : (⟨S2x1600000, .i32⟩ : BufTy).Contents (Elt F)) : (⟨S1600000, .i32⟩ : BufTy).Contents (Elt F) :=
  (shapeCast _ (extractStridedSlice S1x1600000 ![1, 0] ei slices_S2x1600000_S1x1600000_1_0) shapeCasts_S1x1600000_S1600000)

/-- One graph convolution's aggregation as the host computes it from the projected features `hlin`, the edges' sources
    `v1` and targets `v3`, the edge weights `ew` and the bias `b`: a self-loop of weight one is appended per node; the
    weighted in-degree is the scatter-add of the weights at the targets; its inverse square root (zero where the degree is
    not positive) at source and target scales each edge's weight; each node adds up the scaled source rows of the edges
    that point at it; the bias is added. -/
def convHost (hlin : (⟨S100000x64, .f32⟩ : BufTy).Contents (Elt F)) (v1 v3 : (⟨S1600000, .i32⟩ : BufTy).Contents (Elt F)) (ew : (⟨S1600000, .f32⟩ : BufTy).Contents (Elt F))
    (b : (⟨S64, .f32⟩ : BufTy).Contents (Elt F)) : (⟨S100000x64, .f32⟩ : BufTy).Contents (Elt F) :=
  (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (mulf (broadcastInDim S1700000x64 ![0, 1] bcast_S1700000x1_S1700000x64_0_1 (broadcastInDim S1700000x1 ![0] bcast_S1700000_S1700000x1_0 (mulf (mulf (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x0DA24260#32)))) ((broadcastInDim S100000 ![] bcast_S_S100000) (id (constant S_ .f32 0x00000000#32)))) (broadcastInDim S1700000x1 ![0] bcast_S1700000_S1700000x1_0 (select (cmpi .slt (concatenate S1700000 0 [⟨S1600000, v1⟩, ⟨S100000, (iotaInDim S100000 32 0)⟩] concatenates_S1600000_S100000_S1700000_d0) (broadcastInDim S1700000 ![] bcast_S_S1700000 (constantI S_ 32 0#32))) (addi (concatenate S1700000 0 [⟨S1600000, v1⟩, ⟨S100000, (iotaInDim S100000 32 0)⟩] concatenates_S1600000_S100000_S1700000_d0) (broadcastInDim S1700000 ![] bcast_S_S1700000 (constantI S_ 32 100000#32))) (concatenate S1700000 0 [⟨S1600000, v1⟩, ⟨S100000, (iotaInDim S100000 32 0)⟩] concatenates_S1600000_S100000_S1700000_d0)))) (concatenate S1700000 0 [⟨S1600000, ew⟩, ⟨S100000, (broadcastInDim S100000 ![] bcast_S_S100000 (constant S_ .f32 0x3F800000#32))⟩] concatenates_S1600000_S100000_S1700000_d0)) (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x0DA24260#32)))) ((broadcastInDim S100000 ![] bcast_S_S100000) (id (constant S_ .f32 0x00000000#32)))) (broadcastInDim S1700000x1 ![0] bcast_S1700000_S1700000x1_0 (select (cmpi .slt (concatenate S1700000 0 [⟨S1600000, v3⟩, ⟨S100000, (iotaInDim S100000 32 0)⟩] concatenates_S1600000_S100000_S1700000_d0) (broadcastInDim S1700000 ![] bcast_S_S1700000 (constantI S_ 32 0#32))) (addi (concatenate S1700000 0 [⟨S1600000, v3⟩, ⟨S100000, (iotaInDim S100000 32 0)⟩] concatenates_S1600000_S100000_S1700000_d0) (broadcastInDim S1700000 ![] bcast_S_S1700000 (constantI S_ 32 100000#32))) (concatenate S1700000 0 [⟨S1600000, v3⟩, ⟨S100000, (iotaInDim S100000 32 0)⟩] concatenates_S1600000_S100000_S1700000_d0))))))) (Host.gather gather_S100000x64_S1700000x1_S1700000x64_1_0_n_n_0_1_164 hlin (broadcastInDim S1700000x1 ![0] bcast_S1700000_S1700000x1_0 (select (cmpi .slt (concatenate S1700000 0 [⟨S1600000, v1⟩, ⟨S100000, (iotaInDim S100000 32 0)⟩] concatenates_S1600000_S100000_S1700000_d0) (broadcastInDim S1700000 ![] bcast_S_S1700000 (constantI S_ 32 0#32))) (addi (concatenate S1700000 0 [⟨S1600000, v1⟩, ⟨S100000, (iotaInDim S100000 32 0)⟩] concatenates_S1600000_S100000_S1700000_d0) (broadcastInDim S1700000 ![] bcast_S_S1700000 (constantI S_ 32 100000#32))) (concatenate S1700000 0 [⟨S1600000, v1⟩, ⟨S100000, (iotaInDim S100000 32 0)⟩] concatenates_S1600000_S100000_S1700000_d0)))))) (broadcastInDim S100000x64 ![0, 1] bcast_S1x64_S100000x64_0_1 (broadcastInDim S1x64 ![1] bcast_S64_S1x64_1 b)))

/-- The rectifier: the maximum with zero. -/
def reluHost (x : (⟨S100000x64, .f32⟩ : BufTy).Contents (Elt F)) : (⟨S100000x64, .f32⟩ : BufTy).Contents (Elt F) :=
  (maximumf x ((broadcastInDim S100000x64 ![] bcast_S_S100000x64) (constant S_ .f32 0x00000000#32)))

variable (m : (ℓ : Loc nD τ sig) → Buf (Elt F) ℓ) (c : Dev nD)

/-! ## The stretches' results -/

set_option maxHeartbeats 1000000 in
theorem W1_v1 : W1 m c (Proc.devRef .tc main_v1) = srcOf (m ((c.tc : Thread nD τ).loc main_arg1)) := by
  unfold srcOf; after_results; rfl
set_option maxHeartbeats 1000000 in
theorem W1_v3 : W1 m c (Proc.devRef .tc main_v3) = dstOf (m ((c.tc : Thread nD τ).loc main_arg1)) := by
  unfold dstOf; after_results; rfl
theorem W1_v4 : W1 m c (Proc.devRef .tc main_v4) = shapeCast _ (m ((c.tc : Thread nD τ).loc main_arg2)) shapeCasts_S1600000x1_S12500x128 := by
  after_results <;> rfl
theorem W1_v5 : W1 m c (Proc.devRef .tc main_v5) = shapeCast _ (m ((c.tc : Thread nD τ).loc main_arg4)) shapeCasts_S16_S1x16 := by
  after_results <;> rfl
theorem W1_v6 : W1 m c (Proc.devRef .tc main_v6) = shapeCast _ (m ((c.tc : Thread nD τ).loc main_arg6)) shapeCasts_S1_S1x1 := by
  after_results <;> rfl
theorem W3_v8 : W3 m c (Proc.devRef .tc main_v8) = shapeCast _ (W2 m c (Proc.devRef .tc main_v7)) shapeCasts_S12500x128_S1600000 := by
  after_results <;> rfl
theorem W3_v9 : W3 m c (Proc.devRef .tc main_v9) = broadcastInDim S64 ![] bcast_S_S64 (constant (F := F) S_ .f32 0x00000000#32) := by
  after_results <;> rfl
theorem W3_v10 : W3 m c (Proc.devRef .tc main_v10)
    = shapeCast _ (broadcastInDim S64 ![] bcast_S_S64 (constant (F := F) S_ .f32 0x00000000#32)) shapeCasts_S64_S1x64 := by
  after_results <;> rfl
set_option maxHeartbeats 4000000 in
theorem W8_v58 : W8 m c (Proc.devRef .tc main_v58)
    = reluHost (convHost (W4 m c (Proc.devRef .tc main_v11)) (W4 m c (Proc.devRef .tc main_v1)) (W4 m c (Proc.devRef .tc main_v3))
        (W4 m c (Proc.devRef .tc main_v8)) (W4 m c (Proc.devRef .tc main_arg8))) := by
  unfold reluHost convHost; after_results_simp <;> rfl
theorem W9_v59 : W9 m c (Proc.devRef .tc main_v59) = shapeCast _ (W8 m c (Proc.devRef .tc main_v9)) shapeCasts_S64_S1x64 := by
  after_results <;> rfl
set_option maxHeartbeats 4000000 in
theorem W13_v106 : W13 m c (Proc.devRef .tc main_v106)
    = convHost (W10 m c (Proc.devRef .tc main_v60)) (W10 m c (Proc.devRef .tc main_v1)) (W10 m c (Proc.devRef .tc main_v3))
        (W10 m c (Proc.devRef .tc main_v8)) (W10 m c (Proc.devRef .tc main_arg10)) := by
  unfold convHost; after_results_simp <;> rfl
set_option maxHeartbeats 4000000 in
theorem W13_v107 : W13 m c (Proc.devRef .tc main_v107) = shapeCast _ (W12 m c (Proc.devRef .tc main_arg12)) shapeCasts_S32_S1x32 := by
  after_results_simp <;> rfl

end Cert.KernelIdeal.Hand

end
-- ==== Proof.LinSpec.lean ====
import Idealize.ShloMosaic.PureOps.Ideal
import Idealize.ShloMosaic.Lib.ValueIdx

/-! # The linear layer as one function of its three arrays

`y[r, q] = (∑ k < 64, x[r, k] · w[k, q]) + b[0, q]` on 100000 rows of 64 input features, for any number `m` of
output features (64 in the first two layers, 32 in the last). The value type is the extended reals. -/

noncomputable section

namespace Cert.LinSpec

open Idealize.ShloMosaic Idealize.ShloMosaic.ValueIdx
open scoped BigOperators

/-- The layer's output at row `r` and column `q`. -/
def linAt {m : Nat} (x : (⟨2, ![100000, 64]⟩ : Shape).Idx → EReal) (w : (⟨2, ![64, m]⟩ : Shape).Idx → EReal)
    (b : (⟨2, ![1, m]⟩ : Shape).Idx → EReal) (r : Fin 100000) (q : Fin m) : EReal :=
  (∑ k : Fin 64, x (ix2 r k) * w (ix2 k q)) + b (ix2 (0 : Fin 1) q)

/-- The layer's output array: row `i 0`, column `i 1`. -/
def linOut {m : Nat} (x : (⟨2, ![100000, 64]⟩ : Shape).Idx → EReal) (w : (⟨2, ![64, m]⟩ : Shape).Idx → EReal)
    (b : (⟨2, ![1, m]⟩ : Shape).Idx → EReal) : (⟨2, ![100000, m]⟩ : Shape).Idx → EReal :=
  fun i => linAt x w b (i 0) (i 1)

theorem linOut_apply {m : Nat} (x : (⟨2, ![100000, 64]⟩ : Shape).Idx → EReal) (w : (⟨2, ![64, m]⟩ : Shape).Idx → EReal)
    (b : (⟨2, ![1, m]⟩ : Shape).Idx → EReal) (r : Fin 100000) (q : Fin m) :
    linOut x w b (ix2 r q) = (∑ k : Fin 64, x (ix2 r k) * w (ix2 k q)) + b (ix2 (0 : Fin 1) q) := rfl

end Cert.LinSpec

end
-- ==== Proof.KILin1Val.lean ====
import proofs.«130928_j46574625358117_1_alg».proof.Proof.KILin1
import proofs.«130928_j46574625358117_1_alg».proof.Proof.LinSpec
import Idealize.ShloMosaic.Lib.Pipeline.Value
import Idealize.ShloMosaic.Lib.ValueIdx
import Idealize.ShloMosaic.PureOps.Ideal.Laws

/-! # The value of the linear layer of pipeline 1, at the extended reals

The output array after the region is ONE function of the region-entry arrays: row `r`, column `q` holds
`(∑ k < 64, x[r, k] · w[k, q]) + b[0, q]`. The block product into a zero accumulator is that sum over the
contracted axis, the narrowing casts are the identity, the bias row is broadcast down the rows; grid point `t`
writes rows `2000 t … 2000 t + 1999`, so row `r` is written by point `r / 2000`, and the fifty blocks tile the array. -/

set_option maxRecDepth 16384

noncomputable section

namespace Cert.KernelIdeal.Hand

open Cert.KernelIdeal Cert.KernelIdeal.Gen Cert.LinSpec
open Idealize.ShloMosaic Idealize.ShloMosaic.TcCoe Idealize.SL.Sem
open Idealize.ShloMosaic.ValueIdx
open Idealize.ShloMosaic.Pipeline (Dat)
open scoped BigOperators

/-! ## The payload at an index -/

theorem hz1 : (![0, 0] : Fin 2 → Nat) = fun _ => 0 := funext fun a => by fin_cases a <;> rfl

/-- The product's left operand index at output `i` and contraction index `q`: row `i 0`, -/
theorem lhs1_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- column the contraction index; -/
theorem lhs1_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand's: row the contraction index, -/
theorem rhs1_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- column `i 1`. -/
theorem rhs1_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's payload at row `p`, column `q` of the block: the row of the `x` block against the column of
    `W`, plus the bias at that column. -/
theorem pay1_apply (v0 : Vec Ideal S2000x64 .f32) (v2 : Vec Ideal S64x64 .f32) (v5 : Vec Ideal S1x64 .f32) (p : Fin 2000) (q : Fin 64) :
    k1_pay1 (F := Ideal) v0 v2 v5 (ix2 p q) = (∑ k : Fin 64, v0 (ix2 p k) * v2 (ix2 k q)) + v5 (ix2 (0 : Fin 1) q) := by
  unfold k1_pay1
  refine (addf_apply _ _ _).trans ?_
  refine congrArg₂ (· + ·) ?_ ?_
  · refine (Ideal.matmul_constant_zero_apply dot_S2000x64_S64x64_S2000x64_1_0_0_1_n_n none _ _ (ix2 p q)).trans ?_
    refine (Equiv.sum_comp (contrEquiv1 dot_S2000x64_S64x64_S2000x64_1_0_0_1_n_n 64 rfl rfl).symm _).symm.trans ?_
    refine Finset.sum_congr rfl fun k _ => ?_
    have hk := contrEquiv1_symm_val dot_S2000x64_S64x64_S2000x64_1_0_0_1_n_n 64 rfl rfl k
    have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
      match a with
      | ⟨0, _⟩ => exact lhs1_0 _ _
      | ⟨1, _⟩ => exact (lhs1_1 _ _).trans hk)
    have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
      match a with
      | ⟨0, _⟩ => exact (rhs1_0 _ _).trans hk
      | ⟨1, _⟩ => exact rhs1_1 _ _)
    show v0 _ * v2 _ = _
    rw [el, er]
  · rw [shapeCast_self]
    exact broadcastTo_apply v5 _ (ix2 p q) (ix2 (0 : Fin 1) q) (fun a => by
      match a with
      | ⟨0, _⟩ => rfl
      | ⟨1, _⟩ => rfl)

/-! ## From blocks to the array -/

variable (V : (c : Dev nD) → (b : Ref sig .tc) → Buf (Elt Ideal) ((c : Thread nD τ).loc b))

/-- The printed index maps, decided over the grid: the `x` and output windows are on row block `t`, the
    weights and the bias on their one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N1 (t : Fin cfg1.N) : t.val < 50 := lt_of_lt_of_eq t.isLt N_1

/-- The `x` window's block at point `t` is rows `2000 t …` of its array. -/
theorem iblk1_0_apply (c : Dev nD) (t : Fin cfg1.N) (p : Fin 2000) (k : Fin 64) (r : Fin 100000) (hr : r.val = 2000 * t.val + p.val) :
    (iblk1 V c 0 t : Vec Ideal S2000x64 .f32) (ix2 p k) = (V c main_arg0 : S100000x64.Idx → EReal) (ix2 r k) := by
  obtain ⟨e0, e1, -⟩ := idx_facts1 t
  unfold iblk1
  rw [View.read_apply]
  show V c main_arg0 _ = V c main_arg0 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- The weights' block at any point is the whole array. -/
theorem iblk1_1_apply (c : Dev nD) (t : Fin cfg1.N) (k : Fin 64) (q : Fin 64) :
    (iblk1 V c 1 t : Vec Ideal S64x64 .f32) (ix2 k q) = (V c main_arg7 : S64x64.Idx → EReal) (ix2 k q) := by
  obtain ⟨-, -, e2, e3, -⟩ := idx_facts1 t
  unfold iblk1
  rw [View.read_apply]
  show V c main_arg7 _ = V c main_arg7 _
  congr 1
  funext a
  apply Fin.ext
  match a with
  | ⟨0, _⟩ => show win1_1.index t (0 : Fin 2) * 64 + 1 * k.val = k.val; rw [e2]; omega
  | ⟨1, _⟩ => show win1_1.index t (1 : Fin 2) * 64 + 1 * q.val = q.val; rw [e3]; omega

/-- So is the bias row's. -/
theorem iblk1_2_apply (c : Dev nD) (t : Fin cfg1.N) (z : Fin 1) (q : Fin 64) :
    (iblk1 V c 2 t : Vec Ideal S1x64 .f32) (ix2 z q) = (V c main_v10 : S1x64.Idx → EReal) (ix2 z q) := by
  obtain ⟨-, -, -, -, e4, e5, -⟩ := idx_facts1 t
  unfold iblk1
  rw [View.read_apply]
  show V c main_v10 _ = V c main_v10 _
  congr 1
  funext a
  apply Fin.ext
  match a with
  | ⟨0, _⟩ => show win1_2.index t (0 : Fin 2) * 1 + 1 * z.val = z.val; rw [e4]; omega
  | ⟨1, _⟩ => show win1_2.index t (1 : Fin 2) * 64 + 1 * q.val = q.val; rw [e5]; omega

/-- WHAT POINT `t` WRITES BACK is block `t` of the layer's output of the region-entry arrays. -/
theorem flushed1_eq (c : Dev nD) (t : Fin cfg1.N) :
    (dat1 V c).flushed 3 t = ((cfg1.win 3).blk t).view.read (Elt Ideal)
      (linOut (V c main_arg0 : S100000x64.Idx → EReal) (V c main_arg7 : S64x64.Idx → EReal) (V c main_v10 : S1x64.Idx → EReal)) := by
  show (cfg1.win 3).cut (grid1.coords t) ((dat1 V c).after 3 t) = _
  rw [after1_3]
  unfold out1_3
  rw [View.canon_unit_zero hz1]
  simp only [View.ld_unit_zero (S := S2000x64) hz1, View.ld_unit_zero (S := S64x64) hz1, View.ld_unit_zero (S := S1x64) hz1]
  obtain ⟨-, -, -, -, -, -, e6, e7⟩ := idx_facts1 t
  have ht := lt_N1 t
  funext j
  obtain ⟨p, q, rfl⟩ : ∃ (p : Fin 2000) (q : Fin 64), j = ix2 p q := ⟨j 0, j 1, eq_ix2 j⟩
  have hemb : ((cfg1.win 3).blk t).view.emb (ix2 p q) = (ix2 (⟨2000 * t.val + p.val, by have := p.isLt; omega⟩ : Fin 100000) q : S100000x64.Idx) := by
    funext a
    apply Fin.ext
    match a with
    | ⟨0, _⟩ => show win1_3.index t (0 : Fin 2) * 2000 + 1 * p.val = 2000 * t.val + p.val; rw [e6]; omega
    | ⟨1, _⟩ => show win1_3.index t (1 : Fin 2) * 64 + 1 * q.val = q.val; rw [e7]; omega
  refine (pay1_apply _ _ _ p q).trans ?_
  rw [View.read_apply]
  show _ = linOut _ _ _ (((cfg1.win 3).blk t).view.emb (ix2 p q))
  rw [hemb, linOut_apply]
  exact congrArg₂ (· + ·)
    (Finset.sum_congr rfl fun k _ => congrArg₂ (· * ·) (iblk1_0_apply V c t p k _ rfl) (iblk1_1_apply V c t k q))
    (iblk1_2_apply V c t 0 q)

/-- An index of the array is in point `t`'s block iff each coordinate is in the block's range on its axis. -/
theorem mem_blk1 (t : Fin cfg1.N) (i : S100000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v11).slice (win1_3.rect t)).set ↔ _
  rw [View.set_slice_whole, Rect.mem_set_unit]
  exact Iff.rfl

/-- Row `r` is in the block of point `r / 2000`: the fifty blocks cover the array. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  let t : Fin cfg1.N := ⟨(i 0).val / 2000, by rw [show cfg1.N = 50 from N_1]; omega⟩
  obtain ⟨-, -, -, -, -, -, e6, e7⟩ := idx_facts1 t
  have htv : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; rw [e6, htv]; omega
  | ⟨1, _⟩ => show win1_3.index t (1 : Fin 2) * 64 ≤ (i 1).val ∧ (i 1).val < win1_3.index t (1 : Fin 2) * 64 + 64; rw [e7]; omega

/-- THE ARRAY after the region: the layer's output of the region-entry arrays. -/
theorem final1 (c : Dev nD) : (dat1 (F := Ideal) V c).arrAt 3 cfg1.N
    = linOut (V c main_arg0 : S100000x64.Idx → EReal) (V c main_arg7 : S64x64.Idx → EReal) (V c main_v10 : S1x64.Idx → EReal) :=
  (dat1 V c).arrAt_eq_of_cover 3 _ (fun t _ => flushed1_eq V c t) (cover1)

end Cert.KernelIdeal.Hand

end
-- ==== Proof.KILin2Val.lean ====
import proofs.«130928_j46574625358117_1_alg».proof.Proof.KILin2
import proofs.«130928_j46574625358117_1_alg».proof.Proof.LinSpec
import Idealize.ShloMosaic.Lib.Pipeline.Value
import Idealize.ShloMosaic.Lib.ValueIdx
import Idealize.ShloMosaic.PureOps.Ideal.Laws

/-! # The value of the linear layer of pipeline 2, at the extended reals

The output array after the region is ONE function of the region-entry arrays: row `r`, column `q` holds
`(∑ k < 64, x[r, k] · w[k, q]) + b[0, q]`. The block product into a zero accumulator is that sum over the
contracted axis, the narrowing casts are the identity, the bias row is broadcast down the rows; grid point `t`
writes rows `2000 t … 2000 t + 1999`, so row `r` is written by point `r / 2000`, and the fifty blocks tile the array. -/

set_option maxRecDepth 16384

noncomputable section

namespace Cert.KernelIdeal.Hand

open Cert.KernelIdeal Cert.KernelIdeal.Gen Cert.LinSpec
open Idealize.ShloMosaic Idealize.ShloMosaic.TcCoe Idealize.SL.Sem
open Idealize.ShloMosaic.ValueIdx
open Idealize.ShloMosaic.Pipeline (Dat)
open scoped BigOperators

/-! ## The payload at an index -/

theorem hz2 : (![0, 0] : Fin 2 → Nat) = fun _ => 0 := funext fun a => by fin_cases a <;> rfl

/-- The product's left operand index at output `i` and contraction index `q`: row `i 0`, -/
theorem lhs2_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- column the contraction index; -/
theorem lhs2_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand's: row the contraction index, -/
theorem rhs2_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- column `i 1`. -/
theorem rhs2_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The body's payload at row `p`, column `q` of the block: the row of the `x` block against the column of
    `W`, plus the bias at that column. -/
theorem pay2_apply (v0 : Vec Ideal S2000x64 .f32) (v2 : Vec Ideal S64x64 .f32) (v5 : Vec Ideal S1x64 .f32) (p : Fin 2000) (q : Fin 64) :
    k2_pay1 (F := Ideal) v0 v2 v5 (ix2 p q) = (∑ k : Fin 64, v0 (ix2 p k) * v2 (ix2 k q)) + v5 (ix2 (0 : Fin 1) q) := by
  unfold k2_pay1
  refine (addf_apply _ _ _).trans ?_
  refine congrArg₂ (· + ·) ?_ ?_
  · rw [shapeCast_self]
    refine (Ideal.matmul_constant_zero_apply dot_S2000x64_S64x64_S2000x64_1_0_0_1_n_n none _ _ (ix2 p q)).trans ?_
    refine (Equiv.sum_comp (contrEquiv1 dot_S2000x64_S64x64_S2000x64_1_0_0_1_n_n 64 rfl rfl).symm _).symm.trans ?_
    refine Finset.sum_congr rfl fun k _ => ?_
    have hk := contrEquiv1_symm_val dot_S2000x64_S64x64_S2000x64_1_0_0_1_n_n 64 rfl rfl k
    have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
      match a with
      | ⟨0, _⟩ => exact lhs2_0 _ _
      | ⟨1, _⟩ => exact (lhs2_1 _ _).trans hk)
    have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
      match a with
      | ⟨0, _⟩ => exact (rhs2_0 _ _).trans hk
      | ⟨1, _⟩ => exact rhs2_1 _ _)
    show v0 _ * v2 _ = _
    rw [el, er]
  · rw [shapeCast_self]
    exact broadcastTo_apply v5 _ (ix2 p q) (ix2 (0 : Fin 1) q) (fun a => by
      match a with
      | ⟨0, _⟩ => rfl
      | ⟨1, _⟩ => rfl)

/-! ## From blocks to the array -/

variable (V : (c : Dev nD) → (b : Ref sig .tc) → Buf (Elt Ideal) ((c : Thread nD τ).loc b))

/-- The printed index maps, decided over the grid: the `x` and output windows are on row block `t`, the
    weights and the bias on their one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N2 (t : Fin cfg2.N) : t.val < 50 := lt_of_lt_of_eq t.isLt N_2

/-- The `x` window's block at point `t` is rows `2000 t …` of its array. -/
theorem iblk2_0_apply (c : Dev nD) (t : Fin cfg2.N) (p : Fin 2000) (k : Fin 64) (r : Fin 100000) (hr : r.val = 2000 * t.val + p.val) :
    (iblk2 V c 0 t : Vec Ideal S2000x64 .f32) (ix2 p k) = (V c main_v58 : S100000x64.Idx → EReal) (ix2 r k) := by
  obtain ⟨e0, e1, -⟩ := idx_facts2 t
  unfold iblk2
  rw [View.read_apply]
  show V c main_v58 _ = V c main_v58 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

/-- The weights' block at any point is the whole array. -/
theorem iblk2_1_apply (c : Dev nD) (t : Fin cfg2.N) (k : Fin 64) (q : Fin 64) :
    (iblk2 V c 1 t : Vec Ideal S64x64 .f32) (ix2 k q) = (V c main_arg9 : S64x64.Idx → EReal) (ix2 k q) := by
  obtain ⟨-, -, e2, e3, -⟩ := idx_facts2 t
  unfold iblk2
  rw [View.read_apply]
  show V c main_arg9 _ = V c main_arg9 _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- So is the bias row's. -/
theorem iblk2_2_apply (c : Dev nD) (t : Fin cfg2.N) (z : Fin 1) (q : Fin 64) :
    (iblk2 V c 2 t : Vec Ideal S1x64 .f32) (ix2 z q) = (V c main_v59 : S1x64.Idx → EReal) (ix2 z q) := by
  obtain ⟨-, -, -, -, e4, e5, -⟩ := idx_facts2 t
  unfold iblk2
  rw [View.read_apply]
  show V c main_v59 _ = V c main_v59 _
  congr 1
  funext a
  apply Fin.ext
  match a with
  | ⟨0, _⟩ => show win2_2.index t (0 : Fin 2) * 1 + 1 * z.val = z.val; rw [e4]; omega
  | ⟨1, _⟩ => show win2_2.index t (1 : Fin 2) * 64 + 1 * q.val = q.val; rw [e5]; omega

/-- WHAT POINT `t` WRITES BACK is block `t` of the layer's output of the region-entry arrays. -/
theorem flushed2_eq (c : Dev nD) (t : Fin cfg2.N) :
    (dat2 V c).flushed 3 t = ((cfg2.win 3).blk t).view.read (Elt Ideal)
      (linOut (V c main_v58 : S100000x64.Idx → EReal) (V c main_arg9 : S64x64.Idx → EReal) (V c main_v59 : S1x64.Idx → EReal)) := by
  show (cfg2.win 3).cut (grid2.coords t) ((dat2 V c).after 3 t) = _
  rw [after2_3]
  unfold out2_3
  rw [View.canon_unit_zero hz2]
  simp only [View.ld_unit_zero (S := S2000x64) hz2, View.ld_unit_zero (S := S64x64) hz2, View.ld_unit_zero (S := S1x64) hz2]
  obtain ⟨-, -, -, -, -, -, e6, e7⟩ := idx_facts2 t
  have ht := lt_N2 t
  funext j
  obtain ⟨p, q, rfl⟩ : ∃ (p : Fin 2000) (q : Fin 64), j = ix2 p q := ⟨j 0, j 1, eq_ix2 j⟩
  have hemb : ((cfg2.win 3).blk t).view.emb (ix2 p q) = (ix2 (⟨2000 * t.val + p.val, by have := p.isLt; omega⟩ : Fin 100000) q : S100000x64.Idx) := by
    funext a
    apply Fin.ext
    match a with
    | ⟨0, _⟩ => show win2_3.index t (0 : Fin 2) * 2000 + 1 * p.val = 2000 * t.val + p.val; rw [e6]; omega
    | ⟨1, _⟩ => show win2_3.index t (1 : Fin 2) * 64 + 1 * q.val = q.val; rw [e7]; omega
  refine (pay2_apply _ _ _ p q).trans ?_
  rw [View.read_apply]
  show _ = linOut _ _ _ (((cfg2.win 3).blk t).view.emb (ix2 p q))
  rw [hemb, linOut_apply]
  exact congrArg₂ (· + ·)
    (Finset.sum_congr rfl fun k _ => congrArg₂ (· * ·) (iblk2_0_apply V c t p k _ rfl) (iblk2_1_apply V c t k q))
    (iblk2_2_apply V c t 0 q)

/-- An index of the array is in point `t`'s block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v60).slice (win2_3.rect t)).set ↔ _
  rw [View.set_slice_whole, Rect.mem_set_unit]
  exact Iff.rfl

/-- Row `r` is in the block of point `r / 2000`: the fifty blocks cover the array. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 2000, by rw [show cfg2.N = 50 from N_2]; omega⟩
  obtain ⟨-, -, -, -, -, -, e6, e7⟩ := idx_facts2 t
  have htv : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; rw [e6, htv]; omega
  | ⟨1, _⟩ => show win2_3.index t (1 : Fin 2) * 64 ≤ (i 1).val ∧ (i 1).val < win2_3.index t (1 : Fin 2) * 64 + 64; rw [e7]; omega

/-- THE ARRAY after the region: the layer's output of the region-entry arrays. -/
theorem final2 (c : Dev nD) : (dat2 (F := Ideal) V c).arrAt 3 cfg2.N
    = linOut (V c main_v58 : S100000x64.Idx → EReal) (V c main_arg9 : S64x64.Idx → EReal) (V c main_v59 : S1x64.Idx → EReal) :=
  (dat2 V c).arrAt_eq_of_cover 3 _ (fun t _ => flushed2_eq V c t) (cover2)

end Cert.KernelIdeal.Hand

end
-- ==== Proof.KILin3Val.lean ====
import proofs.«130928_j46574625358117_1_alg».proof.Proof.KILin3
import proofs.«130928_j46574625358117_1_alg».proof.Proof.LinSpec
import Idealize.ShloMosaic.Lib.Pipeline.Value
import Idealize.ShloMosaic.Lib.ValueIdx
import Idealize.ShloMosaic.PureOps.Ideal.Laws

/-! # The value of the linear layer of pipeline 3, at the extended reals

The output array after the region is ONE function of the region-entry arrays: row `r`, column `q` holds
`(∑ k < 64, x[r, k] · w[k, q]) + b[0, q]`. The block product into a zero accumulator is that sum over the
contracted axis, the narrowing casts are the identity, the bias row is broadcast down the rows; grid point `t`
writes rows `2000 t … 2000 t + 1999`, so row `r` is written by point `r / 2000`, and the fifty blocks tile the array. -/

set_option maxRecDepth 16384

noncomputable section

namespace Cert.KernelIdeal.Hand

open Cert.KernelIdeal Cert.KernelIdeal.Gen Cert.LinSpec
open Idealize.ShloMosaic Idealize.ShloMosaic.TcCoe Idealize.SL.Sem
open Idealize.ShloMosaic.ValueIdx
open Idealize.ShloMosaic.Pipeline (Dat)
open scoped BigOperators

/-! ## The payload at an index -/

theorem hz3 : (![0, 0] : Fin 2 → Nat) = fun _ => 0 := funext fun a => by fin_cases a <;> rfl

/-- The product's left operand index at output `i` and contraction index `q`: row `i 0`, -/
theorem lhs3_0 (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
/-- column the contraction index; -/
theorem lhs3_1 (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
/-- the right operand's: row the contraction index, -/
theorem rhs3_0 (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
/-- column `i 1`. -/
theorem rhs3_1 (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- The body's payload at row `p`, column `q` of the block: the row of the `x` block against the column of
    `W`, plus the bias at that column. -/
theorem pay3_apply (v0 : Vec Ideal S2000x64 .f32) (v2 : Vec Ideal S64x32 .f32) (v5 : Vec Ideal S1x32 .f32) (p : Fin 2000) (q : Fin 32) :
    k3_pay1 (F := Ideal) v0 v2 v5 (ix2 p q) = (∑ k : Fin 64, v0 (ix2 p k) * v2 (ix2 k q)) + v5 (ix2 (0 : Fin 1) q) := by
  unfold k3_pay1
  refine (addf_apply _ _ _).trans ?_
  refine congrArg₂ (· + ·) ?_ ?_
  · rw [shapeCast_self]
    refine (Ideal.matmul_constant_zero_apply dot_S2000x64_S64x32_S2000x32_1_0_0_1_n_n none _ _ (ix2 p q)).trans ?_
    refine (Equiv.sum_comp (contrEquiv1 dot_S2000x64_S64x32_S2000x32_1_0_0_1_n_n 64 rfl rfl).symm _).symm.trans ?_
    refine Finset.sum_congr rfl fun k _ => ?_
    have hk := contrEquiv1_symm_val dot_S2000x64_S64x32_S2000x32_1_0_0_1_n_n 64 rfl rfl k
    have el : dot_S2000x64_S64x32_S2000x32_1_0_0_1_n_n.lhsIdx (ix2 p q) ((contrEquiv1 dot_S2000x64_S64x32_S2000x32_1_0_0_1_n_n 64 rfl rfl).symm k) = ix2 p k := funext fun a => Fin.ext (by
      match a with
      | ⟨0, _⟩ => exact lhs3_0 _ _
      | ⟨1, _⟩ => exact (lhs3_1 _ _).trans hk)
    have er : dot_S2000x64_S64x32_S2000x32_1_0_0_1_n_n.rhsIdx (ix2 p q) ((contrEquiv1 dot_S2000x64_S64x32_S2000x32_1_0_0_1_n_n 64 rfl rfl).symm k) = ix2 k q := funext fun a => Fin.ext (by
      match a with
      | ⟨0, _⟩ => exact (rhs3_0 _ _).trans hk
      | ⟨1, _⟩ => exact rhs3_1 _ _)
    show v0 _ * v2 _ = _
    rw [el, er]
  · rw [shapeCast_self]
    exact broadcastTo_apply v5 _ (ix2 p q) (ix2 (0 : Fin 1) q) (fun a => by
      match a with
      | ⟨0, _⟩ => rfl
      | ⟨1, _⟩ => rfl)

/-! ## From blocks to the array -/

variable (V : (c : Dev nD) → (b : Ref sig .tc) → Buf (Elt Ideal) ((c : Thread nD τ).loc b))

/-- The printed index maps, decided over the grid: the `x` and output windows are on row block `t`, the
    weights and the bias on their one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt_N3 (t : Fin cfg3.N) : t.val < 50 := lt_of_lt_of_eq t.isLt N_3

/-- The `x` window's block at point `t` is rows `2000 t …` of its array. -/
theorem iblk3_0_apply (c : Dev nD) (t : Fin cfg3.N) (p : Fin 2000) (k : Fin 64) (r : Fin 100000) (hr : r.val = 2000 * t.val + p.val) :
    (iblk3 V c 0 t : Vec Ideal S2000x64 .f32) (ix2 p k) = (V c main_v106 : S100000x64.Idx → EReal) (ix2 r k) := by
  obtain ⟨e0, e1, -⟩ := idx_facts3 t
  unfold iblk3
  rw [View.read_apply]
  show V c main_v106 _ = V c main_v106 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 64 + 1 * k.val = k.val; rw [e1]; omega

/-- The weights' block at any point is the whole array. -/
theorem iblk3_1_apply (c : Dev nD) (t : Fin cfg3.N) (k : Fin 64) (q : Fin 32) :
    (iblk3 V c 1 t : Vec Ideal S64x32 .f32) (ix2 k q) = (V c main_arg11 : S64x32.Idx → EReal) (ix2 k q) := by
  obtain ⟨-, -, e2, e3, -⟩ := idx_facts3 t
  unfold iblk3
  rw [View.read_apply]
  show V c main_arg11 _ = V c main_arg11 _
  congr 1
  funext a
  apply Fin.ext
  match a with
  | ⟨0, _⟩ => show win3_1.index t (0 : Fin 2) * 64 + 1 * k.val = k.val; rw [e2]; omega
  | ⟨1, _⟩ => show win3_1.index t (1 : Fin 2) * 32 + 1 * q.val = q.val; rw [e3]; omega

/-- So is the bias row's. -/
theorem iblk3_2_apply (c : Dev nD) (t : Fin cfg3.N) (z : Fin 1) (q : Fin 32) :
    (iblk3 V c 2 t : Vec Ideal S1x32 .f32) (ix2 z q) = (V c main_v107 : S1x32.Idx → EReal) (ix2 z q) := by
  obtain ⟨-, -, -, -, e4, e5, -⟩ := idx_facts3 t
  unfold iblk3
  rw [View.read_apply]
  show V c main_v107 _ = V c main_v107 _
  congr 1
  funext a
  apply Fin.ext
  match a with
  | ⟨0, _⟩ => show win3_2.index t (0 : Fin 2) * 1 + 1 * z.val = z.val; rw [e4]; omega
  | ⟨1, _⟩ => show win3_2.index t (1 : Fin 2) * 32 + 1 * q.val = q.val; rw [e5]; omega

/-- WHAT POINT `t` WRITES BACK is block `t` of the layer's output of the region-entry arrays. -/
theorem flushed3_eq (c : Dev nD) (t : Fin cfg3.N) :
    (dat3 V c).flushed 3 t = ((cfg3.win 3).blk t).view.read (Elt Ideal)
      (linOut (V c main_v106 : S100000x64.Idx → EReal) (V c main_arg11 : S64x32.Idx → EReal) (V c main_v107 : S1x32.Idx → EReal)) := by
  show (cfg3.win 3).cut (grid3.coords t) ((dat3 V c).after 3 t) = _
  rw [after3_3]
  unfold out3_3
  rw [View.canon_unit_zero hz3]
  simp only [View.ld_unit_zero (S := S2000x64) hz3, View.ld_unit_zero (S := S64x32) hz3, View.ld_unit_zero (S := S1x32) hz3]
  obtain ⟨-, -, -, -, -, -, e6, e7⟩ := idx_facts3 t
  have ht := lt_N3 t
  funext j
  obtain ⟨p, q, rfl⟩ : ∃ (p : Fin 2000) (q : Fin 32), j = ix2 p q := ⟨j 0, j 1, eq_ix2 j⟩
  have hemb : ((cfg3.win 3).blk t).view.emb (ix2 p q) = (ix2 (⟨2000 * t.val + p.val, by have := p.isLt; omega⟩ : Fin 100000) q : S100000x32.Idx) := by
    funext a
    apply Fin.ext
    match a with
    | ⟨0, _⟩ => show win3_3.index t (0 : Fin 2) * 2000 + 1 * p.val = 2000 * t.val + p.val; rw [e6]; omega
    | ⟨1, _⟩ => show win3_3.index t (1 : Fin 2) * 32 + 1 * q.val = q.val; rw [e7]; omega
  refine (pay3_apply _ _ _ p q).trans ?_
  rw [View.read_apply]
  show _ = linOut _ _ _ (((cfg3.win 3).blk t).view.emb (ix2 p q))
  rw [hemb, linOut_apply]
  exact congrArg₂ (· + ·)
    (Finset.sum_congr rfl fun k _ => congrArg₂ (· * ·) (iblk3_0_apply V c t p k _ rfl) (iblk3_1_apply V c t k q))
    (iblk3_2_apply V c t 0 q)

/-- An index of the array is in point `t`'s block iff each coordinate is in the block's range on its axis. -/
theorem mem_blk3 (t : Fin cfg3.N) (i : S100000x32.Idx) :
    i ∈ ((cfg3.win 3).blk t).view.set ↔ ∀ a : Fin 2, win3_3.index t a * S2000x32.size a ≤ (i a).val ∧ (i a).val < win3_3.index t a * S2000x32.size a + S2000x32.size a := by
  show i ∈ ((View.whole main_v108).slice (win3_3.rect t)).set ↔ _
  rw [View.set_slice_whole, Rect.mem_set_unit]
  exact Iff.rfl

/-- Row `r` is in the block of point `r / 2000`: the fifty blocks cover the array. -/
theorem cover3 (i : S100000x32.Idx) : ∃ t : Fin cfg3.N, (cfg3.win 3).flush t = true ∧ i ∈ ((cfg3.win 3).blk t).view.set := by
  have hi0 : (i 0).val < 100000 := (i 0).isLt
  have hi1 : (i 1).val < 32 := (i 1).isLt
  let t : Fin cfg3.N := ⟨(i 0).val / 2000, by rw [show cfg3.N = 50 from N_3]; omega⟩
  obtain ⟨-, -, -, -, -, -, e6, e7⟩ := idx_facts3 t
  have htv : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; rw [e6, htv]; omega
  | ⟨1, _⟩ => show win3_3.index t (1 : Fin 2) * 32 ≤ (i 1).val ∧ (i 1).val < win3_3.index t (1 : Fin 2) * 32 + 32; rw [e7]; omega

/-- THE ARRAY after the region: the layer's output of the region-entry arrays. -/
theorem final3 (c : Dev nD) : (dat3 (F := Ideal) V c).arrAt 3 cfg3.N
    = linOut (V c main_v106 : S100000x64.Idx → EReal) (V c main_arg11 : S64x32.Idx → EReal) (V c main_v107 : S1x32.Idx → EReal) :=
  (dat3 V c).arrAt_eq_of_cover 3 _ (fun t _ => flushed3_eq V c t) (cover3)

end Cert.KernelIdeal.Hand

end
-- ==== Proof.MlpSpec.lean ====
/-
  The edge-weight function, free of any program: from one edge attribute `a`, a first layer of sixteen weights `w1` and
  biases `b1`, a second layer of sixteen weights `w2` and a bias `b2`, the logistic function of the two-layer
  perceptron's output,

      1 / (1 + exp (-(∑ k, max (a · w1 k + b1 k) 0 · w2 k + b2))),

  over the extended reals, with the ideal instance's quotient and exponential. `sum16` writes a sum over sixteen
  indices out, first index first and associated to the left, which is the order a program that accumulates one term at
  a time computes it in; `edgeFn_accumulated` is the edge weight in that program's spelling.
-/
import Idealize.ShloMosaic.PureOps.Ideal

noncomputable section

open scoped BigOperators

namespace Cert.MlpSpec

open Idealize.ShloMosaic

/-- One hidden unit's contribution: the rectified affine image of the attribute times the second layer's weight. -/
def hiddenTerm (a w b u : EReal) : EReal := max (a * w + b) 0 * u

/-- The edge weight of an attribute `a` under the two layers `(w1, b1)` and `(w2, b2)`. -/
def edgeFn (a : EReal) (w1 b1 w2 : Fin 16 → EReal) (b2 : EReal) : EReal :=
  Ideal.div 1 (1 + Ideal.exp (-((∑ k : Fin 16, hiddenTerm a (w1 k) (b1 k) (w2 k)) + b2)))

/-- A sum over sixteen indices written out, associated to the left. -/
theorem sum16 {M : Type*} [AddCommMonoid M] (t : Fin 16 → M) :
    ∑ k : Fin 16, t k
      = t 0 + t 1 + t 2 + t 3 + t 4 + t 5 + t 6 + t 7 + t 8 + t 9 + t 10 + t 11 + t 12 + t 13 + t 14 + t 15 := by
  simp only [Fin.sum_univ_castSucc, Fin.sum_univ_zero, zero_add]
  rfl

/-- A bias followed by sixteen terms added one at a time is the sum of the terms plus the bias: the extended reals'
    (any commutative monoid's) addition regroups freely. -/
theorem bias_add_terms {M : Type*} [AddCommMonoid M] (b : M) (t : Fin 16 → M) :
    b + t 0 + t 1 + t 2 + t 3 + t 4 + t 5 + t 6 + t 7 + t 8 + t 9 + t 10 + t 11 + t 12 + t 13 + t 14 + t 15
      = (∑ k : Fin 16, t k) + b := by
  rw [sum16]
  ac_rfl

/-- The edge weight as a program that accumulates one hidden unit at a time computes it: the bias first, the sixteen
    terms added in index order, and the logistic function written `1 / (1 + exp (0 - ·))`. -/
theorem edgeFn_accumulated (a : EReal) (w1 b1 w2 : Fin 16 → EReal) (b2 : EReal) :
    Ideal.div 1 (1 + Ideal.exp (0 - (b2 + hiddenTerm a (w1 0) (b1 0) (w2 0) + hiddenTerm a (w1 1) (b1 1) (w2 1) + hiddenTerm a (w1 2) (b1 2) (w2 2) + hiddenTerm a (w1 3) (b1 3) (w2 3)
      + hiddenTerm a (w1 4) (b1 4) (w2 4) + hiddenTerm a (w1 5) (b1 5) (w2 5) + hiddenTerm a (w1 6) (b1 6) (w2 6) + hiddenTerm a (w1 7) (b1 7) (w2 7)
      + hiddenTerm a (w1 8) (b1 8) (w2 8) + hiddenTerm a (w1 9) (b1 9) (w2 9) + hiddenTerm a (w1 10) (b1 10) (w2 10) + hiddenTerm a (w1 11) (b1 11) (w2 11)
      + hiddenTerm a (w1 12) (b1 12) (w2 12) + hiddenTerm a (w1 13) (b1 13) (w2 13) + hiddenTerm a (w1 14) (b1 14) (w2 14) + hiddenTerm a (w1 15) (b1 15) (w2 15))))
      = edgeFn a w1 b1 w2 b2 := by
  unfold edgeFn
  rw [zero_sub, ← bias_add_terms b2 (fun k => hiddenTerm a (w1 k) (b1 k) (w2 k))]

end Cert.MlpSpec

end
-- ==== Proof.KIMlpVal.lean ====
/-
  The edge-weight block's stored value at the ideal instance, read at a position: the edge-weight function of the
  attribute at that position.

  At the ideal instance the block's operations are the extended reals' (sum, product, maximum, difference, the ideal
  quotient and exponential), each read at a position from its operands at that position; a scalar broadcast over the
  block is entry `(0, k)` of the first layer's weights or biases, entry `(k, 0)` of the second layer's weights, or
  the second layer's bias (`entry_apply`, `at_apply`). Each part's payload at a position is therefore a few
  `hiddenTerm` terms added to the partial sum handed on (`k0_payN_apply`); the parts chained in program order give the
  second layer's bias plus the sixteen terms in index order, and the last part applies the logistic function to it.
  That is the edge-weight function in the accumulating spelling (`edgeFn_accumulated`); three of the terms are split
  between two parts, and are the same terms by unfolding.
-/
import proofs.«130928_j46574625358117_1_alg».proof.Proof.KIMlpLocal
import proofs.«130928_j46574625358117_1_alg».proof.Proof.MlpSpec
import Idealize.ShloMosaic.Lib.IdealHost

noncomputable section

open scoped BigOperators

namespace Cert.KernelIdeal.Hand

open Idealize.ShloMosaic Idealize.ShloMosaic.ValueIdx Cert.KernelIdeal Cert.KernelIdeal.Gen Cert.MlpSpec

section Entries
variable {α : Type}

/-- The scalar a part broadcasts: entry `(p, q)` of a small operand, cut out as a one-by-one slice at `(o0, o1)` and
    extracted. -/
theorem entry_apply {n0 n1 : Nat} (x : (⟨2, ![n0, n1]⟩ : Shape).Idx → α) (o0 o1 : Nat)
    (h : (⟨2, ![n0, n1]⟩ : Shape).Slices ![o0, o1] S1x1) (h' : ∀ a, (![0, 0] : Fin 2 → Nat) a < S1x1.size a)
    (p : Fin n0) (q : Fin n1) (hp : p.val = o0) (hq : q.val = o1) :
    extractAt ![0, 0] (extractStridedSlice S1x1 ![o0, o1] x h) h' = x (ix2 p q) := by
  show x _ = x _
  congr 1
  funext d
  match d with
  | ⟨0, _⟩ => exact Fin.ext (by show o0 + 0 = p.val; omega)
  | ⟨1, _⟩ => exact Fin.ext (by show o1 + 0 = q.val; omega)

/-- The one entry of a one-by-one operand, extracted. -/
theorem at_apply (x : S1x1.Idx → α) (h' : ∀ a, (![0, 0] : Fin 2 → Nat) a < S1x1.size a) :
    extractAt ![0, 0] x h' = x (ix2 0 0) := by
  show x _ = x _
  congr 1
  funext d
  match d with
  | ⟨0, _⟩ => rfl
  | ⟨1, _⟩ => rfl

end Entries

/-- The first layer's biases' shape cast to their own shape is themselves. -/
theorem k0_pay3_eq {F : FTy → Type} [FloatOps F] (v3 : Vec F S1x16 .f32) : k0_pay3 v3 = v3 := shapeCast_self _ _

/-- The exponential at a position is the ideal exponential of the element. -/
theorem exp_apply {s : Shape} {φ : FTy} (a : FVec Ideal s φ) (i : s.Idx) : exp a i = Ideal.exp (a i) := rfl

/-! ## Each part's payload at a position -/

/-- The second layer's bias plus terms 0 and 1. -/
theorem k0_pay4_apply (v0 : Vec Ideal S1000x128 .f32) (v2 : Vec Ideal S1x16 .f32) (v3 : Vec Ideal S1x16 .f32)
    (v5 : Vec Ideal S16x1 .f32) (v6 : Vec Ideal S1x1 .f32) (j : S1000x128.Idx) :
    k0_pay4 v0 v2 v3 v5 v6 j = v6 (ix2 0 0) + hiddenTerm (v0 j) (v2 (ix2 0 0)) (v3 (ix2 0 0)) (v5 (ix2 0 0)) + hiddenTerm (v0 j) (v2 (ix2 0 1)) (v3 (ix2 0 1)) (v5 (ix2 1 0)) := by
  unfold k0_pay4
  rw [k0_pay2_eq, k0_pay3_eq, shapeCast_self]
  simp only [hiddenTerm, mulf_apply, addf_apply, subf_apply, divf_apply, maximumf_apply, exp_apply, broadcast_apply,
    Ideal.ofBits_def, Ideal.ofBits_zero_f32, Ideal.ofBits_one_f32,
    at_apply,
    entry_apply v2 0 0 _ _ 0 0 rfl rfl,
    entry_apply v3 0 0 _ _ 0 0 rfl rfl,
    entry_apply v5 0 0 _ _ 0 0 rfl rfl,
    entry_apply v2 0 1 _ _ 0 1 rfl rfl,
    entry_apply v3 0 1 _ _ 0 1 rfl rfl,
    entry_apply v5 1 0 _ _ 1 0 rfl rfl]

/-- Term 2's product of the attribute and the first layer's weight. -/
theorem k0_pay5_apply (v0 : Vec Ideal S1000x128 .f32) (v2 : Vec Ideal S1x16 .f32) (j : S1000x128.Idx) :
    k0_pay5 v0 v2 j = v0 j * v2 (ix2 0 2) := by
  unfold k0_pay5
  rw [k0_pay2_eq]
  simp only [mulf_apply, broadcast_apply, entry_apply v2 0 2 _ _ 0 2 rfl rfl]

/-- Term 2's first-layer bias, broadcast. -/
theorem k0_pay6_apply (v3 : Vec Ideal S1x16 .f32) (j : S1000x128.Idx) : k0_pay6 v3 j = v3 (ix2 0 2) := by
  unfold k0_pay6
  rw [k0_pay3_eq]
  simp only [broadcast_apply, entry_apply v3 0 2 _ _ 0 2 rfl rfl]

/-- Term 2 finished from its product and bias, then terms 3, 4 and 5, added to the partial sum. -/
theorem k0_pay7_apply (v1 : FVec Ideal S1000x128 .f32) (v2 : Vec Ideal S1x16 .f32) (v4 : FVec Ideal S1x16 .f32)
    (v5 : Vec Ideal S16x1 .f32) (v39 v43 v46 : FVec Ideal S1000x128 .f32) (j : S1000x128.Idx) :
    k0_pay7 v1 v2 v4 v5 v39 v43 v46 j
      = v39 j + max (v43 j + v46 j) 0 * v5 (ix2 2 0) + hiddenTerm (v1 j) (v2 (ix2 0 3)) (v4 (ix2 0 3)) (v5 (ix2 3 0)) + hiddenTerm (v1 j) (v2 (ix2 0 4)) (v4 (ix2 0 4)) (v5 (ix2 4 0)) + hiddenTerm (v1 j) (v2 (ix2 0 5)) (v4 (ix2 0 5)) (v5 (ix2 5 0)) := by
  unfold k0_pay7
  simp only [hiddenTerm, mulf_apply, addf_apply, subf_apply, divf_apply, maximumf_apply, exp_apply, broadcast_apply,
    Ideal.ofBits_def, Ideal.ofBits_zero_f32, Ideal.ofBits_one_f32,
    entry_apply v5 2 0 _ _ 2 0 rfl rfl,
    entry_apply v2 0 3 _ _ 0 3 rfl rfl,
    entry_apply v4 0 3 _ _ 0 3 rfl rfl,
    entry_apply v5 3 0 _ _ 3 0 rfl rfl,
    entry_apply v2 0 4 _ _ 0 4 rfl rfl,
    entry_apply v4 0 4 _ _ 0 4 rfl rfl,
    entry_apply v5 4 0 _ _ 4 0 rfl rfl,
    entry_apply v2 0 5 _ _ 0 5 rfl rfl,
    entry_apply v4 0 5 _ _ 0 5 rfl rfl,
    entry_apply v5 5 0 _ _ 5 0 rfl rfl]

/-- Term 6's first-layer weight, broadcast. -/
theorem k0_pay8_apply (v2 : Vec Ideal S1x16 .f32) (j : S1000x128.Idx) : k0_pay8 v2 j = v2 (ix2 0 6) := by
  unfold k0_pay8
  simp only [broadcast_apply, entry_apply v2 0 6 _ _ 0 6 rfl rfl]

/-- Term 6 finished from its broadcast weight, then terms 7 and 8, added to the partial sum. -/
theorem k0_pay9_apply (v1 : FVec Ideal S1000x128 .f32) (v2 : Vec Ideal S1x16 .f32) (v4 : FVec Ideal S1x16 .f32)
    (v5 : Vec Ideal S16x1 .f32) (v99 v102 : FVec Ideal S1000x128 .f32) (j : S1000x128.Idx) :
    k0_pay9 v1 v2 v4 v5 v99 v102 j
      = v99 j + max (v1 j * v102 j + v4 (ix2 0 6)) 0 * v5 (ix2 6 0) + hiddenTerm (v1 j) (v2 (ix2 0 7)) (v4 (ix2 0 7)) (v5 (ix2 7 0)) + hiddenTerm (v1 j) (v2 (ix2 0 8)) (v4 (ix2 0 8)) (v5 (ix2 8 0)) := by
  unfold k0_pay9
  simp only [hiddenTerm, mulf_apply, addf_apply, subf_apply, divf_apply, maximumf_apply, exp_apply, broadcast_apply,
    Ideal.ofBits_def, Ideal.ofBits_zero_f32, Ideal.ofBits_one_f32,
    entry_apply v4 0 6 _ _ 0 6 rfl rfl,
    entry_apply v5 6 0 _ _ 6 0 rfl rfl,
    entry_apply v2 0 7 _ _ 0 7 rfl rfl,
    entry_apply v4 0 7 _ _ 0 7 rfl rfl,
    entry_apply v5 7 0 _ _ 7 0 rfl rfl,
    entry_apply v2 0 8 _ _ 0 8 rfl rfl,
    entry_apply v4 0 8 _ _ 0 8 rfl rfl,
    entry_apply v5 8 0 _ _ 8 0 rfl rfl]

/-- Term 9. -/
theorem k0_pay10_apply (v1 : FVec Ideal S1000x128 .f32) (v2 : Vec Ideal S1x16 .f32) (v4 : FVec Ideal S1x16 .f32)
    (v5 : Vec Ideal S16x1 .f32) (j : S1000x128.Idx) :
    k0_pay10 v1 v2 v4 v5 j = hiddenTerm (v1 j) (v2 (ix2 0 9)) (v4 (ix2 0 9)) (v5 (ix2 9 0)) := by
  unfold k0_pay10
  simp only [hiddenTerm, mulf_apply, addf_apply, subf_apply, divf_apply, maximumf_apply, exp_apply, broadcast_apply,
    Ideal.ofBits_def, Ideal.ofBits_zero_f32, Ideal.ofBits_one_f32,
    entry_apply v2 0 9 _ _ 0 9 rfl rfl,
    entry_apply v4 0 9 _ _ 0 9 rfl rfl,
    entry_apply v5 9 0 _ _ 9 0 rfl rfl]

/-- Term 9 added, then terms 10, 11 and 12. -/
theorem k0_pay11_apply (v1 : FVec Ideal S1000x128 .f32) (v2 : Vec Ideal S1x16 .f32) (v4 : FVec Ideal S1x16 .f32)
    (v5 : Vec Ideal S16x1 .f32) (v144 v158 : FVec Ideal S1000x128 .f32) (j : S1000x128.Idx) :
    k0_pay11 v1 v2 v4 v5 v144 v158 j = v144 j + v158 j + hiddenTerm (v1 j) (v2 (ix2 0 10)) (v4 (ix2 0 10)) (v5 (ix2 10 0)) + hiddenTerm (v1 j) (v2 (ix2 0 11)) (v4 (ix2 0 11)) (v5 (ix2 11 0)) + hiddenTerm (v1 j) (v2 (ix2 0 12)) (v4 (ix2 0 12)) (v5 (ix2 12 0)) := by
  unfold k0_pay11
  simp only [hiddenTerm, mulf_apply, addf_apply, subf_apply, divf_apply, maximumf_apply, exp_apply, broadcast_apply,
    Ideal.ofBits_def, Ideal.ofBits_zero_f32, Ideal.ofBits_one_f32,
    entry_apply v2 0 10 _ _ 0 10 rfl rfl,
    entry_apply v4 0 10 _ _ 0 10 rfl rfl,
    entry_apply v5 10 0 _ _ 10 0 rfl rfl,
    entry_apply v2 0 11 _ _ 0 11 rfl rfl,
    entry_apply v4 0 11 _ _ 0 11 rfl rfl,
    entry_apply v5 11 0 _ _ 11 0 rfl rfl,
    entry_apply v2 0 12 _ _ 0 12 rfl rfl,
    entry_apply v4 0 12 _ _ 0 12 rfl rfl,
    entry_apply v5 12 0 _ _ 12 0 rfl rfl]

/-- Term 13's rectified affine image. -/
theorem k0_pay12_apply (v1 : FVec Ideal S1000x128 .f32) (v2 : Vec Ideal S1x16 .f32) (v4 : FVec Ideal S1x16 .f32)
    (j : S1000x128.Idx) : k0_pay12 v1 v2 v4 j = max (v1 j * v2 (ix2 0 13) + v4 (ix2 0 13)) 0 := by
  unfold k0_pay12
  simp only [hiddenTerm, mulf_apply, addf_apply, subf_apply, divf_apply, maximumf_apply, exp_apply, broadcast_apply,
    Ideal.ofBits_def, Ideal.ofBits_zero_f32, Ideal.ofBits_one_f32,
    entry_apply v2 0 13 _ _ 0 13 rfl rfl,
    entry_apply v4 0 13 _ _ 0 13 rfl rfl]

/-- Term 13 finished, terms 14 and 15 added, and the logistic function of the sum. -/
theorem k0_pay1_apply (v1 : FVec Ideal S1000x128 .f32) (v2 : Vec Ideal S1x16 .f32) (v4 : FVec Ideal S1x16 .f32)
    (v5 : Vec Ideal S16x1 .f32) (v204 v214 : FVec Ideal S1000x128 .f32) (j : S1000x128.Idx) :
    k0_pay1 v1 v2 v4 v5 v204 v214 j
      = Ideal.div 1 (1 + Ideal.exp (0 - (v204 j + v214 j * v5 (ix2 13 0) + hiddenTerm (v1 j) (v2 (ix2 0 14)) (v4 (ix2 0 14)) (v5 (ix2 14 0)) + hiddenTerm (v1 j) (v2 (ix2 0 15)) (v4 (ix2 0 15)) (v5 (ix2 15 0))))) := by
  unfold k0_pay1
  simp only [hiddenTerm, mulf_apply, addf_apply, subf_apply, divf_apply, maximumf_apply, exp_apply, broadcast_apply,
    Ideal.ofBits_def, Ideal.ofBits_zero_f32, Ideal.ofBits_one_f32,
    entry_apply v5 13 0 _ _ 13 0 rfl rfl,
    entry_apply v2 0 14 _ _ 0 14 rfl rfl,
    entry_apply v4 0 14 _ _ 0 14 rfl rfl,
    entry_apply v5 14 0 _ _ 14 0 rfl rfl,
    entry_apply v2 0 15 _ _ 0 15 rfl rfl,
    entry_apply v4 0 15 _ _ 0 15 rfl rfl,
    entry_apply v5 15 0 _ _ 15 0 rfl rfl]

/-! ## The stored block at a position -/

/-- THE STORED BLOCK AT A POSITION IS THE EDGE WEIGHT OF THE ATTRIBUTE THERE, under the loaded layers. -/
theorem mlpPay_apply (v0 : Vec Ideal S1000x128 .f32) (v2 : Vec Ideal S1x16 .f32) (v3 : Vec Ideal S1x16 .f32)
    (v5 : Vec Ideal S16x1 .f32) (v6 : Vec Ideal S1x1 .f32) (j : S1000x128.Idx) :
    mlpPay (F := Ideal) v0 v2 v3 v5 v6 j
      = edgeFn (v0 j) (fun k => v2 (ix2 0 k)) (fun k => v3 (ix2 0 k)) (fun k => v5 (ix2 k 0)) (v6 (ix2 0 0)) := by
  unfold mlpPay
  rw [k0_pay2_eq, k0_pay3_eq, k0_pay1_apply, k0_pay11_apply, k0_pay9_apply, k0_pay7_apply, k0_pay4_apply, k0_pay5_apply,
    k0_pay6_apply, k0_pay8_apply, k0_pay10_apply, k0_pay12_apply]
  exact edgeFn_accumulated (v0 j) (fun k => v2 (ix2 0 k)) (fun k => v3 (ix2 0 k)) (fun k => v5 (ix2 k 0)) (v6 (ix2 0 0))

end Cert.KernelIdeal.Hand

end
-- ==== Proof.KIEwSpec.lean ====
/-
  The edge weights as the kernel program computes them: the edge attributes [1600000, 1] are laid out as [12500, 128],
  the pointwise logistic perceptron `edgeFn` is applied at every position (the small operands reshaped to rows and
  columns), and the result is laid out as one weight per edge again.
-/
import proofs.«130928_j46574625358117_1_alg».proof.Proof.Gen.KernelIdeal
import proofs.«130928_j46574625358117_1_alg».proof.Proof.MlpSpec
import Idealize.ShloMosaic.Lib.ValueIdx

noncomputable section

namespace Cert.KernelIdeal.Hand

open Idealize.ShloMosaic Idealize.ShloMosaic.ValueIdx Cert.KernelIdeal Cert.KernelIdeal.Gen Cert.MlpSpec

/-- The [12500, 128] array the edge kernel leaves, as a function of the arrays it is launched on. -/
def ewBlock (a : (⟨S12500x128, .f32⟩ : BufTy).Contents (Elt Ideal)) (w1 : (⟨S1x16, .f32⟩ : BufTy).Contents (Elt Ideal)) (b1 : (⟨S1x16, .f32⟩ : BufTy).Contents (Elt Ideal)) (w2 : (⟨S16x1, .f32⟩ : BufTy).Contents (Elt Ideal))
    (b2 : (⟨S1x1, .f32⟩ : BufTy).Contents (Elt Ideal)) : (⟨S12500x128, .f32⟩ : BufTy).Contents (Elt Ideal) :=
  fun i => edgeFn (a i) (fun k => w1 (ix2 0 k)) (fun k => b1 (ix2 0 k)) (fun k => w2 (ix2 k 0)) (b2 (ix2 0 0))

/-- One weight per edge, from the program's arguments. -/
def ewKer (ea : (⟨S1600000x1, .f32⟩ : BufTy).Contents (Elt Ideal)) (wd1 : (⟨S1x16, .f32⟩ : BufTy).Contents (Elt Ideal)) (bd1 : (⟨S16, .f32⟩ : BufTy).Contents (Elt Ideal)) (wd2 : (⟨S16x1, .f32⟩ : BufTy).Contents (Elt Ideal))
    (bd2 : (⟨S1, .f32⟩ : BufTy).Contents (Elt Ideal)) : (⟨S1600000, .f32⟩ : BufTy).Contents (Elt Ideal) :=
  shapeCast _ (ewBlock (shapeCast _ ea shapeCasts_S1600000x1_S12500x128) wd1 (shapeCast _ bd1 shapeCasts_S16_S1x16) wd2
    (shapeCast _ bd2 shapeCasts_S1_S1x1)) shapeCasts_S12500x128_S1600000

end Cert.KernelIdeal.Hand

end
-- ==== Proof.KIMlp0Val.lean ====
import proofs.«130928_j46574625358117_1_alg».proof.Proof.KIMlp0
import proofs.«130928_j46574625358117_1_alg».proof.Proof.KIMlpVal
import proofs.«130928_j46574625358117_1_alg».proof.Proof.KIEwSpec
import Idealize.ShloMosaic.Lib.Pipeline.Value
import Idealize.ShloMosaic.Lib.ValueIdx

/-! # The value of the edge-weight region, at the extended reals

The [12500, 128] result array after the region is ONE function of the region-entry arrays: every position holds the
edge weight of the attribute at that position under the two layers. Grid point `t` writes back the rows of its
block that lie inside the array — all 1000 at points 0 … 11, the first 500 at point 12 — and the stored value at
such a row depends on the attribute fetched to that row only, so what filled the staging rows past the array's end
never shows; row `r` is written by point `r / 1000`, and the thirteen cut blocks cover the array. -/

set_option maxRecDepth 16384

noncomputable section

namespace Cert.KernelIdeal.Hand

open Cert.KernelIdeal Cert.KernelIdeal.Gen Cert.MlpSpec
open Idealize.ShloMosaic Idealize.ShloMosaic.TcCoe Idealize.SL.Sem
open Idealize.ShloMosaic.ValueIdx
open Idealize.ShloMosaic.Pipeline (Dat Window)
open scoped BigOperators
variable (V : (c : Dev nD) → (b : Ref sig .tc) → Buf (Elt Ideal) ((c : Thread nD τ).loc b))

theorem edgeFn_congr {a a' : EReal} {w1 w1' b1 b1' w2 w2' : Fin 16 → EReal} {b2 b2' : EReal}
    (h0 : a = a') (h1 : w1 = w1') (h2 : b1 = b1') (h3 : w2 = w2') (h4 : b2 = b2') :
    edgeFn a w1 b1 w2 b2 = edgeFn a' w1' b1' w2' b2' := by
  subst h0; subst h1; subst h2; subst h3; subst h4; rfl

/-- The printed index maps and the cut extents, decided over the thirteen points: the attribute and result
    windows are on row block `t`, every layer window on its one block; the blocks are whole but the last, which
    keeps the 500 rows inside the array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ (t.val < 12 → win0_5.xsize (grid0.coords t) (0 : Fin 2) = 1000)
    ∧ (t.val = 12 → win0_5.xsize (grid0.coords t) (0 : Fin 2) = 500)
    ∧ win0_5.xsize (grid0.coords t) (1 : Fin 2) = 128 :=
  (by decide +kernel : ∀ t : Fin grid0.N, _)

theorem lt_N0 (t : Fin cfg0.N) : t.val < 13 := lt_of_lt_of_eq t.isLt N_0

/-- Each layer window's block at any point is its whole array. -/
theorem iblk0_1_apply (c : Dev nD) (t : Fin cfg0.N) (z : Fin 1) (k : Fin 16) :
    (iblk0 V c 1 t : Vec Ideal S1x16 .f32) (ix2 z k) = (V c main_arg3 : S1x16.Idx → EReal) (ix2 z k) := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 1 + 1 * z.val = z.val; rw [e2]; omega
  | ⟨1, _⟩ => show win0_1.index t (1 : Fin 2) * 16 + 1 * k.val = k.val; rw [e3]; omega

theorem iblk0_2_apply (c : Dev nD) (t : Fin cfg0.N) (z : Fin 1) (k : Fin 16) :
    (iblk0 V c 2 t : Vec Ideal S1x16 .f32) (ix2 z k) = (V c main_v5 : S1x16.Idx → EReal) (ix2 z k) := by
  obtain ⟨-, -, -, -, e4, e5, -⟩ := idx_facts0 t
  unfold iblk0
  rw [View.read_apply]
  show V c main_v5 _ = V c main_v5 _
  congr 1
  funext a
  apply Fin.ext
  match a with
  | ⟨0, _⟩ => show win0_2.index t (0 : Fin 2) * 1 + 1 * z.val = z.val; rw [e4]; omega
  | ⟨1, _⟩ => show win0_2.index t (1 : Fin 2) * 16 + 1 * k.val = k.val; rw [e5]; omega

theorem iblk0_3_apply (c : Dev nD) (t : Fin cfg0.N) (k : Fin 16) (z : Fin 1) :
    (iblk0 V c 3 t : Vec Ideal S16x1 .f32) (ix2 k z) = (V c main_arg5 : S16x1.Idx → EReal) (ix2 k z) := by
  obtain ⟨-, -, -, -, -, -, e6, e7, -⟩ := idx_facts0 t
  unfold iblk0
  rw [View.read_apply]
  show V c main_arg5 _ = V c main_arg5 _
  congr 1
  funext a
  apply Fin.ext
  match a with
  | ⟨0, _⟩ => show win0_3.index t (0 : Fin 2) * 16 + 1 * k.val = k.val; rw [e6]; omega
  | ⟨1, _⟩ => show win0_3.index t (1 : Fin 2) * 1 + 1 * z.val = z.val; rw [e7]; omega

theorem iblk0_4_apply (c : Dev nD) (t : Fin cfg0.N) (z z' : Fin 1) :
    (iblk0 V c 4 t : Vec Ideal S1x1 .f32) (ix2 z z') = (V c main_v6 : S1x1.Idx → EReal) (ix2 z z') := by
  obtain ⟨-, -, -, -, -, -, -, -, e8, e9, -⟩ := idx_facts0 t
  unfold iblk0
  rw [View.read_apply]
  show V c main_v6 _ = V c main_v6 _
  congr 1
  funext a
  apply Fin.ext
  match a with
  | ⟨0, _⟩ => show win0_4.index t (0 : Fin 2) * 1 + 1 * z.val = z.val; rw [e8]; omega
  | ⟨1, _⟩ => show win0_4.index t (1 : Fin 2) * 1 + 1 * z'.val = z'.val; rw [e9]; omega

/-- The attribute buffer, on a row the result's write-back moves, holds the attribute array's entry the
    write-back writes to: the two windows are on the same row block. -/
theorem attr_apply (c : Dev nD) (t : Fin cfg0.N) (j : (win0_5.xblock (grid0.coords t)).Idx) :
    win0_0.fill (grid0.coords t) (zfill (F := Ideal)) (iblk0 V c 0 t) (win0_5.xinj (grid0.coords t) j)
      = (V c main_v4 : S12500x128.Idx → EReal) (((cfg0.win 5).blk t).view.emb j) := by
  unfold Window.fill
  rw [dif_pos (moved_xinj (grid0.coords t) j)]
  unfold iblk0
  rw [View.read_apply]
  show V c main_v4 _ = V c main_v4 _
  congr 1

/-- WHAT POINT `t` WRITES BACK — the rows inside the array of what the body stored — is block `t`, cut at the
    array's end, of the edge weights of the attribute array. -/
theorem flushed0_eq (c : Dev nD) (t : Fin cfg0.N) :
    (dat0 V c).flushed 5 t = ((cfg0.win 5).blk t).view.read (Elt Ideal) (ewBlock (V c main_v4) (V c main_arg3) (V c main_v5) (V c main_arg5) (V c main_v6)) := by
  show (cfg0.win 5).cut (grid0.coords t) ((dat0 V c).after 5 t) = _
  rw [after0_5]
  funext j
  rw [View.read_apply]
  show mlpPay (F := Ideal) _ _ _ _ _ (win0_5.xinj (grid0.coords t) j) = ewBlock (V c main_v4) (V c main_arg3) (V c main_v5) (V c main_arg5) (V c main_v6) (((cfg0.win 5).blk t).view.emb j)
  refine (mlpPay_apply _ _ _ _ _ _).trans ?_
  exact edgeFn_congr (attr_apply V c t j) (funext fun k => iblk0_1_apply V c t 0 k) (funext fun k => iblk0_2_apply V c t 0 k)
    (funext fun k => iblk0_3_apply V c t k 0) (iblk0_4_apply V c t 0 0)

/-- An index of the array is in point `t`'s cut block iff each coordinate is in the block's range inside the array. -/
theorem mem_blk0 (t : Fin cfg0.N) (i : S12500x128.Idx) :
    i ∈ ((cfg0.win 5).blk t).view.set ↔ ∀ a : Fin 2, win0_5.index t a * S1000x128.size a ≤ (i a).val
      ∧ (i a).val < win0_5.index t a * S1000x128.size a + win0_5.xsize (grid0.coords t) a := by
  show i ∈ ((View.whole main_v7).slice (win0_5.rect t)).set ↔ _
  rw [View.set_slice_whole, Rect.mem_set_unit]
  exact Iff.rfl

/-- Row `r` is in the block of point `r / 1000` (the last point's block keeps rows 12000 … 12499): the thirteen
    cut blocks cover the array. -/
theorem cover0 (i : S12500x128.Idx) : ∃ t : Fin cfg0.N, (cfg0.win 5).flush t = true ∧ i ∈ ((cfg0.win 5).blk t).view.set := by
  have hi0 : (i 0).val < 12500 := (i 0).isLt
  have hi1 : (i 1).val < 128 := (i 1).isLt
  let t : Fin cfg0.N := ⟨(i 0).val / 1000, by rw [show cfg0.N = 13 from N_0]; omega⟩
  obtain ⟨-, -, -, -, -, -, -, -, -, -, e10, e11, x0, x1, x2⟩ := idx_facts0 t
  have htv : t.val = (i 0).val / 1000 := rfl
  refine ⟨t, flush0_5 t, ?_⟩
  rw [mem_blk0]
  intro a
  match a with
  | ⟨0, _⟩ =>
    show win0_5.index t (0 : Fin 2) * 1000 ≤ (i 0).val ∧ (i 0).val < win0_5.index t (0 : Fin 2) * 1000 + win0_5.xsize (grid0.coords t) (0 : Fin 2)
    rw [e10]
    rcases Nat.lt_or_ge t.val 12 with h | h
    · rw [x0 h]; omega
    · have h12 : t.val = 12 := by omega
      rw [x1 h12]; omega
  | ⟨1, _⟩ =>
    show win0_5.index t (1 : Fin 2) * 128 ≤ (i 1).val ∧ (i 1).val < win0_5.index t (1 : Fin 2) * 128 + win0_5.xsize (grid0.coords t) (1 : Fin 2)
    rw [e11, x2]; omega

/-- THE ARRAY after the region: the edge weight of every attribute, under the region-entry layers. -/
theorem final0 (c : Dev nD) : (dat0 (F := Ideal) V c).arrAt 5 cfg0.N
    = ewBlock (V c main_v4) (V c main_arg3) (V c main_v5) (V c main_arg5) (V c main_v6) :=
  (dat0 V c).arrAt_eq_of_cover 5 _ (fun t _ => flushed0_eq V c t) cover0

end Cert.KernelIdeal.Hand

end
-- ==== Proof.KIValue.lean ====
/-
  The kernel program's result, as one term of its arguments.

  Read off the run: the last region leaves the dense projection of what the second aggregation left; that aggregation
  read the second region's projection of the rectified first aggregation, which read the first region's projection of
  the node features and the edge weights the edge kernel left. Every stage is a pure function of the argument arrays.
-/
import proofs.«130928_j46574625358117_1_alg».proof.Proof.KIHost
import proofs.«130928_j46574625358117_1_alg».proof.Proof.KILin1Val
import proofs.«130928_j46574625358117_1_alg».proof.Proof.KILin2Val
import proofs.«130928_j46574625358117_1_alg».proof.Proof.KILin3Val
import proofs.«130928_j46574625358117_1_alg».proof.Proof.KIMlp0Val
import proofs.«130928_j46574625358117_1_alg».proof.Proof.KIEwSpec

set_option maxRecDepth 16384

noncomputable section

namespace Cert.KernelIdeal.Hand

open Cert.KernelIdeal Cert.KernelIdeal.Gen Cert.LinSpec
open Idealize.ShloMosaic Idealize.ShloMosaic.TcCoe Idealize.ShloMosaic.StableHlo
open Idealize.SL Idealize.SL.Sem

/-- The zero bias row the first two projections are launched with. -/
def zb64 : (⟨S1x64, .f32⟩ : BufTy).Contents (Elt Ideal) :=
  shapeCast _ (broadcastInDim S64 ![] bcast_S_S64 (constant (F := Ideal) S_ .f32 0x00000000#32)) shapeCasts_S64_S1x64

/-- The kernel program's result from its thirteen arguments. -/
def kerOut (x : (⟨S100000x64, .f32⟩ : BufTy).Contents (Elt Ideal)) (ei : (⟨S2x1600000, .i32⟩ : BufTy).Contents (Elt Ideal)) (ea : (⟨S1600000x1, .f32⟩ : BufTy).Contents (Elt Ideal)) (wd1 : (⟨S1x16, .f32⟩ : BufTy).Contents (Elt Ideal)) (bd1 : (⟨S16, .f32⟩ : BufTy).Contents (Elt Ideal)) (wd2 : (⟨S16x1, .f32⟩ : BufTy).Contents (Elt Ideal)) (bd2 : (⟨S1, .f32⟩ : BufTy).Contents (Elt Ideal)) (w1 : (⟨S64x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal)) (wo : (⟨S64x32, .f32⟩ : BufTy).Contents (Elt Ideal)) (bo : (⟨S32, .f32⟩ : BufTy).Contents (Elt Ideal)) : (⟨S100000x32, .f32⟩ : BufTy).Contents (Elt Ideal) :=
  linOut (convHost (linOut (reluHost (convHost (linOut x w1 zb64) (srcOf ei) (dstOf ei) (ewKer ea wd1 bd1 wd2 bd2) b1)) w2 zb64)
    (srcOf ei) (dstOf ei) (ewKer ea wd1 bd1 wd2 bd2) b2) wo (shapeCast _ bo shapeCasts_S32_S1x32)

variable (m : (ℓ : Loc nD τ sig) → Buf (Elt Ideal) ℓ) (c : Dev nD)

/-! ## The edge list and the weights -/

theorem v1_at4 : W4 m c (Proc.devRef .tc main_v1) = (srcOf (m ((c.tc : Thread nD τ).loc main_arg1))) := ((W4_of_ne m c main_v1 (by decide)).trans ((keep3 m c main_v1 (by decide)).trans (W2_of_ne m c main_v1 (by decide)))).trans (W1_v1 m c)
theorem v3_at4 : W4 m c (Proc.devRef .tc main_v3) = (dstOf (m ((c.tc : Thread nD τ).loc main_arg1))) := ((W4_of_ne m c main_v3 (by decide)).trans ((keep3 m c main_v3 (by decide)).trans (W2_of_ne m c main_v3 (by decide)))).trans (W1_v3 m c)
theorem v1_at10 : W10 m c (Proc.devRef .tc main_v1) = (srcOf (m ((c.tc : Thread nD τ).loc main_arg1))) := ((W10_of_ne m c main_v1 (by decide)).trans ((keep9 m c main_v1 (by decide)).trans ((keep8 m c main_v1 (by decide)).trans ((keep7 m c main_v1 (by decide)).trans ((keep6 m c main_v1 (by decide)).trans (keep5 m c main_v1 (by decide))))))).trans (v1_at4 m c)
theorem v3_at10 : W10 m c (Proc.devRef .tc main_v3) = (dstOf (m ((c.tc : Thread nD τ).loc main_arg1))) := ((W10_of_ne m c main_v3 (by decide)).trans ((keep9 m c main_v3 (by decide)).trans ((keep8 m c main_v3 (by decide)).trans ((keep7 m c main_v3 (by decide)).trans ((keep6 m c main_v3 (by decide)).trans (keep5 m c main_v3 (by decide))))))).trans (v3_at4 m c)

/-- The edge kernel's array after region 0. -/
theorem v7_at2 : W2 m c (Proc.devRef .tc main_v7)
    = ewBlock (shapeCast _ (m ((c.tc : Thread nD τ).loc main_arg2)) shapeCasts_S1600000x1_S12500x128) (m ((c.tc : Thread nD τ).loc main_arg3))
        (shapeCast _ (m ((c.tc : Thread nD τ).loc main_arg4)) shapeCasts_S16_S1x16) (m ((c.tc : Thread nD τ).loc main_arg5)) (shapeCast _ (m ((c.tc : Thread nD τ).loc main_arg6)) shapeCasts_S1_S1x1) := by
  refine (W2_arr m c 5).trans ((final0 (V1 m) c).trans ?_)
  dsimp only [V1]
  rw [W1_v4, W1_v5, W1_v6, (keep1 m c main_arg3 (by decide)), (keep1 m c main_arg5 (by decide))]

theorem v8_at4 : W4 m c (Proc.devRef .tc main_v8) = (ewKer (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine ((W4_of_ne m c main_v8 (by decide)).trans (W3_v8 m c)).trans ?_
  rw [v7_at2] <;> rfl
theorem v8_at10 : W10 m c (Proc.devRef .tc main_v8) = (ewKer (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := ((W10_of_ne m c main_v8 (by decide)).trans ((keep9 m c main_v8 (by decide)).trans ((keep8 m c main_v8 (by decide)).trans ((keep7 m c main_v8 (by decide)).trans ((keep6 m c main_v8 (by decide)).trans (keep5 m c main_v8 (by decide))))))).trans (v8_at4 m c)

/-! ## The three projections and the two aggregations -/

theorem v11_at4 : W4 m c (Proc.devRef .tc main_v11) = (linOut (m ((c.tc : Thread nD τ).loc main_arg0)) (m ((c.tc : Thread nD τ).loc main_arg7)) zb64) := by
  refine (W4_arr m c 3).trans ((final1 (V3 m) c).trans ?_)
  dsimp only [V3]
  rw [W3_v10, ((keep3 m c main_arg0 (by decide)).trans ((W2_of_ne m c main_arg0 (by decide)).trans (keep1 m c main_arg0 (by decide)))), ((keep3 m c main_arg7 (by decide)).trans ((W2_of_ne m c main_arg7 (by decide)).trans (keep1 m c main_arg7 (by decide))))] <;> rfl

theorem v58_at9 : W9 m c (Proc.devRef .tc main_v58) = (reluHost (convHost (linOut (m ((c.tc : Thread nD τ).loc main_arg0)) (m ((c.tc : Thread nD τ).loc main_arg7)) zb64) (srcOf (m ((c.tc : Thread nD τ).loc main_arg1))) (dstOf (m ((c.tc : Thread nD τ).loc main_arg1))) (ewKer (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg8)))) := by
  refine ((keep9 m c main_v58 (by decide)).trans (W8_v58 m c)).trans ?_
  rw [v11_at4, v1_at4, v3_at4, v8_at4, ((W4_of_ne m c main_arg8 (by decide)).trans ((keep3 m c main_arg8 (by decide)).trans ((W2_of_ne m c main_arg8 (by decide)).trans (keep1 m c main_arg8 (by decide)))))] <;> rfl

theorem v59_at9 : W9 m c (Proc.devRef .tc main_v59) = zb64 := by
  refine (W9_v59 m c).trans ?_
  rw [((keep8 m c main_v9 (by decide)).trans ((keep7 m c main_v9 (by decide)).trans ((keep6 m c main_v9 (by decide)).trans ((keep5 m c main_v9 (by decide)).trans (W4_of_ne m c main_v9 (by decide)))))), W3_v9] <;> rfl

theorem v60_at10 : W10 m c (Proc.devRef .tc main_v60) = (linOut (reluHost (convHost (linOut (m ((c.tc : Thread nD τ).loc main_arg0)) (m ((c.tc : Thread nD τ).loc main_arg7)) zb64) (srcOf (m ((c.tc : Thread nD τ).loc main_arg1))) (dstOf (m ((c.tc : Thread nD τ).loc main_arg1))) (ewKer (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg8)))) (m ((c.tc : Thread nD τ).loc main_arg9)) zb64) := by
  refine (W10_arr m c 3).trans ((final2 (V9 m) c).trans ?_)
  dsimp only [V9]
  rw [v58_at9, v59_at9, ((keep9 m c main_arg9 (by decide)).trans ((keep8 m c main_arg9 (by decide)).trans ((keep7 m c main_arg9 (by decide)).trans ((keep6 m c main_arg9 (by decide)).trans ((keep5 m c main_arg9 (by decide)).trans ((W4_of_ne m c main_arg9 (by decide)).trans ((keep3 m c main_arg9 (by decide)).trans ((W2_of_ne m c main_arg9 (by decide)).trans (keep1 m c main_arg9 (by decide))))))))))] <;> rfl

theorem v106_at13 : W13 m c (Proc.devRef .tc main_v106) = (convHost (linOut (reluHost (convHost (linOut (m ((c.tc : Thread nD τ).loc main_arg0)) (m ((c.tc : Thread nD τ).loc main_arg7)) zb64) (srcOf (m ((c.tc : Thread nD τ).loc main_arg1))) (dstOf (m ((c.tc : Thread nD τ).loc main_arg1))) (ewKer (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg8)))) (m ((c.tc : Thread nD τ).loc main_arg9)) zb64) (srcOf (m ((c.tc : Thread nD τ).loc main_arg1))) (dstOf (m ((c.tc : Thread nD τ).loc main_arg1))) (ewKer (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg10))) := by
  refine (W13_v106 m c).trans ?_
  rw [v60_at10, v1_at10, v3_at10, v8_at10, ((W10_of_ne m c main_arg10 (by decide)).trans ((keep9 m c main_arg10 (by decide)).trans ((keep8 m c main_arg10 (by decide)).trans ((keep7 m c main_arg10 (by decide)).trans ((keep6 m c main_arg10 (by decide)).trans ((keep5 m c main_arg10 (by decide)).trans ((W4_of_ne m c main_arg10 (by decide)).trans ((keep3 m c main_arg10 (by decide)).trans ((W2_of_ne m c main_arg10 (by decide)).trans (keep1 m c main_arg10 (by decide)))))))))))] <;> rfl

theorem v107_at13 : W13 m c (Proc.devRef .tc main_v107) = shapeCast _ (m ((c.tc : Thread nD τ).loc main_arg12)) shapeCasts_S32_S1x32 := by
  refine (W13_v107 m c).trans ?_
  rw [((keep12 m c main_arg12 (by decide)).trans ((keep11 m c main_arg12 (by decide)).trans ((W10_of_ne m c main_arg12 (by decide)).trans ((keep9 m c main_arg12 (by decide)).trans ((keep8 m c main_arg12 (by decide)).trans ((keep7 m c main_arg12 (by decide)).trans ((keep6 m c main_arg12 (by decide)).trans ((keep5 m c main_arg12 (by decide)).trans ((W4_of_ne m c main_arg12 (by decide)).trans ((keep3 m c main_arg12 (by decide)).trans ((W2_of_ne m c main_arg12 (by decide)).trans (keep1 m c main_arg12 (by decide)))))))))))))] <;> rfl

/-- THE KERNEL'S VALUE: the result array after the run is `kerOut` of the arguments. -/
theorem out_eq : W14 m c (Proc.devRef .tc main_v108) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W14_arr m c 3).trans ((final3 (V13 m) c).trans ?_)
  dsimp only [V13]
  rw [v106_at13, v107_at13, ((keep13 m c main_arg11 (by decide)).trans ((keep12 m c main_arg11 (by decide)).trans ((keep11 m c main_arg11 (by decide)).trans ((W10_of_ne m c main_arg11 (by decide)).trans ((keep9 m c main_arg11 (by decide)).trans ((keep8 m c main_arg11 (by decide)).trans ((keep7 m c main_arg11 (by decide)).trans ((keep6 m c main_arg11 (by decide)).trans ((keep5 m c main_arg11 (by decide)).trans ((W4_of_ne m c main_arg11 (by decide)).trans ((keep3 m c main_arg11 (by decide)).trans ((W2_of_ne m c main_arg11 (by decide)).trans (keep1 m c main_arg11 (by decide))))))))))))))] <;> rfl

end Cert.KernelIdeal.Hand

end
-- ==== Proof.RefSpec.lean ====
/-
  The reference's result as a composition of named stages.

  The generated run states the reference's result as one long term of the argument arrays. Here the same term is cut
  into the stages the mathematics names: the edge list's two rows, the edge weights (a two-layer perceptron on the edge
  attribute followed by the logistic function), the graph aggregation (used twice), the rectifier, and the three dense
  projections. Nothing is proved about the stages here beyond that their composition IS the generated term.
-/
import proofs.«130928_j46574625358117_1_alg».proof.Proof.Gen.ReferenceIdeal.Run

set_option maxRecDepth 16384

noncomputable section

namespace Cert.ReferenceIdeal.RefValue

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The source node of every edge: row 0 of the edge list. -/
def srcOf (ei : (⟨S2x1600000, .i32⟩ : BufTy).Contents (Elt F)) : (⟨S1600000, .i32⟩ : BufTy).Contents (Elt F) :=
  (shapeCast _ (extractStridedSlice S1x1600000 ![0, 0] ei slices_S2x1600000_S1x1600000_0_0) shapeCasts_S1x1600000_S1600000)
/-- The target node of every edge: row 1 of the edge list. -/
def dstOf (ei : (⟨S2x1600000, .i32⟩ : BufTy).Contents (Elt F)) : (⟨S1600000, .i32⟩ : BufTy).Contents (Elt F) :=
  (shapeCast _ (extractStridedSlice S1x1600000 ![1, 0] ei slices_S2x1600000_S1x1600000_1_0) shapeCasts_S1x1600000_S1600000)

/-- One graph convolution's aggregation as the host computes it from the projected features `hlin`, the edges' sources
    `v1` and targets `v3`, the edge weights `ew` and the bias `b`: a self-loop of weight one is appended per node; the
    weighted in-degree is the scatter-add of the weights at the targets; its inverse square root (zero where the degree is
    not positive) at source and target scales each edge's weight; each node adds up the scaled source rows of the edges
    that point at it; the bias is added. -/
def convHost (hlin : (⟨S100000x64, .f32⟩ : BufTy).Contents (Elt F)) (v1 v3 : (⟨S1600000, .i32⟩ : BufTy).Contents (Elt F)) (ew : (⟨S1600000, .f32⟩ : BufTy).Contents (Elt F))
    (b : (⟨S64, .f32⟩ : BufTy).Contents (Elt F)) : (⟨S100000x64, .f32⟩ : BufTy).Contents (Elt F) :=
  (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (mulf (broadcastInDim S1700000x64 ![0, 1] bcast_S1700000x1_S1700000x64_0_1 (broadcastInDim S1700000x1 ![0] bcast_S1700000_S1700000x1_0 (mulf (mulf (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x0DA24260#32)))) ((broadcastInDim S100000 ![] bcast_S_S100000) (id (constant S_ .f32 0x00000000#32)))) (broadcastInDim S1700000x1 ![0] bcast_S1700000_S1700000x1_0 (select (cmpi .slt (concatenate S1700000 0 [⟨S1600000, v1⟩, ⟨S100000, (iotaInDim S100000 32 0)⟩] concatenates_S1600000_S100000_S1700000_d0) (broadcastInDim S1700000 ![] bcast_S_S1700000 (constantI S_ 32 0#32))) (addi (concatenate S1700000 0 [⟨S1600000, v1⟩, ⟨S100000, (iotaInDim S100000 32 0)⟩] concatenates_S1600000_S100000_S1700000_d0) (broadcastInDim S1700000 ![] bcast_S_S1700000 (constantI S_ 32 100000#32))) (concatenate S1700000 0 [⟨S1600000, v1⟩, ⟨S100000, (iotaInDim S100000 32 0)⟩] concatenates_S1600000_S100000_S1700000_d0)))) (concatenate S1700000 0 [⟨S1600000, ew⟩, ⟨S100000, (broadcastInDim S100000 ![] bcast_S_S100000 (constant S_ .f32 0x3F800000#32))⟩] concatenates_S1600000_S100000_S1700000_d0)) (Host.gather gather_S100000_S1700000x1_S1700000_n_0_n_n_0_1_1 (select (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x00000000#32))) (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, v3⟩, ⟨S100000, (iotaInDim S100000 32 0)⟩] concatenates_S1600000_S100000_S1700000_d0)) (concatenate S1700000 0 [⟨S1600000, ew⟩, ⟨S100000, (broadcastInDim S100000 ![] bcast_S_S100000 (constant S_ .f32 0x3F800000#32))⟩] concatenates_S1600000_S100000_S1700000_d0)) (broadcastInDim S100000 ![] bcast_S_S100000 (constant S_ .f32 0x0DA24260#32)))) ((broadcastInDim S100000 ![] bcast_S_S100000) (id (constant S_ .f32 0x00000000#32)))) (broadcastInDim S1700000x1 ![0] bcast_S1700000_S1700000x1_0 (select (cmpi .slt (concatenate S1700000 0 [⟨S1600000, v3⟩, ⟨S100000, (iotaInDim S100000 32 0)⟩] concatenates_S1600000_S100000_S1700000_d0) (broadcastInDim S1700000 ![] bcast_S_S1700000 (constantI S_ 32 0#32))) (addi (concatenate S1700000 0 [⟨S1600000, v3⟩, ⟨S100000, (iotaInDim S100000 32 0)⟩] concatenates_S1600000_S100000_S1700000_d0) (broadcastInDim S1700000 ![] bcast_S_S1700000 (constantI S_ 32 100000#32))) (concatenate S1700000 0 [⟨S1600000, v3⟩, ⟨S100000, (iotaInDim S100000 32 0)⟩] concatenates_S1600000_S100000_S1700000_d0))))))) (Host.gather gather_S100000x64_S1700000x1_S1700000x64_1_0_n_n_0_1_164 hlin (broadcastInDim S1700000x1 ![0] bcast_S1700000_S1700000x1_0 (select (cmpi .slt (concatenate S1700000 0 [⟨S1600000, v1⟩, ⟨S100000, (iotaInDim S100000 32 0)⟩] concatenates_S1600000_S100000_S1700000_d0) (broadcastInDim S1700000 ![] bcast_S_S1700000 (constantI S_ 32 0#32))) (addi (concatenate S1700000 0 [⟨S1600000, v1⟩, ⟨S100000, (iotaInDim S100000 32 0)⟩] concatenates_S1600000_S100000_S1700000_d0) (broadcastInDim S1700000 ![] bcast_S_S1700000 (constantI S_ 32 100000#32))) (concatenate S1700000 0 [⟨S1600000, v1⟩, ⟨S100000, (iotaInDim S100000 32 0)⟩] concatenates_S1600000_S100000_S1700000_d0)))))) (broadcastInDim S100000x64 ![0, 1] bcast_S1x64_S100000x64_0_1 (broadcastInDim S1x64 ![1] bcast_S64_S1x64_1 b)))

/-- The rectifier: the maximum with zero. -/
def reluHost (x : (⟨S100000x64, .f32⟩ : BufTy).Contents (Elt F)) : (⟨S100000x64, .f32⟩ : BufTy).Contents (Elt F) :=
  (maximumf x ((broadcastInDim S100000x64 ![] bcast_S_S100000x64) (constant S_ .f32 0x00000000#32)))

/-- The edge weights: per edge, the logistic function of a two-layer perceptron (one input, sixteen rectified hidden
    units, one output) on the edge's attribute. -/
def ewRef (ea : (⟨S1600000x1, .f32⟩ : BufTy).Contents (Elt F)) (wd1 : (⟨S1x16, .f32⟩ : BufTy).Contents (Elt F)) (bd1 : (⟨S16, .f32⟩ : BufTy).Contents (Elt F)) (wd2 : (⟨S16x1, .f32⟩ : BufTy).Contents (Elt F))
    (bd2 : (⟨S1, .f32⟩ : BufTy).Contents (Elt F)) : (⟨S1600000, .f32⟩ : BufTy).Contents (Elt F) :=
  (shapeCast _ (Host.divf (broadcastInDim S1600000x1 ![] bcast_S_S1600000x1 (constant S_ .f32 0x3F800000#32)) (addf (broadcastInDim S1600000x1 ![] bcast_S_S1600000x1 (constant S_ .f32 0x3F800000#32)) (Host.exp (Host.negf (addf (Host.dotGeneral dot_S1600000x16_S16x1_S1600000x1_1_0_0_1_n_n none (maximumf (addf (Host.dotGeneral dot_S1600000x1_S1x16_S1600000x16_1_0_0_1_n_n none ea wd1) (broadcastInDim S1600000x16 ![0, 1] bcast_S1x16_S1600000x16_0_1 (broadcastInDim S1x16 ![1] bcast_S16_S1x16_1 bd1))) ((broadcastInDim S1600000x16 ![] bcast_S_S1600000x16) (constant S_ .f32 0x00000000#32))) wd2) (broadcastInDim S1600000x1 ![0, 1] bcast_S1x1_S1600000x1_0_1 (broadcastInDim S1x1 ![1] bcast_S1_S1x1_1 bd2))))))) shapeCasts_S1600000x1_S1600000)

/-- The reference's result: project, aggregate, rectify; project, aggregate; project and add the bias. -/
def refOut (x : (⟨S100000x64, .f32⟩ : BufTy).Contents (Elt F)) (ei : (⟨S2x1600000, .i32⟩ : BufTy).Contents (Elt F)) (ea : (⟨S1600000x1, .f32⟩ : BufTy).Contents (Elt F)) (wd1 : (⟨S1x16, .f32⟩ : BufTy).Contents (Elt F)) (bd1 : (⟨S16, .f32⟩ : BufTy).Contents (Elt F)) (wd2 : (⟨S16x1, .f32⟩ : BufTy).Contents (Elt F)) (bd2 : (⟨S1, .f32⟩ : BufTy).Contents (Elt F)) (w1 : (⟨S64x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F)) (wo : (⟨S64x32, .f32⟩ : BufTy).Contents (Elt F)) (bo : (⟨S32, .f32⟩ : BufTy).Contents (Elt F)) : (⟨S100000x32, .f32⟩ : BufTy).Contents (Elt F) :=
  addf (Host.dotGeneral dot_S100000x64_S64x32_S100000x32_1_0_0_1_n_n none
      (convHost (Host.dotGeneral dot_S100000x64_S64x64_S100000x64_1_0_0_1_n_n none
          (reluHost (convHost (Host.dotGeneral dot_S100000x64_S64x64_S100000x64_1_0_0_1_n_n none x w1) (srcOf ei) (dstOf ei) (ewRef ea wd1 bd1 wd2 bd2) b1)) w2)
        (srcOf ei) (dstOf ei) (ewRef ea wd1 bd1 wd2 bd2) b2) wo)
    (broadcastInDim S100000x32 ![0, 1] bcast_S1x32_S100000x32_0_1 (broadcastInDim S1x32 ![1] bcast_S32_S1x32_1 bo))

set_option maxHeartbeats 4000000 in
/-- The generated run's result term is that composition. -/
theorem res_eq (m : (ℓ : Loc nD τ sig) → Buf (Elt F) ℓ) (c : Dev nD) :
    Value.res_out0 m c = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show Value.res_main_v118 m c = _
  unfold Value.res_main_v118 refOut convHost reluHost srcOf dstOf ewRef
  rfl

end Cert.ReferenceIdeal.RefValue

end
-- ==== Proof.CrossNs.lean ====
import proofs.«130928_j46574625358117_1_alg».proof.Proof.KIHost
import proofs.«130928_j46574625358117_1_alg».proof.Proof.RefSpec

/-! # The host stages of the two programs are the same functions

The kernel program and the reference run the same host operations around their dense layers: the edge list's two
rows, the graph aggregation, the rectifier. Each program states them over its own copies of the shapes and of the
gather / scatter / broadcast dimension records; the copies are the same literals, so the stages are equal as
functions, by unfolding. -/

noncomputable section

namespace Cert.Bridge

open Idealize.ShloMosaic

variable {F : FTy → Type} [FloatOps F]

/-- The edges' sources: row 0 of the edge list, in either program. -/
theorem src_eq : Cert.KernelIdeal.Hand.srcOf (F := F) = Cert.ReferenceIdeal.RefValue.srcOf (F := F) := rfl

/-- The edges' targets: row 1 of the edge list, in either program. -/
theorem dst_eq : Cert.KernelIdeal.Hand.dstOf (F := F) = Cert.ReferenceIdeal.RefValue.dstOf (F := F) := rfl

/-- The rectifier, in either program. -/
theorem relu_eq : Cert.KernelIdeal.Hand.reluHost (F := F) = Cert.ReferenceIdeal.RefValue.reluHost (F := F) := rfl

/-- The graph aggregation, in either program. -/
theorem conv_eq : Cert.KernelIdeal.Hand.convHost (F := F) = Cert.ReferenceIdeal.RefValue.convHost (F := F) := rfl

end Cert.Bridge

end
-- ==== Proof.LinBridge.lean ====
/-
  The linear layer's program-free output against the reference's spelling of it.

  The reference computes a layer as a contraction of the rows [100000, 64] with the weights [64, m] over the one shared
  index, and where there is a bias adds the bias row broadcast down the rows. Read at an index the contraction is the
  sum over the 64 features of the products (the ideal instance's contraction, re-indexed through the one contracted
  coordinate), the broadcasts read the bias at the column, and the layer's output function reads the same sum plus
  the bias row's entry; a bias row of zeros adds nothing.
-/
import proofs.«130928_j46574625358117_1_alg».proof.Proof.Gen.ReferenceIdeal.Read
import proofs.«130928_j46574625358117_1_alg».proof.Proof.LinSpec
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.ReferenceIdeal.Read

/-- The contraction into 32 columns at row `r` and column `q`, for any left operand: the sum over the 64 features. -/
theorem dot32_apply (y : (⟨S100000x64, .f32⟩ : BufTy).Contents (Elt Ideal)) (wo : (⟨S64x32, .f32⟩ : BufTy).Contents (Elt Ideal)) (r : Fin 100000) (q : Fin 32) :
    Host.dotGeneral (F := Ideal) (φ₁ := .f32) (φ₂ := .f32) dot_S100000x64_S64x32_S100000x32_1_0_0_1_n_n none y wo (ix2 r q)
      = ∑ k : Fin 64, y (ix2 r k) * wo (ix2 k q) := by
  simp only [Host.dotGeneral]
  rw [Ideal.dotGeneral_apply, ← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx (ix2 r q) ((contrEquiv1 dot_S100000x64_S64x32_S100000x32_1_0_0_1_n_n 64 rfl rfl).symm k) = ix2 r k :=
    funext fun a => Fin.ext (by
      match a with
      | ⟨0, _⟩ => exact lhs_main_v115_0 _ _
      | ⟨1, _⟩ => exact (lhs_main_v115_1 _ _).trans hk)
  have er : dot_S100000x64_S64x32_S100000x32_1_0_0_1_n_n.rhsIdx (ix2 r q) ((contrEquiv1 dot_S100000x64_S64x32_S100000x32_1_0_0_1_n_n 64 rfl rfl).symm k) = ix2 k q :=
    funext fun a => Fin.ext (by
      match a with
      | ⟨0, _⟩ => exact (rhs_main_v115_0 _ _).trans hk
      | ⟨1, _⟩ => exact rhs_main_v115_1 _ _)
  rw [el, er]

/-- A layer whose bias row is zero is the reference's bare contraction into 64 columns. -/
theorem lin_eq_dot (x : (⟨S100000x64, .f32⟩ : BufTy).Contents (Elt Ideal)) (w : (⟨S64x64, .f32⟩ : BufTy).Contents (Elt Ideal)) (b : S1x64.Idx → EReal)
    (hb : ∀ q : Fin 64, b (ix2 0 q) = 0) :
    Cert.LinSpec.linOut x w b = Host.dotGeneral (F := Ideal) (φ₁ := .f32) (φ₂ := .f32) dot_S100000x64_S64x64_S100000x64_1_0_0_1_n_n none x w := by
  funext i
  obtain ⟨r, q, rfl⟩ : ∃ (r : Fin 100000) (q : Fin 64), i = ix2 r q := ⟨i 0, i 1, eq_ix2 i⟩
  rw [Cert.LinSpec.linOut_apply, hb, add_zero]
  refine Eq.trans ?_ (val_main_v20_apply x w (ix2 r q)).symm
  refine Finset.sum_congr rfl fun k _ => ?_
  have hl : lidx_main_v20 (ix2 r q) k = ix2 r k := funext fun a => match a with
    | ⟨0, _⟩ => rfl
    | ⟨1, _⟩ => rfl
  have hr : ridx_main_v20 (ix2 r q) k = ix2 k q := funext fun a => match a with
    | ⟨0, _⟩ => rfl
    | ⟨1, _⟩ => rfl
  rw [hl, hr]

/-- A layer whose bias row is the bias vector laid out as one row is the reference's contraction into 32 columns plus the
    bias vector broadcast to a row and then down the rows. -/
theorem lin_eq_dot_bias (y : (⟨S100000x64, .f32⟩ : BufTy).Contents (Elt Ideal)) (wo : (⟨S64x32, .f32⟩ : BufTy).Contents (Elt Ideal)) (bo : (⟨S32, .f32⟩ : BufTy).Contents (Elt Ideal))
    (b' : S1x32.Idx → EReal) (hb : ∀ q : Fin 32, b' (ix2 0 q) = bo (ix1 q)) :
    Cert.LinSpec.linOut y wo b'
      = addf (Host.dotGeneral (F := Ideal) (φ₁ := .f32) (φ₂ := .f32) dot_S100000x64_S64x32_S100000x32_1_0_0_1_n_n none y wo)
          (broadcastInDim S100000x32 ![0, 1] bcast_S1x32_S100000x32_0_1 (broadcastInDim S1x32 ![1] bcast_S32_S1x32_1 bo)) := by
  funext i
  obtain ⟨r, q, rfl⟩ : ∃ (r : Fin 100000) (q : Fin 32), i = ix2 r q := ⟨i 0, i 1, eq_ix2 i⟩
  have hi : idx_main_v116 (idx_main_v117 (ix2 r q)) = ix1 q := funext fun a => match a with
    | ⟨0, _⟩ => rfl
  rw [Cert.LinSpec.linOut_apply, hb]
  show _ = Host.dotGeneral (F := Ideal) (φ₁ := .f32) (φ₂ := .f32) dot_S100000x64_S64x32_S100000x32_1_0_0_1_n_n none y wo (ix2 r q) + val_main_v117 (F := Ideal) bo (ix2 r q)
  rw [dot32_apply, val_main_v117_apply, val_main_v116_apply, hi]

end Cert.ReferenceIdeal.RefValue

end
-- ==== Proof.RefEw.lean ====
/-
  The reference's edge weights, read at an edge: the edge-weight function of that edge's attribute.

  The reference computes them on whole arrays: the attributes [E, 1] times the first layer's weights [1, 16] (a
  contraction over one index), plus the biases broadcast down the rows, the maximum with zero, times the second
  layer's weights [16, 1] (a contraction over the sixteen hidden units), plus the bias broadcast, then negation,
  exponential, one plus, one over, and a reshape to [E]. Read at an index each stage reads its operands at an index, so
  the hidden layer at `(e, k)` is the rectified affine image of edge `e`'s attribute under unit `k`
  (`val_main_v8_at`), and the result at `e` is the logistic function of the sum over the units plus the bias: the
  edge-weight function at the attribute, by unfolding alone.
-/
import proofs.«130928_j46574625358117_1_alg».proof.Proof.Gen.ReferenceIdeal.Read
import proofs.«130928_j46574625358117_1_alg».proof.Proof.MlpSpec
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.ReferenceIdeal.Read
  Cert.MlpSpec

/-- The hidden layer at `(e, k)`: the rectified affine image of edge `e`'s attribute under unit `k`. -/
theorem val_main_v8_at (x2 : (⟨S1600000x1, .f32⟩ : BufTy).Contents (Elt Ideal)) (x3 : (⟨S1x16, .f32⟩ : BufTy).Contents (Elt Ideal)) (x4 : (⟨S16, .f32⟩ : BufTy).Contents (Elt Ideal)) (i : S1600000x16.Idx) :
    val_main_v8 (F := Ideal) x2 x3 x4 i = max (x2 (ix2 (i 0) 0) * x3 (ix2 0 (i 1)) + x4 (ix1 (i 1))) 0 := by
  have e2 : lidx_main_v4 i 0 = ix2 (i 0) 0 := funext fun a => match a with
    | ⟨0, _⟩ => rfl
    | ⟨1, _⟩ => rfl
  have e3 : ridx_main_v4 i 0 = ix2 0 (i 1) := funext fun a => match a with
    | ⟨0, _⟩ => rfl
    | ⟨1, _⟩ => rfl
  have e4 : idx_main_v5 (idx_main_v6 i) = ix1 (i 1) := funext fun a => match a with
    | ⟨0, _⟩ => rfl
  rw [val_main_v8_apply, val_main_v7_apply, val_main_v4_apply, val_main_v6_apply, val_main_v5_apply,
    val_main_call0_v0_apply, val_main_call0_cst_apply, Fin.sum_univ_one, e2, e3, e4]
  simp only [Ideal.addf_def, Ideal.maximumf_def, Ideal.ofBits_def, Ideal.ofBits_zero_f32]
  rfl

/-- THE REFERENCE'S EDGE WEIGHT AT EDGE `e` IS THE EDGE-WEIGHT FUNCTION OF THAT EDGE'S ATTRIBUTE, under the argument
    layers. -/
theorem val_main_v19_at (x2 : (⟨S1600000x1, .f32⟩ : BufTy).Contents (Elt Ideal)) (x3 : (⟨S1x16, .f32⟩ : BufTy).Contents (Elt Ideal)) (x4 : (⟨S16, .f32⟩ : BufTy).Contents (Elt Ideal)) (x5 : (⟨S16x1, .f32⟩ : BufTy).Contents (Elt Ideal))
    (x6 : (⟨S1, .f32⟩ : BufTy).Contents (Elt Ideal)) (e : S1600000.Idx) :
    val_main_v19 (F := Ideal) x2 x3 x4 x5 x6 e
      = edgeFn (x2 (ix2 (e 0) 0)) (fun k => x3 (ix2 0 k)) (fun k => x4 (ix1 k)) (fun k => x5 (ix2 k 0)) (x6 (ix1 0)) := by
  have e0 : ∀ k : Fin 16, lidx_main_v9 (idx_main_v19 e) k 0 = e 0 := fun k =>
    Fin.ext (show (e 0).val / 1 = (e 0).val from Nat.div_one _)
  have e1 : ∀ k : Fin 16, lidx_main_v9 (idx_main_v19 e) k 1 = k := fun k => rfl
  have e5 : ∀ k : Fin 16, ridx_main_v9 (idx_main_v19 e) k = ix2 k 0 := fun k => funext fun a => match a with
    | ⟨0, _⟩ => rfl
    | ⟨1, _⟩ => rfl
  have e6 : idx_main_v10 (idx_main_v11 (idx_main_v19 e)) = ix1 0 := funext fun a => match a with
    | ⟨0, _⟩ => rfl
  rw [val_main_v19_apply, val_main_v18_apply, val_main_v17_apply, val_main_cst_0_apply, val_main_v16_apply,
    val_main_v15_apply, val_main_cst_apply, val_main_v14_apply, val_main_v13_apply, val_main_v12_apply,
    val_main_v9_apply, val_main_v11_apply, val_main_v10_apply, e6]
  simp only [val_main_v8_at, e0, e1, e5, Ideal.addf_def, Ideal.hostDivf_def, Ideal.hostUnary_exp_def, Ideal.hostNegf_def, Ideal.negf_def,
    Ideal.ofBits_def, Ideal.ofBits_one_f32]
  rfl

end Cert.ReferenceIdeal.RefValue

end
-- ==== Proof.EwBridge.lean ====
/-
  The kernel program's edge weights are the reference's.

  The kernel side lays the edge attributes [1600000, 1] out as [12500, 128] (edge `e` at row `e / 128`, lane `e % 128`),
  applies the edge-weight function at every position under the first layer's weights, its biases as one row, the second
  layer's weights and its bias as one entry, and lays the result out as one weight per edge again; the reference's
  result at edge `e` is the edge-weight function of that edge's attribute under the same layers. A reshape read at an
  index is the operand at the index with the same row-major position, which for these shapes is arithmetic on `e`.
-/
import proofs.«130928_j46574625358117_1_alg».proof.Proof.KIEwSpec
import proofs.«130928_j46574625358117_1_alg».proof.Proof.RefEw
import Idealize.ShloMosaic.Lib.Pipeline.Value

noncomputable section

namespace Cert.KernelIdeal.Hand

open Idealize.ShloMosaic Idealize.ShloMosaic.ValueIdx Cert.KernelIdeal Cert.MlpSpec

/-- THE EDGE WEIGHTS OF THE TWO PROGRAMS AGREE, as functions of the five argument arrays. -/
theorem ew_eq (ea : (⟨S1600000x1, .f32⟩ : BufTy).Contents (Elt Ideal)) (wd1 : (⟨S1x16, .f32⟩ : BufTy).Contents (Elt Ideal))
    (bd1 : (⟨S16, .f32⟩ : BufTy).Contents (Elt Ideal)) (wd2 : (⟨S16x1, .f32⟩ : BufTy).Contents (Elt Ideal))
    (bd2 : (⟨S1, .f32⟩ : BufTy).Contents (Elt Ideal)) :
    ewKer ea wd1 bd1 wd2 bd2 = Cert.ReferenceIdeal.Read.val_main_v19 (F := Ideal) ea wd1 bd1 wd2 bd2 := by
  funext (e : S1600000.Idx)
  have h0 : (e 0).val < 1600000 := (e 0).isLt
  -- the position of edge `e` in the [12500, 128] layout
  let r : Fin 12500 := ⟨(e 0).val / 128, by omega⟩
  let l : Fin 128 := ⟨(e 0).val % 128, by omega⟩
  have hout : (S12500x128.rowMajor (ix2 r l)).val = (S1600000.rowMajor e).val := by
    rw [Shape.rowMajor_val_two, Shape.rowMajor_val_one]
    show (e 0).val / 128 * 128 + (e 0).val % 128 = (e 0).val
    omega
  have hin : (S1600000x1.rowMajor (ix2 (e 0) (0 : Fin 1))).val = (S12500x128.rowMajor (ix2 r l)).val := by
    rw [Shape.rowMajor_val_two, Shape.rowMajor_val_two]
    show (e 0).val * 1 + 0 = (e 0).val / 128 * 128 + (e 0).val % 128
    omega
  have hb1 : ∀ (h : S16.ShapeCasts S1x16) (k : Fin 16), shapeCast S1x16 bd1 h (ix2 0 k) = bd1 (ix1 k) := fun h k =>
    shapeCast_apply bd1 h (ix2 0 k) (ix1 k) (by
      rw [Shape.rowMajor_val_one, Shape.rowMajor_val_two]
      show k.val = 0 * 16 + k.val
      omega)
  have hb2 : ∀ h : S1.ShapeCasts S1x1, shapeCast S1x1 bd2 h (ix2 0 0) = bd2 (ix1 0) := fun h =>
    shapeCast_apply bd2 h (ix2 0 0) (ix1 0) (by
      rw [Shape.rowMajor_val_one, Shape.rowMajor_val_two]
      rfl)
  rw [Cert.ReferenceIdeal.RefValue.val_main_v19_at]
  unfold ewKer
  rw [shapeCast_apply _ _ e (ix2 r l) hout]
  simp only [ewBlock]
  rw [shapeCast_apply ea _ (ix2 r l) (ix2 (e 0) 0) hin, hb2]
  simp only [hb1]

end Cert.KernelIdeal.Hand

end
-- ==== Proof.KIBias.lean ====
import proofs.«130928_j46574625358117_1_alg».proof.Proof.Gen.KernelIdeal
import Idealize.ShloMosaic.Lib.Pipeline.Value
import Idealize.ShloMosaic.Lib.ValueIdx
import Idealize.ShloMosaic.PureOps.Ideal.Laws

/-! # The bias rows the linear layers are launched on

The first two layers have no bias: their bias row is the zero scalar broadcast to 64 entries and laid out as a
[1, 64] row, so every entry of it is `0`. The last layer's bias row is its 32-entry bias laid out as a [1, 32] row:
entry `(0, q)` of the row is entry `q` of the bias. -/

noncomputable section

namespace Cert.KernelIdeal.Hand

open Cert.KernelIdeal Cert.KernelIdeal.Gen
open Idealize.ShloMosaic Idealize.ShloMosaic.ValueIdx

/-- Every entry of the zero bias row is `0`: the row is a re-layout of the splat of the zero word. -/
theorem zeroRow_apply (q : Fin 64) :
    (shapeCast S1x64 (broadcastInDim S64 ![] bcast_S_S64 (constant (F := Ideal) S_ .f32 0x00000000#32)) shapeCasts_S64_S1x64)
      (ix2 (0 : Fin 1) q) = 0 := by
  refine (shapeCast_apply _ shapeCasts_S64_S1x64 (ix2 (0 : Fin 1) q) (ix1 q) ?_).trans ?_
  · rw [Shape.rowMajor_val_one, Shape.rowMajor_val_two]
    show q.val = 0 * 64 + q.val
    omega
  · refine (broadcastInDim_apply ![] bcast_S_S64 _ (ix1 q) ix0 (fun a => a.elim0)).trans ?_
    show Ideal.ofBits .f32 0x00000000#32 = 0
    exact Ideal.ofBits_zero_f32

/-- Entry `(0, q)` of the bias laid out as a row is entry `q` of the bias. -/
theorem biasRow_apply (bo : (⟨S32, .f32⟩ : BufTy).Contents (Elt Ideal)) (q : Fin 32) :
    (shapeCast S1x32 bo shapeCasts_S32_S1x32) (ix2 (0 : Fin 1) q) = bo (ix1 q) := by
  refine shapeCast_apply bo shapeCasts_S32_S1x32 (ix2 (0 : Fin 1) q) (ix1 q) ?_
  rw [Shape.rowMajor_val_one, Shape.rowMajor_val_two]
  show q.val = 0 * 32 + q.val
  omega

end Cert.KernelIdeal.Hand

end
-- ==== Proof.Bridge.lean ====
/-
  The two results are one function of the arguments.

  The host stretches between the regions are the reference's own operations, so both results are the same tower of
  aggregations over three dense projections and the edge weights. What differs: the kernel's projections are row blocks of
  `x·W + b` (a zero bias row in the first two), equal to the reference's matrix product and product-plus-bias index by
  index; and the kernel's edge weights are computed on a [12500, 128] layout by a pointwise kernel, equal to the
  reference's perceptron read edge by edge. No step needs finiteness: sums over the extended reals regroup freely.
-/
import proofs.«130928_j46574625358117_1_alg».proof.Proof.KIValue
import proofs.«130928_j46574625358117_1_alg».proof.Proof.RefSpec
import proofs.«130928_j46574625358117_1_alg».proof.Proof.CrossNs
import proofs.«130928_j46574625358117_1_alg».proof.Proof.LinBridge
import proofs.«130928_j46574625358117_1_alg».proof.Proof.EwBridge
import proofs.«130928_j46574625358117_1_alg».proof.Proof.KIBias

set_option maxRecDepth 16384

noncomputable section

namespace Cert.Bridge

open Idealize.ShloMosaic Idealize.ShloMosaic.ValueIdx Idealize.SL.Sem
open Cert.ReferenceIdeal Cert.ReferenceIdeal.RefValue Cert.LinSpec

/-- The reference's edge weights are the generated stage of its `%19`. -/
theorem ewRef_eq (ea : (⟨S1600000x1, .f32⟩ : BufTy).Contents (Elt Ideal)) (wd1 : (⟨S1x16, .f32⟩ : BufTy).Contents (Elt Ideal)) (bd1 : (⟨S16, .f32⟩ : BufTy).Contents (Elt Ideal)) (wd2 : (⟨S16x1, .f32⟩ : BufTy).Contents (Elt Ideal)) (bd2 : (⟨S1, .f32⟩ : BufTy).Contents (Elt Ideal)) :
    ewRef (F := Ideal) ea wd1 bd1 wd2 bd2 = Cert.ReferenceIdeal.Read.val_main_v19 (F := Ideal) ea wd1 bd1 wd2 bd2 := by
  unfold ewRef; rfl

/-- The zero bias row reads zero. -/
theorem zb64_apply (q : Fin 64) : Cert.KernelIdeal.Hand.zb64 (ix2 (0 : Fin 1) q) = 0 :=
  Cert.KernelIdeal.Hand.zeroRow_apply q

/-- THE BRIDGE: the kernel program's result and the reference's are equal, for all extended-real arguments. -/
theorem out_bridge (x : (⟨S100000x64, .f32⟩ : BufTy).Contents (Elt Ideal)) (ei : (⟨S2x1600000, .i32⟩ : BufTy).Contents (Elt Ideal)) (ea : (⟨S1600000x1, .f32⟩ : BufTy).Contents (Elt Ideal)) (wd1 : (⟨S1x16, .f32⟩ : BufTy).Contents (Elt Ideal)) (bd1 : (⟨S16, .f32⟩ : BufTy).Contents (Elt Ideal)) (wd2 : (⟨S16x1, .f32⟩ : BufTy).Contents (Elt Ideal)) (bd2 : (⟨S1, .f32⟩ : BufTy).Contents (Elt Ideal)) (w1 : (⟨S64x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal)) (wo : (⟨S64x32, .f32⟩ : BufTy).Contents (Elt Ideal)) (bo : (⟨S32, .f32⟩ : BufTy).Contents (Elt Ideal)) :
    refOut (F := Ideal) x ei ea wd1 bd1 wd2 bd2 w1 b1 w2 b2 wo bo = Cert.KernelIdeal.Hand.kerOut x ei ea wd1 bd1 wd2 bd2 w1 b1 w2 b2 wo bo := by
  unfold refOut Cert.KernelIdeal.Hand.kerOut
  rw [lin_eq_dot_bias _ _ bo _ (Cert.KernelIdeal.Hand.biasRow_apply bo), lin_eq_dot _ _ _ zb64_apply, lin_eq_dot _ _ _ zb64_apply,
    Cert.KernelIdeal.Hand.ew_eq, ewRef_eq, conv_eq, relu_eq, src_eq, dst_eq]

end Cert.Bridge

end
-- ==== Proof.lean ====
/-
  The certificate's five claims.

  The word-level program and its idealization run through their four regions and ten host stretches with every argument
  array ending as launched (the frames); the idealization rewrote nothing (preserves); and at the ideal instance the
  kernel program's result and the reference's are one function of the arguments, so from memories agreeing on the
  arguments the two runs end with equal results (algebraic). The reference's frame is its generated run with the result
  dropped.
-/
import proofs.«130928_j46574625358117_1_alg».proof.Defs
import proofs.«130928_j46574625358117_1_alg».proof.Proof.Gen.Kernel
import proofs.«130928_j46574625358117_1_alg».proof.Proof.Gen.KernelIdeal
import proofs.«130928_j46574625358117_1_alg».proof.Proof.Gen.ReferenceIdeal
import proofs.«130928_j46574625358117_1_alg».proof.Proof.Gen.Pre_finite_inputs
import proofs.«130928_j46574625358117_1_alg».proof.Proof.Gen.ReferenceIdeal.Run
import proofs.«130928_j46574625358117_1_alg».proof.Proof.Gen.ReferenceIdeal.Read
import proofs.«130928_j46574625358117_1_alg».proof.Proof.KKeep
import proofs.«130928_j46574625358117_1_alg».proof.Proof.KIKeep
import proofs.«130928_j46574625358117_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel program's result array at `kerOut` of its arguments and the reference's at `refOut` of its
    own, which agree with the kernel's; and the two are one function. -/
theorem algebraic : Cert.algebraic_KernelIdeal_ReferenceIdeal := by
  intro m ρ m' ρ' _ hagree
  refine ⟨fun c => Cert.KernelIdeal.Hand.W14 m c (Proc.devRef .tc Cert.KernelIdeal.main_v108), Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.RefValue.res_eq m' c).trans ?_).trans (Cert.KernelIdeal.Hand.out_eq m c).symm
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2]
  exact Cert.Bridge.out_bridge _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
